-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S2x800000 : Shape := ⟨2, ![2, 800000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S10000 : S_.BroadcastsInDim S10000 (![] : Fin 0 → Fin S10000.rank)
  reducesTo_S10000_S_d0 : S10000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S256x128 .f32) (main_arg14 : FVec F S128 .f32) (main_arg15 : FVec F S128x2 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg15
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S256x128 .f32) (main_arg14 : FVec F S128 .f32) (main_arg15 : FVec F S128x2 .f32) (main_arg16 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S256x128 .f32) (main_arg14 : FVec F S128 .f32) (main_arg15 : FVec F S128x2 .f32) (main_arg16 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : FVec F S1600000 .f32) (main_arg3 : IVec S2x800000 32) (main_arg4 : FVec F S10000 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S256x128 .f32) (main_arg14 : FVec F S128 .f32) (main_arg15 : FVec F S128x2 .f32) (main_arg16 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S10000 .f32 := Host.absf main_arg4
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S2x800000 : Shape := ⟨2, ![2, 800000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S100000x1 : Shape := ⟨2, ![100000, 1]⟩
abbrev S2000x1 : Shape := ⟨2, ![2000, 1]⟩
abbrev S10000x1 : Shape := ⟨2, ![10000, 1]⟩
abbrev S800000x128 : Shape := ⟨2, ![800000, 128]⟩
abbrev S10000x128 : Shape := ⟨2, ![10000, 128]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 214
  | .vmem => 41
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S2x800000, .i32⟩
  | 4 => ⟨S10000, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S256x128, .f32⟩
  | 14 => ⟨S128, .f32⟩
  | 15 => ⟨S128x2, .f32⟩
  | 16 => ⟨S2, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S1700000x1, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x800000, .i32⟩
  | 95 => ⟨S800000, .i32⟩
  | 96 => ⟨S1x800000, .i32⟩
  | 97 => ⟨S800000, .i32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S_, .f32⟩
  | 108 => ⟨S100000, .f32⟩
  | 109 => ⟨S800000x1, .i32⟩
  | 110 => ⟨S100000, .f32⟩
  | 111 => ⟨S_, .f32⟩
  | 112 => ⟨S800000, .f32⟩
  | 113 => ⟨S_, .f32⟩
  | 114 => ⟨S100000, .f32⟩
  | 115 => ⟨S800000x1, .i32⟩
  | 116 => ⟨S100000, .f32⟩
  | 117 => ⟨S_, .f32⟩
  | 118 => ⟨S100000, .f32⟩
  | 119 => ⟨S100000, .i1⟩
  | 120 => ⟨S_, .f32⟩
  | 121 => ⟨S100000, .f32⟩
  | 122 => ⟨S100000, .f32⟩
  | 123 => ⟨S_, .f32⟩
  | 124 => ⟨S_, .f32⟩
  | 125 => ⟨S100000, .f32⟩
  | 126 => ⟨S100000, .f32⟩
  | 127 => ⟨S_, .f32⟩
  | _ => ⟨S100000x128, .f32⟩

abbrev hbmTy0_1 (i : Nat) : BufTy := match i % 128 with
  | 0 => ⟨S800000, .f32⟩
  | 1 => ⟨S_, .f32⟩
  | 2 => ⟨S10000, .f32⟩
  | 3 => ⟨S800000x1, .i32⟩
  | 4 => ⟨S10000, .f32⟩
  | 5 => ⟨S_, .f32⟩
  | 6 => ⟨S10000, .f32⟩
  | 7 => ⟨S10000, .i1⟩
  | 8 => ⟨S_, .f32⟩
  | 9 => ⟨S10000, .f32⟩
  | 10 => ⟨S10000, .f32⟩
  | 11 => ⟨S_, .f32⟩
  | 12 => ⟨S_, .f32⟩
  | 13 => ⟨S10000, .f32⟩
  | 14 => ⟨S10000, .f32⟩
  | 15 => ⟨S100000x1, .f32⟩
  | 16 => ⟨S100000x128, .f32⟩
  | 17 => ⟨S10000x1, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S10000x128, .f32⟩
  | 29 => ⟨S800000x1, .i32⟩
  | 30 => ⟨S10000x128, .f32⟩
  | 31 => ⟨S10000x128, .f32⟩
  | 32 => ⟨S10000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S100000x128, .f32⟩
  | 44 => ⟨S800000x1, .i32⟩
  | 45 => ⟨S100000x128, .f32⟩
  | 46 => ⟨S100000x1, .f32⟩
  | 47 => ⟨S1x128, .f32⟩
  | 48 => ⟨S100000x128, .f32⟩
  | 49 => ⟨S10000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S10000x128, .f32⟩
  | 61 => ⟨S800000x1, .i32⟩
  | 62 => ⟨S10000x128, .f32⟩
  | 63 => ⟨S10000x128, .f32⟩
  | 64 => ⟨S10000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S100000x128, .f32⟩
  | 76 => ⟨S800000x1, .i32⟩
  | 77 => ⟨S100000x128, .f32⟩
  | 78 => ⟨S128x128, .f32⟩
  | 79 => ⟨S128x128, .f32⟩
  | 80 => ⟨S100000x1, .f32⟩
  | 81 => ⟨S1x128, .f32⟩
  | 82 => ⟨S1x128, .f32⟩
  | 83 => ⟨S1x128, .f32⟩
  | 84 => ⟨S1x2, .f32⟩
  | 85 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S1x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S128x2, .f32⟩
  | .local _ .vmem, ⟨38, _⟩ => ⟨S1x2, .f32⟩
  | .local _ .vmem, ⟨39, _⟩ => ⟨S2000x2, .f32⟩
  | .local _ .vmem, ⟨40, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_cst_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩
abbrev main_cst_19 : Ref sig .tc := ⟨.hbm, 123, rfl⟩
abbrev main_call1_v0 : Ref sig .tc := ⟨.hbm, 124, rfl⟩
abbrev main_call1_v1 : Ref sig .tc := ⟨.hbm, 125, rfl⟩
abbrev main_v83 : Ref sig .tc := ⟨.hbm, 126, rfl⟩
abbrev main_cst_20 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_22 : Ref sig .tc := ⟨.hbm, 133, rfl⟩
abbrev main_v88 : Ref sig .tc := ⟨.hbm, 134, rfl⟩
abbrev main_v89 : Ref sig .tc := ⟨.hbm, 135, rfl⟩
abbrev main_cst_23 : Ref sig .tc := ⟨.hbm, 136, rfl⟩
abbrev main_v90 : Ref sig .tc := ⟨.hbm, 137, rfl⟩
abbrev main_v91 : Ref sig .tc := ⟨.hbm, 138, rfl⟩
abbrev main_cst_24 : Ref sig .tc := ⟨.hbm, 139, rfl⟩
abbrev main_call2_v0 : Ref sig .tc := ⟨.hbm, 140, rfl⟩
abbrev main_call2_v1 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_25 : Ref sig .tc := ⟨.hbm, 146, rfl⟩
abbrev main_v96 : Ref sig .tc := ⟨.hbm, 147, rfl⟩
abbrev main_v97 : Ref sig .tc := ⟨.hbm, 148, rfl⟩
abbrev main_c_26 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_27 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_c_28 : Ref sig .tc := ⟨.hbm, 161, rfl⟩
abbrev main_v108 : Ref sig .tc := ⟨.hbm, 162, rfl⟩
abbrev main_v109 : Ref sig .tc := ⟨.hbm, 163, rfl⟩
abbrev main_c_29 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_30 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_c_31 : Ref sig .tc := ⟨.hbm, 178, rfl⟩
abbrev main_v122 : Ref sig .tc := ⟨.hbm, 179, rfl⟩
abbrev main_v123 : Ref sig .tc := ⟨.hbm, 180, rfl⟩
abbrev main_c_32 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_33 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_34 : Ref sig .tc := ⟨.hbm, 193, rfl⟩
abbrev main_v134 : Ref sig .tc := ⟨.hbm, 194, rfl⟩
abbrev main_v135 : Ref sig .tc := ⟨.hbm, 195, rfl⟩
abbrev main_c_35 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_36 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg8_0 : Ref sig .tc := ⟨.vmem, 37, rfl⟩
abbrev cc4_stg9_0 : Ref sig .tc := ⟨.vmem, 38, rfl⟩
abbrev cc4_stg10_0 : Ref sig .tc := ⟨.vmem, 39, rfl⟩
abbrev cc4_stg10_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32
abbrev cc4_sem4_0 : DmaSem sig := 33
abbrev cc4_sem5_0 : DmaSem sig := 34
abbrev cc4_sem6_0 : DmaSem sig := 35
abbrev cc4_sem7_0 : DmaSem sig := 36
abbrev cc4_sem8_0 : DmaSem sig := 37
abbrev cc4_sem9_0 : DmaSem sig := 38
abbrev cc4_sem10_0 : DmaSem sig := 39
abbrev cc4_sem10_1 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x2 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x2 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S10000 : S_.BroadcastsInDim S10000 (![] : Fin 0 → Fin S10000.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S10000_S10000x1_0 : S10000.BroadcastsInDim S10000x1 (![0] : Fin 1 → Fin S10000x1.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  slices_S256x128_S128x128_0_0 : S256x128.Slices ![0, 0] S128x128
  slices_S256x128_S128x128_128_0 : S256x128.Slices ![128, 0] S128x128
  shapeCasts_S2_S1x2 : S2.ShapeCasts S1x2
  shapeCasts_S128x128_S128x128 : S128x128.ShapeCasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S10000_S800000x1_S800000_n_0_n_n_0_1_1_wf : GatherDims.WF S10000 S800000x1 S800000 [] [0] [] [0] [] 1 ![1]
  scatter_S100000_S800000x1_S800000_n_0_0_1_wf : ScatterDims.WF S100000 S800000x1 S800000 [] [0] [0] 1
  scatter_S10000_S800000x1_S800000_n_0_0_1_wf : ScatterDims.WF S10000 S800000x1 S800000 [] [0] [0] 1
  gather_S100000x128_S800000x1_S800000x128_1_0_n_n_0_1_1128_wf : GatherDims.WF S100000x128 S800000x1 S800000x128 [1] [0] [] [0] [] 1 ![1, 128]
  scatter_S10000x128_S800000x1_S800000x128_1_0_0_1_wf : ScatterDims.WF S10000x128 S800000x1 S800000x128 [1] [0] [0] 1
  gather_S10000x128_S800000x1_S800000x128_1_0_n_n_0_1_1128_wf : GatherDims.WF S10000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x2.size a ≤ S128x2.size a
  hwx4_8 : ∀ i : grid4.Coords, EltTy.bits .f32 = 32 ∨ (Rect.block (s := S128x2) S128x2.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x2.size a ≤ S1x2.size a
  hwx4_9 : ∀ i : grid4.Coords, EltTy.bits .f32 = 32 ∨ (Rect.block (s := S1x2) S1x2.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x2.size a ≤ S100000x2.size a
  hwx4_10 : ∀ i : grid4.Coords, EltTy.bits .f32 = 32 ∨ (Rect.block (s := S100000x2) S2000x2.size (cc4_transform_10 i) (hinb4_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S10000_S800000x1_S800000_n_0_n_n_0_1_1 : GatherDims S10000 S800000x1 S800000 where
  offsetDims := []
  collapsedSliceDims := [0]
  operandBatchingDims := []
  startIndicesBatchingDims := []
  startIndexMap := [0]
  indexVectorDim := 1
  sliceSizes := ![1]
  wf := gather_S10000_S800000x1_S800000_n_0_n_n_0_1_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v94) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v117) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v119) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v120) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v147) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v143) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v146) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v148) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v144) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v145) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v149) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg15) S128x2.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v150) S1x2.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v151) S2000x2.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S2x800000 : Shape := ⟨2, ![2, 800000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S100000x1 : Shape := ⟨2, ![100000, 1]⟩
abbrev S10000x1 : Shape := ⟨2, ![10000, 1]⟩
abbrev S800000x128 : Shape := ⟨2, ![800000, 128]⟩
abbrev S10000x128 : Shape := ⟨2, ![10000, 128]⟩
abbrev S100000x256 : Shape := ⟨2, ![100000, 256]⟩
abbrev S100000x2 : Shape := ⟨2, ![100000, 2]⟩
abbrev S1x2 : Shape := ⟨2, ![1, 2]⟩

abbrev nBuf : Space → Nat
  | .hbm => 311
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S2x800000, .i32⟩
  | 4 => ⟨S10000, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S256x128, .f32⟩
  | 14 => ⟨S128, .f32⟩
  | 15 => ⟨S128x2, .f32⟩
  | 16 => ⟨S2, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S100000x128, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S1700000x1, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S1700000x128, .f32⟩
  | 126 => ⟨S1700000x128, .f32⟩
  | 127 => ⟨S_, .f32⟩
  | _ => ⟨S100000x128, .f32⟩

abbrev hbmTy0_1 (i : Nat) : BufTy := match i % 128 with
  | 0 => ⟨S100000x128, .f32⟩
  | 1 => ⟨S1700000x1, .i32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000, .f32⟩
  | 22 => ⟨S_, .f32⟩
  | 23 => ⟨S100000, .f32⟩
  | 24 => ⟨S800000x1, .i32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S_, .f32⟩
  | 31 => ⟨S800000, .f32⟩
  | 32 => ⟨S_, .f32⟩
  | 33 => ⟨S100000, .f32⟩
  | 34 => ⟨S800000x1, .i32⟩
  | 35 => ⟨S100000, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .f32⟩
  | 47 => ⟨S800000, .f32⟩
  | 48 => ⟨S_, .f32⟩
  | 49 => ⟨S10000, .f32⟩
  | 50 => ⟨S800000x1, .i32⟩
  | 51 => ⟨S10000, .f32⟩
  | 52 => ⟨S_, .f32⟩
  | 53 => ⟨S10000, .f32⟩
  | 54 => ⟨S10000, .i1⟩
  | 55 => ⟨S_, .f32⟩
  | 56 => ⟨S10000, .f32⟩
  | 57 => ⟨S10000, .f32⟩
  | 58 => ⟨S_, .f32⟩
  | 59 => ⟨S_, .f32⟩
  | 60 => ⟨S10000, .f32⟩
  | 61 => ⟨S10000, .f32⟩
  | 62 => ⟨S10000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S10000x128, .f32⟩
  | 74 => ⟨S800000x1, .i32⟩
  | 75 => ⟨S10000x128, .f32⟩
  | 76 => ⟨S10000x128, .f32⟩
  | 77 => ⟨S10000x128, .f32⟩
  | 78 => ⟨S100000x1, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S100000x128, .f32⟩
  | 90 => ⟨S800000x1, .i32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .f32⟩
  | 102 => ⟨S800000, .f32⟩
  | 103 => ⟨S_, .f32⟩
  | 104 => ⟨S100000, .f32⟩
  | 105 => ⟨S800000x1, .i32⟩
  | 106 => ⟨S100000, .f32⟩
  | 107 => ⟨S_, .f32⟩
  | 108 => ⟨S100000, .f32⟩
  | 109 => ⟨S100000, .i1⟩
  | 110 => ⟨S_, .f32⟩
  | 111 => ⟨S100000, .f32⟩
  | 112 => ⟨S100000, .f32⟩
  | 113 => ⟨S_, .f32⟩
  | 114 => ⟨S_, .f32⟩
  | 115 => ⟨S100000, .f32⟩
  | 116 => ⟨S100000, .f32⟩
  | 117 => ⟨S_, .f32⟩
  | 118 => ⟨S800000, .f32⟩
  | 119 => ⟨S_, .f32⟩
  | 120 => ⟨S10000, .f32⟩
  | 121 => ⟨S800000x1, .i32⟩
  | 122 => ⟨S10000, .f32⟩
  | 123 => ⟨S_, .f32⟩
  | 124 => ⟨S10000, .f32⟩
  | 125 => ⟨S10000, .i1⟩
  | 126 => ⟨S_, .f32⟩
  | 127 => ⟨S10000, .f32⟩
  | _ => ⟨S100000x128, .f32⟩

abbrev hbmTy0_2 (i : Nat) : BufTy := match i % 128 with
  | 0 => ⟨S10000, .f32⟩
  | 1 => ⟨S_, .f32⟩
  | 2 => ⟨S_, .f32⟩
  | 3 => ⟨S10000, .f32⟩
  | 4 => ⟨S10000, .f32⟩
  | 5 => ⟨S10000x1, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S_, .f32⟩
  | 16 => ⟨S10000x128, .f32⟩
  | 17 => ⟨S800000x1, .i32⟩
  | 18 => ⟨S10000x128, .f32⟩
  | 19 => ⟨S10000x128, .f32⟩
  | 20 => ⟨S10000x128, .f32⟩
  | 21 => ⟨S100000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S100000x128, .f32⟩
  | 33 => ⟨S800000x1, .i32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x256, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x2, .f32⟩
  | 52 => ⟨S1x2, .f32⟩
  | 53 => ⟨S100000x2, .f32⟩
  | 54 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_call2_v0 : Ref sig .tc := ⟨.hbm, 92, rfl⟩
abbrev main_call2_v1 : Ref sig .tc := ⟨.hbm, 93, rfl⟩
abbrev main_v57 : Ref sig .tc := ⟨.hbm, 94, rfl⟩
abbrev main_c_12 : Ref sig .tc := ⟨.hbm, 95, rfl⟩
abbrev main_v58 : Ref sig .tc := ⟨.hbm, 96, rfl⟩
abbrev main_v59 : Ref sig .tc := ⟨.hbm, 97, rfl⟩
abbrev main_c_13 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_14 : Ref sig .tc := ⟨.hbm, 105, rfl⟩
abbrev main_v66 : Ref sig .tc := ⟨.hbm, 106, rfl⟩
abbrev main_v67 : Ref sig .tc := ⟨.hbm, 107, rfl⟩
abbrev main_c_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_16 : Ref sig .tc := ⟨.hbm, 116, rfl⟩
abbrev main_v75 : Ref sig .tc := ⟨.hbm, 117, rfl⟩
abbrev main_v76 : Ref sig .tc := ⟨.hbm, 118, rfl⟩
abbrev main_c_17 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call3_cst : Ref sig .tc := ⟨.hbm, 134, rfl⟩
abbrev main_call3_v0 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_19 : Ref sig .tc := ⟨.hbm, 141, rfl⟩
abbrev main_v95 : Ref sig .tc := ⟨.hbm, 142, rfl⟩
abbrev main_v96 : Ref sig .tc := ⟨.hbm, 143, rfl⟩
abbrev main_c_20 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_21 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_22 : Ref sig .tc := ⟨.hbm, 158, rfl⟩
abbrev main_v109 : Ref sig .tc := ⟨.hbm, 159, rfl⟩
abbrev main_cst_23 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_24 : Ref sig .tc := ⟨.hbm, 164, rfl⟩
abbrev main_v113 : Ref sig .tc := ⟨.hbm, 165, rfl⟩
abbrev main_v114 : Ref sig .tc := ⟨.hbm, 166, rfl⟩
abbrev main_cst_25 : Ref sig .tc := ⟨.hbm, 167, rfl⟩
abbrev main_v115 : Ref sig .tc := ⟨.hbm, 168, rfl⟩
abbrev main_v116 : Ref sig .tc := ⟨.hbm, 169, rfl⟩
abbrev main_cst_26 : Ref sig .tc := ⟨.hbm, 170, rfl⟩
abbrev main_call4_v0 : Ref sig .tc := ⟨.hbm, 171, rfl⟩
abbrev main_call4_v1 : Ref sig .tc := ⟨.hbm, 172, rfl⟩
abbrev main_v117 : Ref sig .tc := ⟨.hbm, 173, rfl⟩
abbrev main_cst_27 : Ref sig .tc := ⟨.hbm, 174, rfl⟩
abbrev main_v118 : Ref sig .tc := ⟨.hbm, 175, rfl⟩
abbrev main_cst_28 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_29 : Ref sig .tc := ⟨.hbm, 180, rfl⟩
abbrev main_v122 : Ref sig .tc := ⟨.hbm, 181, rfl⟩
abbrev main_v123 : Ref sig .tc := ⟨.hbm, 182, rfl⟩
abbrev main_cst_30 : Ref sig .tc := ⟨.hbm, 183, rfl⟩
abbrev main_v124 : Ref sig .tc := ⟨.hbm, 184, rfl⟩
abbrev main_v125 : Ref sig .tc := ⟨.hbm, 185, rfl⟩
abbrev main_cst_31 : Ref sig .tc := ⟨.hbm, 186, rfl⟩
abbrev main_call5_v0 : Ref sig .tc := ⟨.hbm, 187, rfl⟩
abbrev main_call5_v1 : Ref sig .tc := ⟨.hbm, 188, rfl⟩
abbrev main_v126 : Ref sig .tc := ⟨.hbm, 189, rfl⟩
abbrev main_v127 : Ref sig .tc := ⟨.hbm, 190, rfl⟩
abbrev main_c_32 : Ref sig .tc := ⟨.hbm, 191, rfl⟩
abbrev main_v128 : Ref sig .tc := ⟨.hbm, 192, rfl⟩
abbrev main_v129 : Ref sig .tc := ⟨.hbm, 193, rfl⟩
abbrev main_c_33 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_34 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_c_35 : Ref sig .tc := ⟨.hbm, 207, rfl⟩
abbrev main_v141 : Ref sig .tc := ⟨.hbm, 208, rfl⟩
abbrev main_v142 : Ref sig .tc := ⟨.hbm, 209, rfl⟩
abbrev main_c_36 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_cst_37 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_call6_cst : Ref sig .tc := ⟨.hbm, 225, rfl⟩
abbrev main_call6_v0 : Ref sig .tc := ⟨.hbm, 226, rfl⟩
abbrev main_v156 : Ref sig .tc := ⟨.hbm, 227, rfl⟩
abbrev main_v157 : Ref sig .tc := ⟨.hbm, 228, rfl⟩
abbrev main_cst_38 : Ref sig .tc := ⟨.hbm, 229, rfl⟩
abbrev main_v158 : Ref sig .tc := ⟨.hbm, 230, rfl⟩
abbrev main_cst_39 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_40 : Ref sig .tc := ⟨.hbm, 235, rfl⟩
abbrev main_v162 : Ref sig .tc := ⟨.hbm, 236, rfl⟩
abbrev main_v163 : Ref sig .tc := ⟨.hbm, 237, rfl⟩
abbrev main_cst_41 : Ref sig .tc := ⟨.hbm, 238, rfl⟩
abbrev main_v164 : Ref sig .tc := ⟨.hbm, 239, rfl⟩
abbrev main_v165 : Ref sig .tc := ⟨.hbm, 240, rfl⟩
abbrev main_cst_42 : Ref sig .tc := ⟨.hbm, 241, rfl⟩
abbrev main_call7_v0 : Ref sig .tc := ⟨.hbm, 242, rfl⟩
abbrev main_call7_v1 : Ref sig .tc := ⟨.hbm, 243, rfl⟩
abbrev main_v166 : Ref sig .tc := ⟨.hbm, 244, rfl⟩
abbrev main_cst_43 : Ref sig .tc := ⟨.hbm, 245, rfl⟩
abbrev main_v167 : Ref sig .tc := ⟨.hbm, 246, rfl⟩
abbrev main_cst_44 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_cst_45 : Ref sig .tc := ⟨.hbm, 251, rfl⟩
abbrev main_v171 : Ref sig .tc := ⟨.hbm, 252, rfl⟩
abbrev main_v172 : Ref sig .tc := ⟨.hbm, 253, rfl⟩
abbrev main_cst_46 : Ref sig .tc := ⟨.hbm, 254, rfl⟩
abbrev main_v173 : Ref sig .tc := ⟨.hbm, 255, rfl⟩
abbrev main_v174 : Ref sig .tc := ⟨.hbm, 256, rfl⟩
abbrev main_cst_47 : Ref sig .tc := ⟨.hbm, 257, rfl⟩
abbrev main_call8_v0 : Ref sig .tc := ⟨.hbm, 258, rfl⟩
abbrev main_call8_v1 : Ref sig .tc := ⟨.hbm, 259, rfl⟩
abbrev main_v175 : Ref sig .tc := ⟨.hbm, 260, rfl⟩
abbrev main_v176 : Ref sig .tc := ⟨.hbm, 261, rfl⟩
abbrev main_c_48 : Ref sig .tc := ⟨.hbm, 262, rfl⟩
abbrev main_v177 : Ref sig .tc := ⟨.hbm, 263, rfl⟩
abbrev main_v178 : Ref sig .tc := ⟨.hbm, 264, rfl⟩
abbrev main_c_49 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_cst_50 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_c_51 : Ref sig .tc := ⟨.hbm, 278, rfl⟩
abbrev main_v190 : Ref sig .tc := ⟨.hbm, 279, rfl⟩
abbrev main_v191 : Ref sig .tc := ⟨.hbm, 280, rfl⟩
abbrev main_c_52 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_cst_53 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_call9_cst : Ref sig .tc := ⟨.hbm, 296, rfl⟩
abbrev main_call9_v0 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_call10_cst : Ref sig .tc := ⟨.hbm, 304, rfl⟩
abbrev main_call10_v0 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  concatenates_S100000x128_S100000x128_S100000x256_d1 : Shape.Concatenates [S100000x128, S100000x128] S100000x256 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S10000_S800000x1_S800000_n_0_n_n_0_1_1_wf : GatherDims.WF S10000 S800000x1 S800000 [] [0] [] [0] [] 1 ![1]
  scatter_S100000_S800000x1_S800000_n_0_0_1_wf : ScatterDims.WF S100000 S800000x1 S800000 [] [0] [0] 1
  scatter_S10000_S800000x1_S800000_n_0_0_1_wf : ScatterDims.WF S10000 S800000x1 S800000 [] [0] [0] 1
  gather_S100000x128_S800000x1_S800000x128_1_0_n_n_0_1_1128_wf : GatherDims.WF S100000x128 S800000x1 S800000x128 [1] [0] [] [0] [] 1 ![1, 128]
  scatter_S10000x128_S800000x1_S800000x128_1_0_0_1_wf : ScatterDims.WF S10000x128 S800000x1 S800000x128 [1] [0] [0] 1
  gather_S10000x128_S800000x1_S800000x128_1_0_n_n_0_1_1128_wf : GatherDims.WF S10000x128 S800000x1 S800000x128 [1] [0] [] [0] [] 1 ![1, 128]
  scatter_S100000x128_S800000x1_S800000x128_1_0_0_1_wf : ScatterDims.WF S100000x128 S800000x1 S800000x128 [1] [0] [0] 1
  dot_S100000x256_S256x128_S100000x128_1_0_0_1_n_n_wf : DotDims.WF S100000x256 S256x128 S100000x128 [1] [0] [0] [1] [] []
  dot_S100000x128_S128x2_S100000x2_1_0_0_1_n_n_wf : DotDims.WF S100000x128 S128x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S10000_S800000x1_S800000_n_0_n_n_0_1_1 : GatherDims S10000 S800000x1 S800000 where
  offsetDims := []
  collapsedSliceDims := [0]
  operandBatchingDims := []
  startIndicesBatchingDims := []
  startIndexMap := [0]
  indexVectorDim := 1
  sliceSizes := ![1]
  wf := gather_S10000_S800000x1_S800000_n_0_n_n_0_1_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The kernel program's run with its result named: every weakly fair execution of @main terminates, nothing faulting, with the
  result array at what the last region's write-backs leave of the buffer contents folded through @main's host stretches and
  regions (the fold `W16`), and the argument arrays as launched. It is the frame's run over the same segments, the last thread
  state read at one more buffer.
-/
import proofs.«178827_j8151847928475_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v151) = W16 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v151 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c)⟩)

end Cert.KernelIdeal.ValueRun

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowProduct.lean ====
/-
  Rows times a weight matrix, `Σ_k X(r,k)·W(k,j)`, over the extended reals, as ONE function of the two whole arrays, and
  its two spellings. The host's plain `dot_general` IS that function. A row-tiled kernel multiplies a block of rows,
  both operands first rounded to bf16 (the identity on the extended reals), into a zero accumulator: entry `(p, j)` of
  the block's product is the function's entry at the block's row `p`, so a block that holds the rows `o + p` of `X` yields
  the rows `o + p` of the whole product. No finiteness is used anywhere: a sum of products is the same sum on both sides.
-/
import Idealize.ShloMosaic.PureOps.Ideal.Laws
import Idealize.ShloMosaic.Lib.ValueIdx
import proofs.«178827_j8151847928475_2_alg».proof.Proof.LibPlainDot

namespace Idealize.ShloMosaic.RowProduct

open Idealize.ShloMosaic.ValueIdx

variable {A B K M : Nat}

/-- The product of the rows of `X` with `W`: entry `(r, j)` is `Σ_k X(r,k)·W(k,j)`. -/
noncomputable def prod (X : FVec Ideal ⟨2, ![A, K]⟩ .f32) (W : FVec Ideal ⟨2, ![K, M]⟩ .f32) : FVec Ideal ⟨2, ![A, M]⟩ .f32 :=
  fun i => ∑ k : Fin K, X (ix2 ⟨(i 0).val, idx2_lt0 i⟩ k) * W (ix2 k ⟨(i 1).val, idx2_lt1 i⟩)

theorem prod_ix2 (X : FVec Ideal ⟨2, ![A, K]⟩ .f32) (W : FVec Ideal ⟨2, ![K, M]⟩ .f32) (r : Fin A) (j : Fin M) :
    prod X W (ix2 r j) = ∑ k : Fin K, X (ix2 r k) * W (ix2 k j) := rfl

/-- The host's plain `dot_general` is that product, as whole arrays. -/
theorem host_eq (prec : Option ContractPrecision) (sched : HostSchedule) (X : FVec Ideal ⟨2, ![A, K]⟩ .f32)
    (W : FVec Ideal ⟨2, ![K, M]⟩ .f32) : FloatOps.dotGeneral (DotDims.plain A K M) prec sched X W = prod X W := by
  funext i
  obtain ⟨r, j, rfl⟩ : ∃ (r : Fin A) (j : Fin M), i = ix2 r j := ⟨i 0, i 1, eq_ix2 i⟩
  exact PlainDot.dotGeneral_apply_ix2 prec sched X W r j

/-- A kernel body's product of a block of rows, both operands rounded to bf16, into a zero accumulator, at `(p, j)`. -/
theorem body_apply (prec : Option ContractPrecision) (x0 : FVec Ideal ⟨2, ![B, K]⟩ .f32) (x1 : FVec Ideal ⟨2, ![K, M]⟩ .f32)
    (h0 h1 : FTy.bf16.bits < FTy.f32.bits) (p : Fin B) (j : Fin M) :
    FloatOps.matmul (DotDims.plain B K M) prec (truncf .bf16 x0 h0) (truncf .bf16 x1 h1)
        (constant ⟨2, ![B, M]⟩ .f32 0x00000000#32) (ix2 p j)
      = ∑ k : Fin K, x0 (ix2 p k) * x1 (ix2 k j) :=
  PlainDot.matmul_apply_ix2 prec (truncf .bf16 x0 h0) (truncf .bf16 x1 h1) p j

/-- A block holding the rows `o + p` of `X`, multiplied by the whole `W`, yields the rows `o + p` of the product. -/
theorem block_rows (X : FVec Ideal ⟨2, ![A, K]⟩ .f32) (W : FVec Ideal ⟨2, ![K, M]⟩ .f32)
    (x0 : FVec Ideal ⟨2, ![B, K]⟩ .f32) (x1 : FVec Ideal ⟨2, ![K, M]⟩ .f32) (o : Nat) (p : Fin B) (j : Fin M)
    (hr : o + p.val < A) (h0 : ∀ k : Fin K, x0 (ix2 p k) = X (ix2 ⟨o + p.val, hr⟩ k))
    (h1 : ∀ k : Fin K, x1 (ix2 k j) = W (ix2 k j)) :
    (∑ k : Fin K, x0 (ix2 p k) * x1 (ix2 k j)) = prod X W (ix2 ⟨o + p.val, hr⟩ j) := by
  rw [prod_ix2]
  exact Finset.sum_congr rfl fun k _ => by rw [h0 k, h1 k]

end Idealize.ShloMosaic.RowProduct
-- ==== Proof.Region0.lean ====
/-
  The first dense layer of the graph branch: the rows of the node features times the first weight matrix.
  The kernel multiplies one block of 2000 rows at a time by the whole 128 × 128 matrix; block `t` holds the rows
  `2000·t + p`, and entry `(p, j)` of its product reads row `p` of the block only, so the fifty blocks written back
  tile the array with the rows of ONE whole-array function, `Σ_k X(r,k)·W(k,j)`.
-/
import proofs.«178827_j8151847928475_2_alg».proof.Proof.Gen.KernelIdeal.Frame
import proofs.«178827_j8151847928475_2_alg».proof.Proof.LibRowProduct
import Idealize.ShloMosaic.Lib.Pipeline.Value
import Idealize.ShloMosaic.Lib.ValueIdx

noncomputable section

namespace Cert.KernelIdeal.Region0

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block index maps over the fifty grid points: the row-tiled windows sit at block `(t, 0)`, the weight matrix at
    `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at `(p, j)`: the sum over the contracted coordinate of the block's row `p` and the matrix's column `j`. -/
theorem pay_apply (x0 : Vec Ideal S2000x128 .f32) (x1 : Vec Ideal S128x128 .f32) (p : Fin 2000) (j : Fin 128) :
    k0_pay1 x0 x1 (ix2 p j) = ∑ k : Fin 128, x0 (ix2 p k) * x1 (ix2 k j) := by
  unfold k0_pay1
  exact RowProduct.body_apply none x0 x1 _ _ p j

/-- Block `t` of the row-tiled input holds the rows `2000·t + p`. -/
theorem blk0 (c : Dev nD) (t : Fin cfg0.N) (p : Fin 2000) (k : Fin 128) (hr : 2000 * t.val + p.val < 100000) :
    iblk0 V c 0 t (ix2 p k) = V c main_arg0 (ix2 ⟨2000 * t.val + p.val, hr⟩ k) := by
  obtain ⟨e0, e1, -, -, -, -⟩ := idx_facts t
  show V c main_arg0 (((cfg0.win 0).blk t).view.emb (ix2 p k)) = _
  refine congrArg (V c main_arg0) ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- Every point's block of the weight matrix is the whole matrix. -/
theorem blk1 (c : Dev nD) (t : Fin cfg0.N) (k : Fin 128) (j : Fin 128) :
    iblk0 V c 1 t (ix2 k j) = V c main_arg5 (ix2 k j) := by
  obtain ⟨-, -, e2, e3, -, -⟩ := idx_facts t
  show V c main_arg5 (((cfg0.win 1).blk t).view.emb (ix2 k j)) = _
  refine congrArg (V c main_arg5) ?_
  funext a; apply Fin.ext
  match a with
  | ⟨0, _⟩ => show win0_1.index t (0 : Fin 2) * 128 + 1 * k.val = k.val; omega
  | ⟨1, _⟩ => show win0_1.index t (1 : Fin 2) * 128 + 1 * j.val = j.val; omega

/-- What point `t` writes back is block `t` of the whole product. -/
theorem flushed_eq (c : Dev nD) (t : Fin cfg0.N) :
    (dat0 V c).flushed 2 t = ((cfg0.win 2).blk t).view.read (Elt Ideal)
      (RowProduct.prod (V c main_arg0 : FVec Ideal S100000x128 .f32) (V c main_arg5 : FVec Ideal S128x128 .f32)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  have ht : t.val < 50 := lt_of_lt_of_eq t.isLt N_0
  have hr : 2000 * t.val + p.val < 100000 := by have := p.isLt; omega
  obtain ⟨-, -, -, -, e4, e5⟩ := idx_facts t
  have hemb : ((cfg0.win 2).blk t).view.emb (ix2 p q) = ix2 ⟨2000 * t.val + p.val, hr⟩ q := by
    funext a; apply Fin.ext
    match a with
    | ⟨0, _⟩ => show win0_2.index t (0 : Fin 2) * 2000 + 1 * p.val = 2000 * t.val + p.val; omega
    | ⟨1, _⟩ => show win0_2.index t (1 : Fin 2) * 128 + 1 * q.val = q.val; omega
  show k0_pay1 (iblk0 V c 0 t) (iblk0 V c 1 t) (ix2 p q)
    = RowProduct.prod (V c main_arg0 : FVec Ideal S100000x128 .f32) (V c main_arg5 : FVec Ideal S128x128 .f32)
        (((cfg0.win 2).blk t).view.emb (ix2 p q))
  rw [hemb]
  refine (pay_apply (iblk0 V c 0 t) (iblk0 V c 1 t) p q).trans ?_
  exact RowProduct.block_rows (V c main_arg0 : FVec Ideal S100000x128 .f32) (V c main_arg5 : FVec Ideal S128x128 .f32)
    (iblk0 V c 0 t) (iblk0 V c 1 t) (2000 * t.val) p q hr (fun k => blk0 V c t p k hr) (fun k => blk1 V c t k q)

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- Row `r` lies in the block of point `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, e4, e5⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    rw [e5]; omega

/-- The array the region leaves: the rows of the input times the weight matrix, as one whole-array function. -/
theorem out (c : Dev nD) : (dat0 V c).arrAt 2 cfg0.N
    = RowProduct.prod (V c main_arg0 : FVec Ideal S100000x128 .f32) (V c main_arg5 : FVec Ideal S128x128 .f32) :=
  (dat0 V c).arrAt_eq_of_cover 2 _ (fun t _ => flushed_eq V c t) cover

end Cert.KernelIdeal.Region0

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibBiasRelu.lean ====
/-
  A bias row added to every row of a matrix and the sum rectified, `max (Z(r,j) + b(j)) 0`, over the extended reals, as ONE
  function and in its two spellings. A kernel body holds the bias as a one-row matrix `[1, M]` and repeats it down the
  rows of its block, then takes the maximum with a splat zero. The host lifts the bias vector `[M]` to `[1, M]` and then to
  `[A, M]`, and takes the maximum with a rank-0 zero broadcast to `[A, M]`. The zero is the same f32 word on both sides and is
  never evaluated. Entry `(r, j)` reads row `r` of `Z` only, so a block of rows of `Z` yields the same rows of the result.
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibAffine

namespace Idealize.ShloMosaic.BiasRelu

open Idealize.ShloMosaic.ValueIdx

variable {A B M : Nat}

/-- `max (Z(r,j) + b(0,j)) 0`, the bias a one-row matrix, the zero kept as its f32 word. -/
noncomputable def biasRelu (Z : FVec Ideal ⟨2, ![A, M]⟩ .f32) (b : FVec Ideal ⟨2, ![1, M]⟩ .f32) : FVec Ideal ⟨2, ![A, M]⟩ .f32 :=
  fun i => max (Z i + b (ix2 (0 : Fin 1) ⟨(i 1).val, idx2_lt1 i⟩)) (Ideal.ofBits .f32 0x00000000#32)

theorem biasRelu_ix2 (Z : FVec Ideal ⟨2, ![A, M]⟩ .f32) (b : FVec Ideal ⟨2, ![1, M]⟩ .f32) (r : Fin A) (j : Fin M) :
    biasRelu Z b (ix2 r j) = max (Z (ix2 r j) + b (ix2 (0 : Fin 1) j)) (Ideal.ofBits .f32 0x00000000#32) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    maximumf (addf (shapeCast ⟨2, ![B, M]⟩ x0 h0) (broadcastTo ⟨2, ![B, M]⟩ (shapeCast ⟨2, ![1, M]⟩ x1 h1) hb))
        (broadcast ⟨2, ![B, M]⟩ (FloatOps.ofBits (F := Ideal) .f32 0x00000000#32)) (ix2 p j)
      = max (x0 (ix2 p j) + x1 (ix2 (0 : Fin 1) j)) (Ideal.ofBits .f32 0x00000000#32) := by
  rw [shapeCast_self, shapeCast_self]
  refine (maximumf_apply _ _ _).trans ?_
  refine congrArg₂ max ?_ rfl
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    max (x0 (ix2 p j) + x1 (ix2 (0 : Fin 1) j)) (Ideal.ofBits .f32 0x00000000#32) = biasRelu Z b (ix2 ⟨o + p.val, hr⟩ j) := by
  rw [biasRelu_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) (r : Fin A) (j : Fin M) :
    maximumf (addf Z (broadcastInDim ⟨2, ![A, M]⟩ ![0, 1] h2 (broadcastInDim ⟨2, ![1, M]⟩ ![1] h1 b)))
        (broadcastInDim ⟨2, ![A, M]⟩ ![] hz (constant (F := Ideal) ⟨0, ![]⟩ .f32 0x00000000#32)) (ix2 r j)
      = max (Z (ix2 r j) + b (ix1 j)) (Ideal.ofBits .f32 0x00000000#32) := by
  refine (maximumf_apply _ _ _).trans ?_
  refine congrArg₂ max ?_ ?_
  · refine (addf_apply _ _ _).trans ?_
    exact congrArg (Z (ix2 r j) + ·) (Affine.bias_rows_apply b h1 h2 r j)
  · exact broadcastInDim_apply _ hz _ (ix2 r j) (fun a => a.elim0) (fun a => a.elim0)

/-- The two spellings agree as whole arrays: the kernel's bias row is the host's bias vector recast to `[1, M]`. -/
theorem biasRelu_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) :
    biasRelu Z (shapeCast ⟨2, ![1, M]⟩ b hc)
      = maximumf (addf Z (broadcastInDim ⟨2, ![A, M]⟩ ![0, 1] h2 (broadcastInDim ⟨2, ![1, M]⟩ ![1] h1 b)))
          (broadcastInDim ⟨2, ![A, M]⟩ ![] hz (constant (F := Ideal) ⟨0, ![]⟩ .f32 0x00000000#32)) := by
  funext i
  obtain ⟨r, j, rfl⟩ : ∃ (r : Fin A) (j : Fin M), i = ix2 r j := ⟨i 0, i 1, eq_ix2 i⟩
  rw [host_apply, biasRelu_ix2, shapeCast_a_1a_apply]

end Idealize.ShloMosaic.BiasRelu
-- ==== Proof.Region1.lean ====
/-
  The second dense layer of the graph branch, with the first layer's bias and rectifier fused in front of the product:
  `Σ_k max(Z(r,k) + b(k), 0)·W(k,j)`. The kernel works on one block of 2000 rows at a time with the bias as a one-row
  matrix; entry `(p, j)` of a block's result reads row `p` of the block only, so the fifty blocks written back tile the
  array with the rows of ONE whole-array function.
-/
import proofs.«178827_j8151847928475_2_alg».proof.Proof.Gen.KernelIdeal.Frame
import proofs.«178827_j8151847928475_2_alg».proof.Proof.LibRowProduct
import proofs.«178827_j8151847928475_2_alg».proof.Proof.LibBiasRelu
import Idealize.ShloMosaic.Lib.Pipeline.Value
import Idealize.ShloMosaic.Lib.ValueIdx

noncomputable section

namespace Cert.KernelIdeal.Region1

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block index maps over the fifty grid points: the row-tiled windows sit at block `(t, 0)`, the bias row and the
    weight matrix at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's result at `(p, j)`: the rectified, biased row `p` of the block against column `j` of the matrix. -/
theorem pay_apply (x0 : Vec Ideal S2000x128 .f32) (x1 : Vec Ideal S1x128 .f32) (x2 : Vec Ideal S128x128 .f32)
    (p : Fin 2000) (j : Fin 128) :
    k1_pay1 x0 x1 x2 (ix2 p j)
      = ∑ k : Fin 128, max (x0 (ix2 p k) + x1 (ix2 (0 : Fin 1) k)) (Ideal.ofBits .f32 0x00000000#32) * x2 (ix2 k j) := by
  unfold k1_pay1
  refine (RowProduct.body_apply none _ x2 _ _ p j).trans ?_
  exact Finset.sum_congr rfl fun k _ => congrArg (· * x2 (ix2 k j)) (BiasRelu.body_apply x0 x1 _ _ _ p k)

/-- Block `t` of the row-tiled input holds the rows `2000·t + p`. -/
theorem blk0 (c : Dev nD) (t : Fin cfg1.N) (p : Fin 2000) (k : Fin 128) (hr : 2000 * t.val + p.val < 100000) :
    iblk1 V c 0 t (ix2 p k) = V c main_v45 (ix2 ⟨2000 * t.val + p.val, hr⟩ k) := by
  obtain ⟨e0, e1, -⟩ := idx_facts t
  show V c main_v45 (((cfg1.win 0).blk t).view.emb (ix2 p k)) = _
  refine congrArg (V c main_v45) ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

/-- Every point's block of the bias row is the whole row. -/
theorem blk1 (c : Dev nD) (t : Fin cfg1.N) (u : Fin 1) (k : Fin 128) :
    iblk1 V c 1 t (ix2 u k) = V c main_v46 (ix2 u k) := by
  obtain ⟨-, -, e2, e3, -⟩ := idx_facts t
  show V c main_v46 (((cfg1.win 1).blk t).view.emb (ix2 u k)) = _
  refine congrArg (V c main_v46) ?_
  funext a; apply Fin.ext
  match a with
  | ⟨0, _⟩ => show win1_1.index t (0 : Fin 2) * 1 + 1 * u.val = u.val; omega
  | ⟨1, _⟩ => show win1_1.index t (1 : Fin 2) * 128 + 1 * k.val = k.val; omega

/-- Every point's block of the weight matrix is the whole matrix. -/
theorem blk2 (c : Dev nD) (t : Fin cfg1.N) (k : Fin 128) (j : Fin 128) :
    iblk1 V c 2 t (ix2 k j) = V c main_arg7 (ix2 k j) := by
  obtain ⟨-, -, -, -, e4, e5, -⟩ := idx_facts t
  show V c main_arg7 (((cfg1.win 2).blk t).view.emb (ix2 k j)) = _
  refine congrArg (V c main_arg7) ?_
  funext a; apply Fin.ext
  match a with
  | ⟨0, _⟩ => show win1_2.index t (0 : Fin 2) * 128 + 1 * k.val = k.val; omega
  | ⟨1, _⟩ => show win1_2.index t (1 : Fin 2) * 128 + 1 * j.val = j.val; omega

/-- What point `t` writes back is block `t` of the whole layer. -/
theorem flushed_eq (c : Dev nD) (t : Fin cfg1.N) :
    (dat1 V c).flushed 3 t = ((cfg1.win 3).blk t).view.read (Elt Ideal)
      (RowProduct.prod (BiasRelu.biasRelu (V c main_v45 : FVec Ideal S100000x128 .f32) (V c main_v46 : FVec Ideal S1x128 .f32))
        (V c main_arg7 : FVec Ideal S128x128 .f32)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have ht : t.val < 50 := lt_of_lt_of_eq t.isLt N_1
  have hr : 2000 * t.val + p.val < 100000 := by have := p.isLt; omega
  obtain ⟨-, -, -, -, -, -, e6, e7⟩ := idx_facts t
  have hemb : ((cfg1.win 3).blk t).view.emb (ix2 p q) = ix2 ⟨2000 * t.val + p.val, hr⟩ q := by
    funext a; apply Fin.ext
    match a with
    | ⟨0, _⟩ => show win1_3.index t (0 : Fin 2) * 2000 + 1 * p.val = 2000 * t.val + p.val; omega
    | ⟨1, _⟩ => show win1_3.index t (1 : Fin 2) * 128 + 1 * q.val = q.val; omega
  show k1_pay1 (iblk1 V c 0 t) (iblk1 V c 1 t) (iblk1 V c 2 t) (ix2 p q)
    = RowProduct.prod (BiasRelu.biasRelu (V c main_v45 : FVec Ideal S100000x128 .f32) (V c main_v46 : FVec Ideal S1x128 .f32))
        (V c main_arg7 : FVec Ideal S128x128 .f32) (((cfg1.win 3).blk t).view.emb (ix2 p q))
  rw [hemb, RowProduct.prod_ix2]
  refine (pay_apply (iblk1 V c 0 t) (iblk1 V c 1 t) (iblk1 V c 2 t) p q).trans ?_
  refine Finset.sum_congr rfl fun k _ => ?_
  rw [BiasRelu.biasRelu_ix2, blk0 V c t p k hr, blk1 V c t 0 k, blk2 V c t k q]

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v47).slice (win1_3.rect t)).set ↔ _
  rw [View.set_slice_whole, Rect.mem_set_unit]
  exact Iff.rfl

/-- Row `r` lies in the block of point `r / 2000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨-, -, -, -, -, -, e6, e7⟩ := idx_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hlt⟩ (1 : Fin 2) * 128 ≤ (i 1).val
      ∧ (i 1).val < win1_3.index ⟨(i 0).val / 2000, hlt⟩ (1 : Fin 2) * 128 + 128
    rw [e7]; omega

/-- The array the region leaves: bias, rectifier and product of the rows, as one whole-array function. -/
theorem out (c : Dev nD) : (dat1 V c).arrAt 3 cfg1.N
    = RowProduct.prod (BiasRelu.biasRelu (V c main_v45 : FVec Ideal S100000x128 .f32) (V c main_v46 : FVec Ideal S1x128 .f32))
        (V c main_arg7 : FVec Ideal S128x128 .f32) :=
  (dat1 V c).arrAt_eq_of_cover 3 _ (fun t _ => flushed_eq V c t) cover

end Cert.KernelIdeal.Region1

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.Region2.lean ====
/-
  A matrix whose rows are each scaled by one entry of a column, `X(r,k)·s(r,0)`, then multiplied by a weight matrix,
  `Σ_k (X(r,k)·s(r,0))·W(k,j)`, over the extended reals, as ONE function of the whole arrays and in its two spellings.
  A row-tiled kernel holds a block of rows of `X` and the same rows of the column `s`, repeats the column along the
  row, multiplies entry by entry, rounds both operands to bf16 (the identity on the extended reals) and multiplies into a
  zero accumulator. The host lifts the vector `[A]` to the column `[A, 1]`, that to `[A, K]`, multiplies entry by entry
  and takes a plain `dot_general`. Entry `(r, j)` reads row `r` of `X` and of `s` only, so a block of rows yields the same
  rows of the result. No finiteness is used: each side is literally the same sum of the same products.
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibRowProduct
import proofs.«178827_j8151847928475_2_alg».proof.Proof.LibColumn
import proofs.«178827_j8151847928475_2_alg».proof.Proof.Gen.KernelIdeal.Frame

namespace Idealize.ShloMosaic.ScaleRows

open Idealize.ShloMosaic.ValueIdx

variable {A B K M : Nat}

/-- X(r,k)·s(r,0) -/
noncomputable def scaleRows (X : FVec Ideal ⟨2, ![A, K]⟩ .f32) (s : FVec Ideal ⟨2, ![A, 1]⟩ .f32) : FVec Ideal ⟨2, ![A, K]⟩ .f32 :=
  fun i => X i * s (ix2 ⟨(i 0).val, idx2_lt0 i⟩ (0 : Fin 1))

theorem scaleRows_ix2 (X : FVec Ideal ⟨2, ![A, K]⟩ .f32) (s : FVec Ideal ⟨2, ![A, 1]⟩ .f32) (r : Fin A) (k : Fin K) :
    scaleRows X s (ix2 r k) = X (ix2 r k) * s (ix2 r (0 : Fin 1)) := rfl

/-- The kernel body's scaling at `(p, k)` of its block: the cast of the column to its own shape is the identity, and the
    column repeated along the row reads its row `p`. -/
theorem body_scale_apply (x0 : FVec Ideal ⟨2, ![B, K]⟩ .f32) (x1 : FVec Ideal ⟨2, ![B, 1]⟩ .f32)
    (hc : (⟨2, ![B, 1]⟩ : Shape).ShapeCasts ⟨2, ![B, 1]⟩) (hb : (⟨2, ![B, 1]⟩ : Shape).Broadcasts ⟨2, ![B, K]⟩)
    (p : Fin B) (k : Fin K) :
    mulf x0 (broadcastTo ⟨2, ![B, K]⟩ (shapeCast ⟨2, ![B, 1]⟩ x1 hc) hb) (ix2 p k) = x0 (ix2 p k) * x1 (ix2 p (0 : Fin 1)) := by
  rw [shapeCast_self]
  refine (mulf_apply _ _ _).trans ?_
  exact congrArg (x0 (ix2 p k) * ·) (Column.broadcastTo_a1_ab_apply x1 hb p k)

/-- The kernel body at `(p, j)` of its block: the scaled rows, rounded to bf16, times the weights rounded to bf16, into a
    zero accumulator. -/
theorem body_apply (prec : Option ContractPrecision) (x0 : FVec Ideal ⟨2, ![B, K]⟩ .f32) (x1 : FVec Ideal ⟨2, ![B, 1]⟩ .f32)
    (x2 : FVec Ideal ⟨2, ![K, M]⟩ .f32)
    (hc : (⟨2, ![B, 1]⟩ : Shape).ShapeCasts ⟨2, ![B, 1]⟩) (hb : (⟨2, ![B, 1]⟩ : Shape).Broadcasts ⟨2, ![B, K]⟩)
    (h0 h1 : FTy.bf16.bits < FTy.f32.bits) (p : Fin B) (j : Fin M) :
    FloatOps.matmul (DotDims.plain B K M) prec
        (truncf .bf16 (mulf x0 (broadcastTo ⟨2, ![B, K]⟩ (shapeCast ⟨2, ![B, 1]⟩ x1 hc) hb)) h0) (truncf .bf16 x2 h1)
        (constant ⟨2, ![B, M]⟩ .f32 0x00000000#32) (ix2 p j)
      = ∑ k : Fin K, (x0 (ix2 p k) * x1 (ix2 p (0 : Fin 1))) * x2 (ix2 k j) := by
  refine (RowProduct.body_apply prec _ x2 h0 h1 p j).trans ?_
  exact Finset.sum_congr rfl fun k _ => congrArg (· * x2 (ix2 k j)) (body_scale_apply x0 x1 hc hb p k)

/-- A block holding the rows `o + p` of `X` and of the column `s`, with the whole `W`, yields the rows `o + p` of the
    product of the scaled rows with `W`. -/
theorem block_rows (X : FVec Ideal ⟨2, ![A, K]⟩ .f32) (s : FVec Ideal ⟨2, ![A, 1]⟩ .f32) (W : FVec Ideal ⟨2, ![K, M]⟩ .f32)
    (x0 : FVec Ideal ⟨2, ![B, K]⟩ .f32) (x1 : FVec Ideal ⟨2, ![B, 1]⟩ .f32) (x2 : FVec Ideal ⟨2, ![K, M]⟩ .f32)
    (o : Nat) (p : Fin B) (j : Fin M) (hr : o + p.val < A)
    (h0 : ∀ k : Fin K, x0 (ix2 p k) = X (ix2 ⟨o + p.val, hr⟩ k))
    (h1 : x1 (ix2 p (0 : Fin 1)) = s (ix2 ⟨o + p.val, hr⟩ (0 : Fin 1)))
    (h2 : ∀ k : Fin K, x2 (ix2 k j) = W (ix2 k j)) :
    (∑ k : Fin K, (x0 (ix2 p k) * x1 (ix2 p (0 : Fin 1))) * x2 (ix2 k j))
      = RowProduct.prod (scaleRows X s) W (ix2 ⟨o + p.val, hr⟩ j) := by
  rw [RowProduct.prod_ix2]
  exact Finset.sum_congr rfl fun k _ => by rw [scaleRows_ix2, h0 k, h1, h2 k]

/-- A vector `[A]` lifted to the column `[A, 1]` and then to `[A, K]`, at `(r, k)`: its entry `r`. -/
theorem column_lift_apply (s : FVec Ideal ⟨1, ![A]⟩ .f32) (h1 : (⟨1, ![A]⟩ : Shape).BroadcastsInDim ⟨2, ![A, 1]⟩ ![0])
    (h2 : (⟨2, ![A, 1]⟩ : Shape).BroadcastsInDim ⟨2, ![A, K]⟩ ![0, 1]) (r : Fin A) (k : Fin K) :
    broadcastInDim ⟨2, ![A, K]⟩ ![0, 1] h2 (broadcastInDim ⟨2, ![A, 1]⟩ ![0] h1 s) (ix2 r k) = s (ix1 r) := by
  have hr := r.isLt
  refine (broadcastInDim_apply _ h2 _ (ix2 r k) (ix2 r (0 : Fin 1)) fun a => ?_).trans
    (broadcastInDim_apply _ h1 s (ix2 r (0 : Fin 1)) (ix1 r) fun a => ?_)
  · match a with
    | ⟨0, _⟩ =>
      show r.val = if A = 1 then 0 else r.val
      split
      · omega
      · rfl
    | ⟨1, _⟩ => rfl
  · match a with
    | ⟨0, _⟩ =>
      show r.val = if A = 1 then 0 else r.val
      split
      · omega
      · rfl

/-- The two spellings of the scaled rows agree as whole arrays: the kernel's column is the host's vector recast to `[A, 1]`. -/
theorem scaleRows_eq_host (X : FVec Ideal ⟨2, ![A, K]⟩ .f32) (s : FVec Ideal ⟨1, ![A]⟩ .f32)
    (hc : (⟨1, ![A]⟩ : Shape).ShapeCasts ⟨2, ![A, 1]⟩)
    (h1 : (⟨1, ![A]⟩ : Shape).BroadcastsInDim ⟨2, ![A, 1]⟩ ![0])
    (h2 : (⟨2, ![A, 1]⟩ : Shape).BroadcastsInDim ⟨2, ![A, K]⟩ ![0, 1]) :
    scaleRows X (shapeCast ⟨2, ![A, 1]⟩ s hc)
      = mulf X (broadcastInDim ⟨2, ![A, K]⟩ ![0, 1] h2 (broadcastInDim ⟨2, ![A, 1]⟩ ![0] h1 s)) := by
  funext i
  obtain ⟨r, k, rfl⟩ : ∃ (r : Fin A) (k : Fin K), i = ix2 r k := ⟨i 0, i 1, eq_ix2 i⟩
  refine Eq.trans ?_ (mulf_apply _ _ _).symm
  rw [scaleRows_ix2, column_lift_apply s h1 h2 r k, Column.shapeCast_a_a1_apply]

/-- The scaled rows times the weights, as whole arrays: the host's `dot_general` of its scaled matrix with `W`. -/
theorem scaleProd_eq_host (X : FVec Ideal ⟨2, ![A, K]⟩ .f32) (s : FVec Ideal ⟨1, ![A]⟩ .f32) (W : FVec Ideal ⟨2, ![K, M]⟩ .f32)
    (hc : (⟨1, ![A]⟩ : Shape).ShapeCasts ⟨2, ![A, 1]⟩)
    (h1 : (⟨1, ![A]⟩ : Shape).BroadcastsInDim ⟨2, ![A, 1]⟩ ![0])
    (h2 : (⟨2, ![A, 1]⟩ : Shape).BroadcastsInDim ⟨2, ![A, K]⟩ ![0, 1]) :
    RowProduct.prod (scaleRows X (shapeCast ⟨2, ![A, 1]⟩ s hc)) W
      = Host.dotGeneral (DotDims.plain A K M) none
          (mulf X (broadcastInDim ⟨2, ![A, K]⟩ ![0, 1] h2 (broadcastInDim ⟨2, ![A, 1]⟩ ![0] h1 s))) W := by
  rw [scaleRows_eq_host X s hc h1 h2]
  exact (RowProduct.host_eq none .single _ W).symm

end Idealize.ShloMosaic.ScaleRows

/-! # Region 2: the output array after the 50 grid points is the product of the scaled rows with the weights -/

set_option maxRecDepth 16384

noncomputable section

namespace Cert.KernelIdeal.Region2

open Idealize.ShloMosaic Idealize.ShloMosaic.TcCoe Idealize.SL.Sem Cert.KernelIdeal Cert.KernelIdeal.Gen Idealize.ShloMosaic.ValueIdx

theorem zero_offsets : (![0, 0] : Fin 2 → Nat) = fun _ => 0 := funext fun a => by fin_cases a <;> rfl

/-- The printed index maps, decided over the grid: the three row-tiled windows sit at block row `t`, block column 0; the
    weights' window is the whole array. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 50 := lt_of_lt_of_eq t.isLt N_2

/-- The body's payload at `(p, q)` of its block: `Σ_k (x0(p,k)·x1(p,0))·x2(k,q)`. -/
theorem payload_apply (x0 : Vec Ideal S2000x128 .f32) (x1 : Vec Ideal S2000x1 .f32) (x2 : Vec Ideal S128x128 .f32)
    (p : Fin 2000) (q : Fin 128) :
    k2_pay1 x0 x1 x2 (ix2 p q) = ∑ k : Fin 128, (x0 (ix2 p k) * x1 (ix2 p (0 : Fin 1))) * x2 (ix2 k q) := by
  unfold k2_pay1
  exact ScaleRows.body_apply (B := 2000) (K := 128) (M := 128) none x0 x1 x2 _ _ _ _ p q

/-- Window 0's block at point `t` holds the rows `2000·t + p` of the first operand. -/
theorem block0 (V : (c : Dev nD) → (b : Ref sig .tc) → Buf (Elt Ideal) ((c : Thread nD τ).loc b)) (c : Dev nD) (t : Fin cfg2.N)
    (p : Fin 2000) (r : Fin 128) (hr : 2000 * t.val + p.val < 100000) :
    iblk2 (F := Ideal) V c 0 t (ix2 p r) = V c main_arg0 (ix2 ⟨2000 * t.val + p.val, hr⟩ r) := by
  show V c main_arg0 (((cfg2.win 0).blk t).view.emb (ix2 p r)) = V c main_arg0 (ix2 ⟨2000 * t.val + p.val, hr⟩ r)
  refine congrArg (V c main_arg0) ?_
  obtain ⟨e0, e1, -⟩ := index_facts t
  funext a; apply Fin.ext
  match a with
  | ⟨0, _⟩ => show win2_0.index t (0 : Fin 2) * 2000 + 1 * p.val = 2000 * t.val + p.val; omega
  | ⟨1, _⟩ => show win2_0.index t (1 : Fin 2) * 128 + 1 * r.val = r.val; omega

/-- Window 1's block at point `t` holds the rows `2000·t + p` of the column. -/
theorem block1 (V : (c : Dev nD) → (b : Ref sig .tc) → Buf (Elt Ideal) ((c : Thread nD τ).loc b)) (c : Dev nD) (t : Fin cfg2.N)
    (p : Fin 2000) (u : Fin 1) (hr : 2000 * t.val + p.val < 100000) :
    iblk2 (F := Ideal) V c 1 t (ix2 p u) = V c main_v93 (ix2 ⟨2000 * t.val + p.val, hr⟩ u) := by
  show V c main_v93 (((cfg2.win 1).blk t).view.emb (ix2 p u)) = V c main_v93 (ix2 ⟨2000 * t.val + p.val, hr⟩ u)
  refine congrArg (V c main_v93) ?_
  obtain ⟨-, -, e0, e1, -⟩ := index_facts t
  funext a; apply Fin.ext
  match a with
  | ⟨0, _⟩ => show win2_1.index t (0 : Fin 2) * 2000 + 1 * p.val = 2000 * t.val + p.val; omega
  | ⟨1, _⟩ => show win2_1.index t (1 : Fin 2) * 1 + 1 * u.val = u.val; omega

/-- Window 2's block at every point is the whole weight matrix. -/
theorem block2 (V : (c : Dev nD) → (b : Ref sig .tc) → Buf (Elt Ideal) ((c : Thread nD τ).loc b)) (c : Dev nD) (t : Fin cfg2.N)
    (k : Fin 128) (q : Fin 128) :
    iblk2 (F := Ideal) V c 2 t (ix2 k q) = V c main_arg9 (ix2 k q) := by
  show V c main_arg9 (((cfg2.win 2).blk t).view.emb (ix2 k q)) = V c main_arg9 (ix2 k q)
  refine congrArg (V c main_arg9) ?_
  obtain ⟨-, -, -, -, e0, e1, -⟩ := index_facts t
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- What point `t` writes back is block `t` of the product of the scaled rows with the weights. -/
theorem flushed_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal)
      (RowProduct.prod (ScaleRows.scaleRows (V c main_arg0) (V c main_v93)) (V c main_arg9)) := by
  show (cfg2.win 3).cut (grid2.coords t) ((dat2 (F := Ideal) V c).after 3 t) = _
  rw [after2_3]
  unfold out2_3
  rw [View.canon_unit_zero zero_offsets]
  simp only [View.ld_unit_zero (S := S2000x128) zero_offsets, View.ld_unit_zero (S := S2000x1) zero_offsets,
    View.ld_unit_zero (S := S128x128) zero_offsets]
  funext j
  obtain ⟨p, q, rfl⟩ : ∃ (p : Fin 2000) (q : Fin 128), j = ix2 p q := ⟨j 0, j 1, eq_ix2 j⟩
  have ht := point_lt t
  have hr : 2000 * t.val + p.val < 100000 := by have := p.isLt; omega
  show k2_pay1 (iblk2 V c 0 t) (iblk2 V c 1 t) (iblk2 V c 2 t) (ix2 p q)
    = RowProduct.prod (ScaleRows.scaleRows (V c main_arg0) (V c main_v93)) (V c main_arg9) (((cfg2.win 3).blk t).view.emb (ix2 p q))
  have hemb : ((cfg2.win 3).blk t).view.emb (ix2 p q) = ix2 (n0 := 100000) (n1 := 128) ⟨2000 * t.val + p.val, hr⟩ q := by
    obtain ⟨-, -, -, -, -, -, e0, e1⟩ := index_facts t
    funext a; apply Fin.ext
    match a with
    | ⟨0, _⟩ => show win2_3.index t (0 : Fin 2) * 2000 + 1 * p.val = 2000 * t.val + p.val; omega
    | ⟨1, _⟩ => show win2_3.index t (1 : Fin 2) * 128 + 1 * q.val = q.val; omega
  refine Eq.trans ?_ (congrArg (RowProduct.prod (ScaleRows.scaleRows (V c main_arg0) (V c main_v93)) (V c main_arg9)) hemb.symm)
  refine (payload_apply _ _ _ p q).trans ?_
  exact ScaleRows.block_rows (V c main_arg0) (V c main_v93) (V c main_arg9) (iblk2 V c 0 t) (iblk2 V c 1 t) (iblk2 V c 2 t)
    (2000 * t.val) p q hr (fun k => block0 V c t p k hr) (block1 V c t p 0 hr) (fun k => block2 V c t k q)

/-- An index of the array is in point `t`'s block iff each coordinate is in the block's range on its axis. -/
theorem mem_block (t : Fin cfg2.N) (i : S100000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v94).slice (win2_3.rect t)).set ↔ _
  rw [View.set_slice_whole, Rect.mem_set_unit]
  exact Iff.rfl

/-- Every index of the output array lies in the block of the point `row / 2000`. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, et⟩ : ∃ t : Fin cfg2.N, t.val = (i 0).val / 2000 :=
    ⟨⟨(i 0).val / 2000, lt_of_lt_of_eq (show (i 0).val / 2000 < 50 by omega) N_2.symm⟩, rfl⟩
  refine ⟨t, flush2_3 t, ?_⟩
  rw [mem_block]
  obtain ⟨-, -, -, -, -, -, e0, e1⟩ := index_facts t
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The output array after the region's 50 points: the rows of the first operand, each scaled by its entry of the column,
    times the weights. -/
theorem out (V : (c : Dev nD) → (b : Ref sig .tc) → Buf (Elt Ideal) ((c : Thread nD τ).loc b)) (c : Dev nD) :
    (dat2 (F := Ideal) V c).arrAt 3 cfg2.N
      = RowProduct.prod (ScaleRows.scaleRows (V c main_arg0) (V c main_v93)) (V c main_arg9) :=
  (dat2 (F := Ideal) V c).arrAt_eq_of_cover 3 _ (fun t _ => flushed_eq V c t) cover

end Cert.KernelIdeal.Region2

end
-- ==== Proof.Region3.lean ====
/-
  A row-tiled layer whose rows are first scaled by a per-row factor, then biased, rectified and multiplied by a weight
  matrix: entry (r, j) of the result is Σ_k max(Z(r,k)·d(r) + b(k), 0)·W(k,j), over the extended reals. The factor is kept
  as a column [A, 1] and the bias as a row [1, K]. A kernel body repeats the column along the columns of its block and
  the row down the rows of its block, takes the maximum with a splat zero, and feeds the matrix unit, both operands rounded
  to bf16 (the identity on the extended reals) and the accumulator zero. The host lifts the factor vector [A] to [A, 1] and
  to [A, K], the bias vector [K] to [1, K] and to [A, K], multiplies the lifted factor by Z (in that order: multiplication
  of extended reals commutes), adds, takes the maximum with a lifted rank-0 zero, and contracts with W. Entry (r, k) of the
  rectified matrix reads row r of Z and of d only, so a block of rows yields the same rows of the whole result; the
  output blocks tile the rows, so the array after the last grid point is that one function of the whole input arrays.
  No finiteness is used: every step is a congruence, a commutation of a product, or a sum read term by term.
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibRowProduct
import proofs.«178827_j8151847928475_2_alg».proof.Proof.LibBiasRelu
import proofs.«178827_j8151847928475_2_alg».proof.Proof.LibColumn
import proofs.«178827_j8151847928475_2_alg».proof.Proof.Gen.KernelIdeal.Frame

namespace Idealize.ShloMosaic.DinvBiasRelu

open Idealize.ShloMosaic.ValueIdx

variable {A B K M : Nat}

/-- max (Z(r,k)·d(r,0) + b(0,k)) 0, the zero kept as its f32 word -/
noncomputable def dinvBiasRelu (Z : FVec Ideal ⟨2, ![A, K]⟩ .f32) (d : FVec Ideal ⟨2, ![A, 1]⟩ .f32) (b : FVec Ideal ⟨2, ![1, K]⟩ .f32) : FVec Ideal ⟨2, ![A, K]⟩ .f32 :=
  fun i => max (Z i * d (ix2 ⟨(i 0).val, idx2_lt0 i⟩ (0 : Fin 1)) + b (ix2 (0 : Fin 1) ⟨(i 1).val, idx2_lt1 i⟩)) (Ideal.ofBits .f32 0x00000000#32)

theorem dinvBiasRelu_ix2 (Z : FVec Ideal ⟨2, ![A, K]⟩ .f32) (d : FVec Ideal ⟨2, ![A, 1]⟩ .f32) (b : FVec Ideal ⟨2, ![1, K]⟩ .f32)
    (r : Fin A) (k : Fin K) :
    dinvBiasRelu Z d b (ix2 r k)
      = max (Z (ix2 r k) * d (ix2 r (0 : Fin 1)) + b (ix2 (0 : Fin 1) k)) (Ideal.ofBits .f32 0x00000000#32) := rfl

/-- The kernel body's spelling of the rectified matrix at (p, k) of its block: the casts of a vector to its own shape are the
    identity, the column is repeated along the columns and the bias row down the rows. -/
theorem body_apply (x0 : FVec Ideal ⟨2, ![B, K]⟩ .f32) (x1 : FVec Ideal ⟨2, ![B, 1]⟩ .f32) (x2 : FVec Ideal ⟨2, ![1, K]⟩ .f32)
    (h0 : (⟨2, ![B, K]⟩ : Shape).ShapeCasts ⟨2, ![B, K]⟩) (h1 : (⟨2, ![B, 1]⟩ : Shape).ShapeCasts ⟨2, ![B, 1]⟩)
    (h2 : (⟨2, ![1, K]⟩ : Shape).ShapeCasts ⟨2, ![1, K]⟩)
    (hd : (⟨2, ![B, 1]⟩ : Shape).Broadcasts ⟨2, ![B, K]⟩) (hb : (⟨2, ![1, K]⟩ : Shape).Broadcasts ⟨2, ![B, K]⟩)
    (p : Fin B) (k : Fin K) :
    maximumf (addf (mulf (shapeCast ⟨2, ![B, K]⟩ x0 h0) (broadcastTo ⟨2, ![B, K]⟩ (shapeCast ⟨2, ![B, 1]⟩ x1 h1) hd))
          (broadcastTo ⟨2, ![B, K]⟩ (shapeCast ⟨2, ![1, K]⟩ x2 h2) hb))
        (broadcast ⟨2, ![B, K]⟩ (FloatOps.ofBits (F := Ideal) .f32 0x00000000#32)) (ix2 p k)
      = max (x0 (ix2 p k) * x1 (ix2 p (0 : Fin 1)) + x2 (ix2 (0 : Fin 1) k)) (Ideal.ofBits .f32 0x00000000#32) := by
  rw [shapeCast_self, shapeCast_self, shapeCast_self]
  refine (maximumf_apply _ _ _).trans ?_
  refine congrArg₂ max ?_ rfl
  refine (addf_apply _ _ _).trans ?_
  refine congrArg₂ (· + ·) ?_ (broadcastTo_1b_ab_apply x2 hb p k)
  refine (mulf_apply _ _ _).trans ?_
  exact congrArg (x0 (ix2 p k) * ·) (Column.broadcastTo_a1_ab_apply x1 hd p k)

/-- The whole kernel body at (p, j) of its block: the rectified block times the weights, term by term. -/
theorem body_prod_apply (prec : Option ContractPrecision) (x0 : FVec Ideal ⟨2, ![B, K]⟩ .f32) (x1 : FVec Ideal ⟨2, ![B, 1]⟩ .f32)
    (x2 : FVec Ideal ⟨2, ![1, K]⟩ .f32) (x3 : FVec Ideal ⟨2, ![K, M]⟩ .f32)
    (h0 : (⟨2, ![B, K]⟩ : Shape).ShapeCasts ⟨2, ![B, K]⟩) (h1 : (⟨2, ![B, 1]⟩ : Shape).ShapeCasts ⟨2, ![B, 1]⟩)
    (h2 : (⟨2, ![1, K]⟩ : Shape).ShapeCasts ⟨2, ![1, K]⟩)
    (hd : (⟨2, ![B, 1]⟩ : Shape).Broadcasts ⟨2, ![B, K]⟩) (hb : (⟨2, ![1, K]⟩ : Shape).Broadcasts ⟨2, ![B, K]⟩)
    (ht : FTy.bf16.bits < FTy.f32.bits) (p : Fin B) (j : Fin M) :
    FloatOps.matmul (DotDims.plain B K M) prec
        (truncf .bf16 (maximumf (addf (mulf (shapeCast ⟨2, ![B, K]⟩ x0 h0) (broadcastTo ⟨2, ![B, K]⟩ (shapeCast ⟨2, ![B, 1]⟩ x1 h1) hd))
            (broadcastTo ⟨2, ![B, K]⟩ (shapeCast ⟨2, ![1, K]⟩ x2 h2) hb))
          (broadcast ⟨2, ![B, K]⟩ (FloatOps.ofBits (F := Ideal) .f32 0x00000000#32))) ht)
        (truncf .bf16 x3 ht) (constant ⟨2, ![B, M]⟩ .f32 0x00000000#32) (ix2 p j)
      = ∑ k : Fin K, max (x0 (ix2 p k) * x1 (ix2 p (0 : Fin 1)) + x2 (ix2 (0 : Fin 1) k)) (Ideal.ofBits .f32 0x00000000#32)
          * x3 (ix2 k j) := by
  refine (RowProduct.body_apply prec _ x3 ht ht p j).trans ?_
  exact Finset.sum_congr rfl fun k _ => congrArg (· * x3 (ix2 k j)) (body_apply x0 x1 x2 h0 h1 h2 hd hb p k)

/-- A block holding the rows o + p of Z and of d, with the same bias row and weights, yields the rows o + p of the whole product. -/
theorem block_rows (Z : FVec Ideal ⟨2, ![A, K]⟩ .f32) (d : FVec Ideal ⟨2, ![A, 1]⟩ .f32) (b : FVec Ideal ⟨2, ![1, K]⟩ .f32)
    (W : FVec Ideal ⟨2, ![K, M]⟩ .f32)
    (x0 : FVec Ideal ⟨2, ![B, K]⟩ .f32) (x1 : FVec Ideal ⟨2, ![B, 1]⟩ .f32) (x2 : FVec Ideal ⟨2, ![1, K]⟩ .f32)
    (x3 : FVec Ideal ⟨2, ![K, M]⟩ .f32) (o : Nat) (p : Fin B) (j : Fin M) (hr : o + p.val < A)
    (e0 : ∀ k : Fin K, x0 (ix2 p k) = Z (ix2 ⟨o + p.val, hr⟩ k))
    (e1 : x1 (ix2 p (0 : Fin 1)) = d (ix2 ⟨o + p.val, hr⟩ (0 : Fin 1)))
    (e2 : ∀ k : Fin K, x2 (ix2 (0 : Fin 1) k) = b (ix2 (0 : Fin 1) k))
    (e3 : ∀ k : Fin K, x3 (ix2 k j) = W (ix2 k j)) :
    (∑ k : Fin K, max (x0 (ix2 p k) * x1 (ix2 p (0 : Fin 1)) + x2 (ix2 (0 : Fin 1) k)) (Ideal.ofBits .f32 0x00000000#32)
        * x3 (ix2 k j))
      = RowProduct.prod (dinvBiasRelu Z d b) W (ix2 ⟨o + p.val, hr⟩ j) := by
  rw [RowProduct.prod_ix2]
  refine Finset.sum_congr rfl fun k _ => ?_
  rw [dinvBiasRelu_ix2, e0 k, e1, e2 k, e3 k]

/-- A factor [A] lifted to the column [A, 1] and then to [A, K], at (r, k): its entry r. -/
theorem col_lift_apply (d : FVec Ideal ⟨1, ![A]⟩ .f32) (h1 : (⟨1, ![A]⟩ : Shape).BroadcastsInDim ⟨2, ![A, 1]⟩ ![0])
    (h2 : (⟨2, ![A, 1]⟩ : Shape).BroadcastsInDim ⟨2, ![A, K]⟩ ![0, 1]) (r : Fin A) (k : Fin K) :
    broadcastInDim ⟨2, ![A, K]⟩ ![0, 1] h2 (broadcastInDim ⟨2, ![A, 1]⟩ ![0] h1 d) (ix2 r k) = d (ix1 r) := by
  have hr := r.isLt
  refine (broadcastInDim_apply _ h2 _ (ix2 r k) (ix2 r (0 : Fin 1)) fun a => ?_).trans
    (broadcastInDim_apply _ h1 d (ix2 r (0 : Fin 1)) (ix1 r) fun a => ?_)
  · match a with
    | ⟨0, _⟩ =>
      show r.val = if A = 1 then 0 else r.val
      split
      · omega
      · rfl
    | ⟨1, _⟩ => rfl
  · match a with
    | ⟨0, _⟩ =>
      show r.val = if A = 1 then 0 else r.val
      split
      · omega
      · rfl

/-- The host's spelling at (r, k). -/
theorem host_apply (Z : FVec Ideal ⟨2, ![A, K]⟩ .f32) (d : FVec Ideal ⟨1, ![A]⟩ .f32) (b : FVec Ideal ⟨1, ![K]⟩ .f32)
    (h1 : (⟨1, ![A]⟩ : Shape).BroadcastsInDim ⟨2, ![A, 1]⟩ ![0]) (h2 : (⟨2, ![A, 1]⟩ : Shape).BroadcastsInDim ⟨2, ![A, K]⟩ ![0, 1])
    (g1 : (⟨1, ![K]⟩ : Shape).BroadcastsInDim ⟨2, ![1, K]⟩ ![1]) (g2 : (⟨2, ![1, K]⟩ : Shape).BroadcastsInDim ⟨2, ![A, K]⟩ ![0, 1])
    (hz : (⟨0, ![]⟩ : Shape).BroadcastsInDim ⟨2, ![A, K]⟩ ![]) (r : Fin A) (k : Fin K) :
    maximumf (addf (mulf (broadcastInDim ⟨2, ![A, K]⟩ ![0, 1] h2 (broadcastInDim ⟨2, ![A, 1]⟩ ![0] h1 d)) Z)
          (broadcastInDim ⟨2, ![A, K]⟩ ![0, 1] g2 (broadcastInDim ⟨2, ![1, K]⟩ ![1] g1 b)))
        (broadcastInDim ⟨2, ![A, K]⟩ ![] hz (constant (F := Ideal) ⟨0, ![]⟩ .f32 0x00000000#32)) (ix2 r k)
      = max (Z (ix2 r k) * d (ix1 r) + b (ix1 k)) (Ideal.ofBits .f32 0x00000000#32) := by
  refine (maximumf_apply _ _ _).trans ?_
  refine congrArg₂ max ?_ ?_
  · refine (addf_apply _ _ _).trans ?_
    refine congrArg₂ (· + ·) ?_ (Affine.bias_rows_apply b g1 g2 r k)
    refine (mulf_apply _ _ _).trans ?_
    rw [col_lift_apply d h1 h2 r k]
    exact mul_comm _ _
  · exact broadcastInDim_apply _ hz _ (ix2 r k) (fun a => a.elim0) (fun a => a.elim0)

theorem dinvBiasRelu_eq_host (Z : FVec Ideal ⟨2, ![A, K]⟩ .f32) (d : FVec Ideal ⟨1, ![A]⟩ .f32) (b : FVec Ideal ⟨1, ![K]⟩ .f32)
    (hcd : (⟨1, ![A]⟩ : Shape).ShapeCasts ⟨2, ![A, 1]⟩) (hcb : (⟨1, ![K]⟩ : Shape).ShapeCasts ⟨2, ![1, K]⟩)
    (h1 : (⟨1, ![A]⟩ : Shape).BroadcastsInDim ⟨2, ![A, 1]⟩ ![0]) (h2 : (⟨2, ![A, 1]⟩ : Shape).BroadcastsInDim ⟨2, ![A, K]⟩ ![0, 1])
    (g1 : (⟨1, ![K]⟩ : Shape).BroadcastsInDim ⟨2, ![1, K]⟩ ![1]) (g2 : (⟨2, ![1, K]⟩ : Shape).BroadcastsInDim ⟨2, ![A, K]⟩ ![0, 1])
    (hz : (⟨0, ![]⟩ : Shape).BroadcastsInDim ⟨2, ![A, K]⟩ ![]) :
    dinvBiasRelu Z (shapeCast ⟨2, ![A, 1]⟩ d hcd) (shapeCast ⟨2, ![1, K]⟩ b hcb)
      = maximumf (addf (mulf (broadcastInDim ⟨2, ![A, K]⟩ ![0, 1] h2 (broadcastInDim ⟨2, ![A, 1]⟩ ![0] h1 d)) Z)
            (broadcastInDim ⟨2, ![A, K]⟩ ![0, 1] g2 (broadcastInDim ⟨2, ![1, K]⟩ ![1] g1 b)))
          (broadcastInDim ⟨2, ![A, K]⟩ ![] hz (constant (F := Ideal) ⟨0, ![]⟩ .f32 0x00000000#32)) := by
  funext i
  obtain ⟨r, k, rfl⟩ : ∃ (r : Fin A) (k : Fin K), i = ix2 r k := ⟨i 0, i 1, eq_ix2 i⟩
  rw [host_apply, dinvBiasRelu_ix2, Column.shapeCast_a_a1_apply, shapeCast_a_1a_apply]

theorem dinvProd_eq_host (Z : FVec Ideal ⟨2, ![A, K]⟩ .f32) (d : FVec Ideal ⟨1, ![A]⟩ .f32) (b : FVec Ideal ⟨1, ![K]⟩ .f32)
    (hcd : (⟨1, ![A]⟩ : Shape).ShapeCasts ⟨2, ![A, 1]⟩) (hcb : (⟨1, ![K]⟩ : Shape).ShapeCasts ⟨2, ![1, K]⟩)
    (h1 : (⟨1, ![A]⟩ : Shape).BroadcastsInDim ⟨2, ![A, 1]⟩ ![0]) (h2 : (⟨2, ![A, 1]⟩ : Shape).BroadcastsInDim ⟨2, ![A, K]⟩ ![0, 1])
    (g1 : (⟨1, ![K]⟩ : Shape).BroadcastsInDim ⟨2, ![1, K]⟩ ![1]) (g2 : (⟨2, ![1, K]⟩ : Shape).BroadcastsInDim ⟨2, ![A, K]⟩ ![0, 1])
    (hz : (⟨0, ![]⟩ : Shape).BroadcastsInDim ⟨2, ![A, K]⟩ ![]) (W : FVec Ideal ⟨2, ![K, M]⟩ .f32) :
    RowProduct.prod (dinvBiasRelu Z (shapeCast ⟨2, ![A, 1]⟩ d hcd) (shapeCast ⟨2, ![1, K]⟩ b hcb)) W
      = Host.dotGeneral (DotDims.plain A K M) none
          (maximumf (addf (mulf (broadcastInDim ⟨2, ![A, K]⟩ ![0, 1] h2 (broadcastInDim ⟨2, ![A, 1]⟩ ![0] h1 d)) Z)
              (broadcastInDim ⟨2, ![A, K]⟩ ![0, 1] g2 (broadcastInDim ⟨2, ![1, K]⟩ ![1] g1 b)))
            (broadcastInDim ⟨2, ![A, K]⟩ ![] hz (constant (F := Ideal) ⟨0, ![]⟩ .f32 0x00000000#32))) W := by
  rw [dinvBiasRelu_eq_host Z d b hcd hcb h1 h2 g1 g2 hz]
  exact (RowProduct.host_eq none .single _ W).symm

end Idealize.ShloMosaic.DinvBiasRelu

noncomputable section

namespace Cert.KernelIdeal.Region3

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block index maps over the fifty grid points: the row-tiled windows (the rows, the per-row factor, the output) sit at
    block (t, 0), the bias row and the weight matrix at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's value at (p, j): the rectified, scaled and biased row p of the block against column j of the matrix. -/
theorem pay_apply (x0 : Vec Ideal S2000x128 .f32) (x1 : Vec Ideal S2000x1 .f32) (x2 : Vec Ideal S1x128 .f32)
    (x3 : Vec Ideal S128x128 .f32) (p : Fin 2000) (j : Fin 128) :
    k3_pay1 x0 x1 x2 x3 (ix2 p j)
      = ∑ k : Fin 128, max (x0 (ix2 p k) * x1 (ix2 p (0 : Fin 1)) + x2 (ix2 (0 : Fin 1) k)) (Ideal.ofBits .f32 0x00000000#32)
          * x3 (ix2 k j) := by
  unfold k3_pay1
  exact DinvBiasRelu.body_prod_apply none x0 x1 x2 x3 _ _ _ _ _ _ p j

/-- Block t of the row-tiled input holds the rows 2000·t + p. -/
theorem blk0 (c : Dev nD) (t : Fin cfg3.N) (p : Fin 2000) (k : Fin 128) (hr : 2000 * t.val + p.val < 100000) :
    iblk3 V c 0 t (ix2 p k) = V c main_v117 (ix2 ⟨2000 * t.val + p.val, hr⟩ k) := by
  obtain ⟨e0, e1, -, -, -, -, -, -, -, -⟩ := idx_facts t
  show V c main_v117 (((cfg3.win 0).blk t).view.emb (ix2 p k)) = _
  refine congrArg (V c main_v117) ?_
  funext a; apply Fin.ext
  match a with
  | ⟨0, _⟩ => show win3_0.index t (0 : Fin 2) * 2000 + 1 * p.val = 2000 * t.val + p.val; omega
  | ⟨1, _⟩ => show win3_0.index t (1 : Fin 2) * 128 + 1 * k.val = k.val; omega

/-- Block t of the per-row factor, a column, holds its rows 2000·t + p. -/
theorem blk1 (c : Dev nD) (t : Fin cfg3.N) (p : Fin 2000) (u : Fin 1) (hr : 2000 * t.val + p.val < 100000) :
    iblk3 V c 1 t (ix2 p u) = V c main_v118 (ix2 ⟨2000 * t.val + p.val, hr⟩ u) := by
  obtain ⟨-, -, e2, e3, -, -, -, -, -, -⟩ := idx_facts t
  show V c main_v118 (((cfg3.win 1).blk t).view.emb (ix2 p u)) = _
  refine congrArg (V c main_v118) ?_
  funext a; apply Fin.ext
  match a with
  | ⟨0, _⟩ => show win3_1.index t (0 : Fin 2) * 2000 + 1 * p.val = 2000 * t.val + p.val; omega
  | ⟨1, _⟩ => show win3_1.index t (1 : Fin 2) * 1 + 1 * u.val = u.val; omega

/-- Every point's block of the bias row is the whole row. -/
theorem blk2 (c : Dev nD) (t : Fin cfg3.N) (u : Fin 1) (k : Fin 128) :
    iblk3 V c 2 t (ix2 u k) = V c main_v119 (ix2 u k) := by
  obtain ⟨-, -, -, -, e4, e5, -, -, -, -⟩ := idx_facts t
  show V c main_v119 (((cfg3.win 2).blk t).view.emb (ix2 u k)) = _
  refine congrArg (V c main_v119) ?_
  funext a; apply Fin.ext
  match a with
  | ⟨0, _⟩ => show win3_2.index t (0 : Fin 2) * 1 + 1 * u.val = u.val; omega
  | ⟨1, _⟩ => show win3_2.index t (1 : Fin 2) * 128 + 1 * k.val = k.val; omega

/-- Every point's block of the weight matrix is the whole matrix. -/
theorem blk3 (c : Dev nD) (t : Fin cfg3.N) (k : Fin 128) (j : Fin 128) :
    iblk3 V c 3 t (ix2 k j) = V c main_arg11 (ix2 k j) := by
  obtain ⟨-, -, -, -, -, -, e6, e7, -, -⟩ := idx_facts t
  show V c main_arg11 (((cfg3.win 3).blk t).view.emb (ix2 k j)) = _
  refine congrArg (V c main_arg11) ?_
  funext a; apply Fin.ext
  match a with
  | ⟨0, _⟩ => show win3_3.index t (0 : Fin 2) * 128 + 1 * k.val = k.val; omega
  | ⟨1, _⟩ => show win3_3.index t (1 : Fin 2) * 128 + 1 * j.val = j.val; omega

/-- What point t writes back is block t of the whole-array function. -/
theorem flushed_eq (c : Dev nD) (t : Fin cfg3.N) :
    (dat3 V c).flushed 4 t = ((cfg3.win 4).blk t).view.read (Elt Ideal)
      (RowProduct.prod (DinvBiasRelu.dinvBiasRelu (V c main_v117 : FVec Ideal S100000x128 .f32)
          (V c main_v118 : FVec Ideal S100000x1 .f32) (V c main_v119 : FVec Ideal S1x128 .f32))
        (V c main_arg11 : FVec Ideal S128x128 .f32)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz,
    View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have ht : t.val < 50 := lt_of_lt_of_eq t.isLt N_3
  have hr : 2000 * t.val + p.val < 100000 := by have := p.isLt; omega
  obtain ⟨-, -, -, -, -, -, -, -, e8, e9⟩ := idx_facts t
  have hemb : ((cfg3.win 4).blk t).view.emb (ix2 p q) = ix2 ⟨2000 * t.val + p.val, hr⟩ q := by
    funext a; apply Fin.ext
    match a with
    | ⟨0, _⟩ => show win3_4.index t (0 : Fin 2) * 2000 + 1 * p.val = 2000 * t.val + p.val; omega
    | ⟨1, _⟩ => show win3_4.index t (1 : Fin 2) * 128 + 1 * q.val = q.val; omega
  show k3_pay1 (iblk3 V c 0 t) (iblk3 V c 1 t) (iblk3 V c 2 t) (iblk3 V c 3 t) (ix2 p q)
    = RowProduct.prod (DinvBiasRelu.dinvBiasRelu (V c main_v117 : FVec Ideal S100000x128 .f32)
          (V c main_v118 : FVec Ideal S100000x1 .f32) (V c main_v119 : FVec Ideal S1x128 .f32))
        (V c main_arg11 : FVec Ideal S128x128 .f32) (((cfg3.win 4).blk t).view.emb (ix2 p q))
  rw [hemb]
  refine (pay_apply (iblk3 V c 0 t) (iblk3 V c 1 t) (iblk3 V c 2 t) (iblk3 V c 3 t) p q).trans ?_
  exact DinvBiasRelu.block_rows (V c main_v117 : FVec Ideal S100000x128 .f32) (V c main_v118 : FVec Ideal S100000x1 .f32)
    (V c main_v119 : FVec Ideal S1x128 .f32) (V c main_arg11 : FVec Ideal S128x128 .f32)
    (iblk3 V c 0 t) (iblk3 V c 1 t) (iblk3 V c 2 t) (iblk3 V c 3 t) (2000 * t.val) p q hr
    (fun k => blk0 V c t p k hr) (blk1 V c t p (0 : Fin 1) hr) (fun k => blk2 V c t (0 : Fin 1) k) (fun k => blk3 V c t k q)

/-- An index of the output array is in point t's block iff each coordinate is in the block's range on its axis. -/
theorem mem_blk (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v120).slice (win3_4.rect t)).set ↔ _
  rw [View.set_slice_whole, Rect.mem_set_unit]
  exact Iff.rfl

/-- Row r lies in the block of point r / 2000. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 50 := N_3
  have hlt : (i 0).val / 2000 < cfg3.N := by rw [hN]; omega
  obtain ⟨-, -, -, -, -, -, -, -, e8, e9⟩ := idx_facts ⟨(i 0).val / 2000, hlt⟩
  refine ⟨⟨(i 0).val / 2000, hlt⟩, flush3_4 _, ?_⟩
  rw [mem_blk]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win3_4.index ⟨(i 0).val / 2000, hlt⟩ (1 : Fin 2) * 128 ≤ (i 1).val
      ∧ (i 1).val < win3_4.index ⟨(i 0).val / 2000, hlt⟩ (1 : Fin 2) * 128 + 128
    rw [e9]; omega

/-- The array the region leaves: the rows scaled by their factor, biased, rectified and multiplied by the weight matrix,
    as one whole-array function of the four input arrays. -/
theorem out (c : Dev nD) : (dat3 V c).arrAt 4 cfg3.N
    = RowProduct.prod (DinvBiasRelu.dinvBiasRelu (V c main_v117 : FVec Ideal S100000x128 .f32)
          (V c main_v118 : FVec Ideal S100000x1 .f32) (V c main_v119 : FVec Ideal S1x128 .f32))
        (V c main_arg11 : FVec Ideal S128x128 .f32) :=
  (dat3 V c).arrAt_eq_of_cover 4 _ (fun t _ => flushed_eq V c t) cover

end Cert.KernelIdeal.Region3

end
-- ==== Proof.TailDef.lean ====
/-
  The closing stage of the network on the rows of two matrices, over the extended reals, as ONE whole-array function:
  the graph branch's rows rectified after their bias, the hypergraph branch's rows scaled by the inverse degree, biased and
  rectified, the two multiplied by the upper and the lower half of the shared weight matrix and added, a bias and a
  rectifier, and the output projection with its bias:
    out(r,j) = Σ_h max( Σ_k max(Zg(r,k)+bg(k),0)·Wt(k,h) + Σ_k max(Zh(r,k)·d(r)+bh(k),0)·Wb(k,h) + bfc(h), 0 )·Wo(h,j) + bo(j).
  Biases are one-row matrices, the inverse degree a one-column matrix; every zero is the f32 zero word, never evaluated.
-/
import Idealize.ShloMosaic.PureOps.Ideal.Laws
import Idealize.ShloMosaic.Lib.ValueIdx
import proofs.«178827_j8151847928475_2_alg».proof.Proof.LibRowProduct
import proofs.«178827_j8151847928475_2_alg».proof.Proof.LibBiasRelu
import proofs.«178827_j8151847928475_2_alg».proof.Proof.Region3

namespace Idealize.ShloMosaic.Tail

open Idealize.ShloMosaic.ValueIdx

variable {A K H M : Nat}

/-- The hidden layer: the two rectified branches against the two halves of the weight matrix, added, biased, rectified. -/
noncomputable def hidden (Zg : FVec Ideal ⟨2, ![A, K]⟩ .f32) (bg : FVec Ideal ⟨2, ![1, K]⟩ .f32)
    (Zh : FVec Ideal ⟨2, ![A, K]⟩ .f32) (d : FVec Ideal ⟨2, ![A, 1]⟩ .f32) (bh : FVec Ideal ⟨2, ![1, K]⟩ .f32)
    (Wt Wb : FVec Ideal ⟨2, ![K, H]⟩ .f32) (bfc : FVec Ideal ⟨2, ![1, H]⟩ .f32) : FVec Ideal ⟨2, ![A, H]⟩ .f32 :=
  BiasRelu.biasRelu
    (addf (RowProduct.prod (BiasRelu.biasRelu Zg bg) Wt) (RowProduct.prod (DinvBiasRelu.dinvBiasRelu Zh d bh) Wb)) bfc

/-- The output projection of the hidden layer, with its bias row. -/
noncomputable def tail (Zg : FVec Ideal ⟨2, ![A, K]⟩ .f32) (bg : FVec Ideal ⟨2, ![1, K]⟩ .f32)
    (Zh : FVec Ideal ⟨2, ![A, K]⟩ .f32) (d : FVec Ideal ⟨2, ![A, 1]⟩ .f32) (bh : FVec Ideal ⟨2, ![1, K]⟩ .f32)
    (Wt Wb : FVec Ideal ⟨2, ![K, H]⟩ .f32) (bfc : FVec Ideal ⟨2, ![1, H]⟩ .f32)
    (Wo : FVec Ideal ⟨2, ![H, M]⟩ .f32) (bo : FVec Ideal ⟨2, ![1, M]⟩ .f32) : FVec Ideal ⟨2, ![A, M]⟩ .f32 :=
  fun i => RowProduct.prod (hidden Zg bg Zh d bh Wt Wb bfc) Wo i + bo (ix2 (0 : Fin 1) ⟨(i 1).val, idx2_lt1 i⟩)

theorem tail_ix2 (Zg : FVec Ideal ⟨2, ![A, K]⟩ .f32) (bg : FVec Ideal ⟨2, ![1, K]⟩ .f32)
    (Zh : FVec Ideal ⟨2, ![A, K]⟩ .f32) (d : FVec Ideal ⟨2, ![A, 1]⟩ .f32) (bh : FVec Ideal ⟨2, ![1, K]⟩ .f32)
    (Wt Wb : FVec Ideal ⟨2, ![K, H]⟩ .f32) (bfc : FVec Ideal ⟨2, ![1, H]⟩ .f32)
    (Wo : FVec Ideal ⟨2, ![H, M]⟩ .f32) (bo : FVec Ideal ⟨2, ![1, M]⟩ .f32) (r : Fin A) (j : Fin M) :
    tail Zg bg Zh d bh Wt Wb bfc Wo bo (ix2 r j)
      = RowProduct.prod (hidden Zg bg Zh d bh Wt Wb bfc) Wo (ix2 r j) + bo (ix2 (0 : Fin 1) j) := rfl

end Idealize.ShloMosaic.Tail
-- ==== Proof.Region4.lean ====
/-
  The tail of the network, one row at a time: two rectified branches, a dense hidden layer over both, and a dense output layer.
  For row r the kernel computes
      x1(r,k) = max(Zg(r,k) + bg(k), 0),      x2(r,k) = max(Zh(r,k)·d(r) + bh(k), 0),
      hid(r,h) = max(Σ_k x1(r,k)·Wt(k,h) + Σ_k x2(r,k)·Wb(k,h) + bfc(h), 0),
      out(r,j) = Σ_h hid(r,h)·Wo(h,j) + bo(j).
  Every entry of row r reads row r of the row-tiled inputs only, and the whole weight matrices and bias rows, so a block that holds
  the rows 2000·t + p yields the rows 2000·t + p of ONE whole-array function, and the fifty blocks written back tile the array.
  No finiteness is used: every step is a congruence or a sum read term by term, which hold on the extended reals.
-/
import proofs.«178827_j8151847928475_2_alg».proof.Proof.Gen.KernelIdeal.Frame
import proofs.«178827_j8151847928475_2_alg».proof.Proof.LibPlainDot
import proofs.«178827_j8151847928475_2_alg».proof.Proof.LibRowProduct
import proofs.«178827_j8151847928475_2_alg».proof.Proof.LibBiasRelu
import proofs.«178827_j8151847928475_2_alg».proof.Proof.TailDef
import Idealize.ShloMosaic.Lib.Pipeline.Value
import Idealize.ShloMosaic.Lib.ValueIdx
import Idealize.ShloMosaic.Lib.ValueLayout

noncomputable section

namespace Idealize.ShloMosaic.TailBody

open Idealize.ShloMosaic.ValueIdx

variable {A B K H M : Nat}

/-- The hidden layer at (r, h): max(Σ_k x1(r,k)·Wt(k,h) + Σ_k x2(r,k)·Wb(k,h) + bfc(0,h), 0). -/
theorem hidden_ix2 (Zg : FVec Ideal ⟨2, ![A, K]⟩ .f32) (bg : FVec Ideal ⟨2, ![1, K]⟩ .f32) (Zh : FVec Ideal ⟨2, ![A, K]⟩ .f32)
    (d : FVec Ideal ⟨2, ![A, 1]⟩ .f32) (bh : FVec Ideal ⟨2, ![1, K]⟩ .f32) (Wt Wb : FVec Ideal ⟨2, ![K, H]⟩ .f32)
    (bfc : FVec Ideal ⟨2, ![1, H]⟩ .f32) (r : Fin A) (h : Fin H) :
    Tail.hidden Zg bg Zh d bh Wt Wb bfc (ix2 r h)
      = max ((RowProduct.prod (BiasRelu.biasRelu Zg bg) Wt (ix2 r h)
              + RowProduct.prod (DinvBiasRelu.dinvBiasRelu Zh d bh) Wb (ix2 r h))
          + bfc (ix2 (0 : Fin 1) h)) (Ideal.ofBits .f32 0x00000000#32) := rfl

/-- The hidden layer as a kernel body spells it at (p, h) of its block: both branches rounded to bf16 (the identity here) and
    multiplied into zero accumulators, the two products added, the bias row repeated down the rows, the maximum with a splat
    zero, the result rounded to bf16. -/
theorem hidden_body_apply (prec : Option ContractPrecision)
    (x0 : FVec Ideal ⟨2, ![B, K]⟩ .f32) (x1 : FVec Ideal ⟨2, ![1, K]⟩ .f32) (x2 : FVec Ideal ⟨2, ![B, K]⟩ .f32)
    (x3 : FVec Ideal ⟨2, ![B, 1]⟩ .f32) (x4 : FVec Ideal ⟨2, ![1, K]⟩ .f32) (x5 x6 : FVec Ideal ⟨2, ![K, H]⟩ .f32)
    (x7 : FVec Ideal ⟨2, ![1, H]⟩ .f32) (ht : FTy.bf16.bits < FTy.f32.bits)
    (h0 : (⟨2, ![B, K]⟩ : Shape).ShapeCasts ⟨2, ![B, K]⟩) (h1 : (⟨2, ![1, K]⟩ : Shape).ShapeCasts ⟨2, ![1, K]⟩)
    (h3 : (⟨2, ![B, 1]⟩ : Shape).ShapeCasts ⟨2, ![B, 1]⟩) (h5 : (⟨2, ![K, H]⟩ : Shape).ShapeCasts ⟨2, ![K, H]⟩)
    (h7 : (⟨2, ![1, H]⟩ : Shape).ShapeCasts ⟨2, ![1, H]⟩)
    (hb1 : (⟨2, ![1, K]⟩ : Shape).Broadcasts ⟨2, ![B, K]⟩) (hb3 : (⟨2, ![B, 1]⟩ : Shape).Broadcasts ⟨2, ![B, K]⟩)
    (hb7 : (⟨2, ![1, H]⟩ : Shape).Broadcasts ⟨2, ![B, H]⟩) (p : Fin B) (h : Fin H) :
    truncf .bf16
        (maximumf
          (addf
            (addf
              (FloatOps.matmul (DotDims.plain B K H) prec
                (truncf .bf16
                  (maximumf (addf (shapeCast ⟨2, ![B, K]⟩ x0 h0) (broadcastTo ⟨2, ![B, K]⟩ (shapeCast ⟨2, ![1, K]⟩ x1 h1) hb1))
                    (broadcast ⟨2, ![B, K]⟩ (FloatOps.ofBits (F := Ideal) .f32 0x00000000#32))) ht)
                (truncf .bf16 (shapeCast ⟨2, ![K, H]⟩ x5 h5) ht) (constant ⟨2, ![B, H]⟩ .f32 0x00000000#32))
              (FloatOps.matmul (DotDims.plain B K H) prec
                (truncf .bf16
                  (maximumf (addf (mulf (shapeCast ⟨2, ![B, K]⟩ x2 h0) (broadcastTo ⟨2, ![B, K]⟩ (shapeCast ⟨2, ![B, 1]⟩ x3 h3) hb3))
                      (broadcastTo ⟨2, ![B, K]⟩ (shapeCast ⟨2, ![1, K]⟩ x4 h1) hb1))
                    (broadcast ⟨2, ![B, K]⟩ (FloatOps.ofBits (F := Ideal) .f32 0x00000000#32))) ht)
                (truncf .bf16 (shapeCast ⟨2, ![K, H]⟩ x6 h5) ht) (constant ⟨2, ![B, H]⟩ .f32 0x00000000#32)))
            (broadcastTo ⟨2, ![B, H]⟩ (shapeCast ⟨2, ![1, H]⟩ x7 h7) hb7))
          (broadcast ⟨2, ![B, H]⟩ (FloatOps.ofBits (F := Ideal) .f32 0x00000000#32))) ht (ix2 p h)
      = max (((∑ k : Fin K, max (x0 (ix2 p k) + x1 (ix2 (0 : Fin 1) k)) (Ideal.ofBits .f32 0x00000000#32) * x5 (ix2 k h))
            + (∑ k : Fin K, max (x2 (ix2 p k) * x3 (ix2 p (0 : Fin 1)) + x4 (ix2 (0 : Fin 1) k)) (Ideal.ofBits .f32 0x00000000#32)
                * x6 (ix2 k h)))
          + x7 (ix2 (0 : Fin 1) h)) (Ideal.ofBits .f32 0x00000000#32) := by
  refine (truncf_apply (ψ := .bf16) _ ht _).trans ?_
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (RowProduct.body_apply prec _ _ ht ht p h).trans ?_
      refine Finset.sum_congr rfl fun k _ => ?_
      refine congrArg₂ (· * ·) ?_ ?_
      · exact BiasRelu.body_apply x0 x1 h0 h1 hb1 p k
      · rw [shapeCast_self]
    · refine (RowProduct.body_apply prec _ _ ht ht p h).trans ?_
      refine Finset.sum_congr rfl fun k _ => ?_
      refine congrArg₂ (· * ·) ?_ ?_
      · exact DinvBiasRelu.body_apply x2 x3 x4 h0 h3 h1 hb3 hb1 p k
      · rw [shapeCast_self]
  · rw [shapeCast_self]
    exact broadcastTo_1b_ab_apply x7 hb7 p h

/-- The output layer as a kernel body spells it at (p, q) of its block: the hidden block (already bf16) times the weights rounded
    to bf16 into a zero accumulator, the bias row repeated down the rows. -/
theorem out_body_apply (prec : Option ContractPrecision) (v : FVec Ideal ⟨2, ![B, H]⟩ .bf16) (w : FVec Ideal ⟨2, ![H, M]⟩ .f32)
    (b : FVec Ideal ⟨2, ![1, M]⟩ .f32) (ht : FTy.bf16.bits < FTy.f32.bits)
    (hc : (⟨2, ![1, M]⟩ : Shape).ShapeCasts ⟨2, ![1, M]⟩) (hb : (⟨2, ![1, M]⟩ : Shape).Broadcasts ⟨2, ![B, M]⟩) (p : Fin B) (q : Fin M) :
    addf (FloatOps.matmul (DotDims.plain B H M) prec v (truncf .bf16 w ht) (constant ⟨2, ![B, M]⟩ .f32 0x00000000#32))
        (broadcastTo ⟨2, ![B, M]⟩ (shapeCast ⟨2, ![1, M]⟩ b hc) hb) (ix2 p q)
      = (∑ h : Fin H, v (ix2 p h) * w (ix2 h q)) + b (ix2 (0 : Fin 1) q) := by
  rw [shapeCast_self]
  refine (addf_apply _ _ _).trans ?_
  refine congrArg₂ (· + ·) ?_ ?_
  · exact PlainDot.matmul_apply_ix2 prec v (truncf .bf16 w ht) p q
  · exact broadcastTo_1b_ab_apply b hb p q

/-- A block holding the rows o + p of the row-tiled inputs, with the same weights and bias rows, yields the rows o + p of the
    whole result: entry (p, q) of the block's value is the whole function's entry at row o + p. -/
theorem block_rows (Zg : FVec Ideal ⟨2, ![A, K]⟩ .f32) (bg : FVec Ideal ⟨2, ![1, K]⟩ .f32) (Zh : FVec Ideal ⟨2, ![A, K]⟩ .f32)
    (d : FVec Ideal ⟨2, ![A, 1]⟩ .f32) (bh : FVec Ideal ⟨2, ![1, K]⟩ .f32) (Wt Wb : FVec Ideal ⟨2, ![K, H]⟩ .f32)
    (bfc : FVec Ideal ⟨2, ![1, H]⟩ .f32) (Wo : FVec Ideal ⟨2, ![H, M]⟩ .f32) (bo : FVec Ideal ⟨2, ![1, M]⟩ .f32)
    (x0 : FVec Ideal ⟨2, ![B, K]⟩ .f32) (x1 : FVec Ideal ⟨2, ![1, K]⟩ .f32) (x2 : FVec Ideal ⟨2, ![B, K]⟩ .f32)
    (x3 : FVec Ideal ⟨2, ![B, 1]⟩ .f32) (x4 : FVec Ideal ⟨2, ![1, K]⟩ .f32) (x5 x6 : FVec Ideal ⟨2, ![K, H]⟩ .f32)
    (x7 : FVec Ideal ⟨2, ![1, H]⟩ .f32) (x8 : FVec Ideal ⟨2, ![H, M]⟩ .f32) (x9 : FVec Ideal ⟨2, ![1, M]⟩ .f32)
    (o : Nat) (p : Fin B) (q : Fin M) (hr : o + p.val < A)
    (e0 : ∀ k : Fin K, x0 (ix2 p k) = Zg (ix2 ⟨o + p.val, hr⟩ k))
    (e1 : ∀ k : Fin K, x1 (ix2 (0 : Fin 1) k) = bg (ix2 (0 : Fin 1) k))
    (e2 : ∀ k : Fin K, x2 (ix2 p k) = Zh (ix2 ⟨o + p.val, hr⟩ k))
    (e3 : x3 (ix2 p (0 : Fin 1)) = d (ix2 ⟨o + p.val, hr⟩ (0 : Fin 1)))
    (e4 : ∀ k : Fin K, x4 (ix2 (0 : Fin 1) k) = bh (ix2 (0 : Fin 1) k))
    (e5 : ∀ (k : Fin K) (h : Fin H), x5 (ix2 k h) = Wt (ix2 k h))
    (e6 : ∀ (k : Fin K) (h : Fin H), x6 (ix2 k h) = Wb (ix2 k h))
    (e7 : ∀ h : Fin H, x7 (ix2 (0 : Fin 1) h) = bfc (ix2 (0 : Fin 1) h))
    (e8 : ∀ h : Fin H, x8 (ix2 h q) = Wo (ix2 h q))
    (e9 : x9 (ix2 (0 : Fin 1) q) = bo (ix2 (0 : Fin 1) q)) :
    (∑ h : Fin H,
        max (((∑ k : Fin K, max (x0 (ix2 p k) + x1 (ix2 (0 : Fin 1) k)) (Ideal.ofBits .f32 0x00000000#32) * x5 (ix2 k h))
              + (∑ k : Fin K, max (x2 (ix2 p k) * x3 (ix2 p (0 : Fin 1)) + x4 (ix2 (0 : Fin 1) k)) (Ideal.ofBits .f32 0x00000000#32)
                  * x6 (ix2 k h)))
            + x7 (ix2 (0 : Fin 1) h)) (Ideal.ofBits .f32 0x00000000#32) * x8 (ix2 h q))
        + x9 (ix2 (0 : Fin 1) q)
      = Tail.tail Zg bg Zh d bh Wt Wb bfc Wo bo (ix2 ⟨o + p.val, hr⟩ q) := by
  rw [Tail.tail_ix2, RowProduct.prod_ix2]
  refine congrArg₂ (· + ·) (Finset.sum_congr rfl fun h _ => ?_) e9
  refine congrArg₂ (· * ·) ?_ (e8 h)
  rw [hidden_ix2, RowProduct.prod_ix2, RowProduct.prod_ix2]
  refine congrArg₂ max ?_ rfl
  refine congrArg₂ (· + ·) (congrArg₂ (· + ·) ?_ ?_) (e7 h)
  · exact Finset.sum_congr rfl fun k _ => by rw [BiasRelu.biasRelu_ix2, e0 k, e1 k, e5 k h]
  · exact Finset.sum_congr rfl fun k _ => by rw [DinvBiasRelu.dinvBiasRelu_ix2, e2 k, e3, e4 k, e6 k h]

end Idealize.ShloMosaic.TailBody

namespace Cert.KernelIdeal.Region4

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block index maps over the fifty grid points: the row-tiled windows sit at block (t, 0). -/
theorem idx_rows : ∀ t : Fin cfg4.N, win4_0.index t (0 : Fin 2) = t.val ∧ win4_0.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_10.index t (0 : Fin 2) = t.val ∧ win4_10.index t (1 : Fin 2) = 0 :=
  (by decide +kernel : ∀ t : Fin grid4.N, _)

/-- The bias rows sit at block (0, 0) at every point. -/
theorem idx_bias : ∀ t : Fin cfg4.N, win4_1.index t (0 : Fin 2) = 0 ∧ win4_1.index t (1 : Fin 2) = 0
    ∧ win4_4.index t (0 : Fin 2) = 0 ∧ win4_4.index t (1 : Fin 2) = 0
    ∧ win4_7.index t (0 : Fin 2) = 0 ∧ win4_7.index t (1 : Fin 2) = 0
    ∧ win4_9.index t (0 : Fin 2) = 0 ∧ win4_9.index t (1 : Fin 2) = 0 :=
  (by decide +kernel : ∀ t : Fin grid4.N, _)

/-- The weight matrices sit at block (0, 0) at every point. -/
theorem idx_weights : ∀ t : Fin cfg4.N, win4_5.index t (0 : Fin 2) = 0 ∧ win4_5.index t (1 : Fin 2) = 0
    ∧ win4_6.index t (0 : Fin 2) = 0 ∧ win4_6.index t (1 : Fin 2) = 0
    ∧ win4_8.index t (0 : Fin 2) = 0 ∧ win4_8.index t (1 : Fin 2) = 0 :=
  (by decide +kernel : ∀ t : Fin grid4.N, _)

/-- The body's value at (p, q) of its block, as sums over the loaded blocks. -/
theorem pay_apply (x0 : Vec Ideal S2000x128 .f32) (x1 : Vec Ideal S1x128 .f32) (x2 : Vec Ideal S2000x128 .f32)
    (x3 : Vec Ideal S2000x1 .f32) (x4 : Vec Ideal S1x128 .f32) (x5 : Vec Ideal S128x128 .f32) (x6 : Vec Ideal S128x128 .f32)
    (x7 : Vec Ideal S1x128 .f32) (x8 : Vec Ideal S128x2 .f32) (x9 : Vec Ideal S1x2 .f32) (p : Fin 2000) (q : Fin 2) :
    k4_pay1 (k4_pay2 x0 x1 x2 x3 x4 x5 x6 x7) x8 x9 (ix2 p q)
      = (∑ h : Fin 128,
          max (((∑ k : Fin 128, max (x0 (ix2 p k) + x1 (ix2 (0 : Fin 1) k)) (Ideal.ofBits .f32 0x00000000#32) * x5 (ix2 k h))
                + (∑ k : Fin 128, max (x2 (ix2 p k) * x3 (ix2 p (0 : Fin 1)) + x4 (ix2 (0 : Fin 1) k)) (Ideal.ofBits .f32 0x00000000#32)
                    * x6 (ix2 k h)))
              + x7 (ix2 (0 : Fin 1) h)) (Ideal.ofBits .f32 0x00000000#32) * x8 (ix2 h q))
          + x9 (ix2 (0 : Fin 1) q) := by
  unfold k4_pay1
  refine (TailBody.out_body_apply (B := 2000) (H := 128) (M := 2) none (k4_pay2 x0 x1 x2 x3 x4 x5 x6 x7) x8 x9 _ _ _ p q).trans ?_
  refine congrArg₂ (· + ·) (Finset.sum_congr rfl fun h _ => ?_) rfl
  refine congrArg₂ (· * ·) ?_ rfl
  unfold k4_pay2
  exact TailBody.hidden_body_apply (B := 2000) (K := 128) (H := 128) none x0 x1 x2 x3 x4 x5 x6 x7 _ _ _ _ _ _ _ _ _ p h

/-- Block t of a row-tiled [100000, 128] input holds the rows 2000·t + p. -/
theorem blk0 (c : Dev nD) (t : Fin cfg4.N) (p : Fin 2000) (k : Fin 128) (hr : 2000 * t.val + p.val < 100000) :
    iblk4 V c 0 t (ix2 p k) = V c main_v60 (ix2 ⟨2000 * t.val + p.val, hr⟩ k) := by
  obtain ⟨e0, e1, -, -, -, -, -, -⟩ := idx_rows t
  show V c main_v60 (((cfg4.win 0).blk t).view.emb (ix2 p k)) = _
  refine congrArg (V c main_v60) ?_
  funext a; apply Fin.ext
  match a with
  | ⟨0, _⟩ => show win4_0.index t (0 : Fin 2) * 2000 + 1 * p.val = 2000 * t.val + p.val; omega
  | ⟨1, _⟩ => show win4_0.index t (1 : Fin 2) * 128 + 1 * k.val = k.val; omega

theorem blk2 (c : Dev nD) (t : Fin cfg4.N) (p : Fin 2000) (k : Fin 128) (hr : 2000 * t.val + p.val < 100000) :
    iblk4 V c 2 t (ix2 p k) = V c main_v143 (ix2 ⟨2000 * t.val + p.val, hr⟩ k) := by
  obtain ⟨-, -, e0, e1, -, -, -, -⟩ := idx_rows t
  show V c main_v143 (((cfg4.win 2).blk t).view.emb (ix2 p k)) = _
  refine congrArg (V c main_v143) ?_
  funext a; apply Fin.ext
  match a with
  | ⟨0, _⟩ => show win4_2.index t (0 : Fin 2) * 2000 + 1 * p.val = 2000 * t.val + p.val; omega
  | ⟨1, _⟩ => show win4_2.index t (1 : Fin 2) * 128 + 1 * k.val = k.val; omega

/-- Block t of the row-tiled column [100000, 1] holds the rows 2000·t + p. -/
theorem blk3 (c : Dev nD) (t : Fin cfg4.N) (p : Fin 2000) (u : Fin 1) (hr : 2000 * t.val + p.val < 100000) :
    iblk4 V c 3 t (ix2 p u) = V c main_v146 (ix2 ⟨2000 * t.val + p.val, hr⟩ u) := by
  obtain ⟨-, -, -, -, e0, e1, -, -⟩ := idx_rows t
  show V c main_v146 (((cfg4.win 3).blk t).view.emb (ix2 p u)) = _
  refine congrArg (V c main_v146) ?_
  funext a; apply Fin.ext
  match a with
  | ⟨0, _⟩ => show win4_3.index t (0 : Fin 2) * 2000 + 1 * p.val = 2000 * t.val + p.val; omega
  | ⟨1, _⟩ => show win4_3.index t (1 : Fin 2) * 1 + 1 * u.val = u.val; omega

/-- Every point's block of a bias row is the whole row. -/
theorem blk1 (c : Dev nD) (t : Fin cfg4.N) (u : Fin 1) (k : Fin 128) :
    iblk4 V c 1 t (ix2 u k) = V c main_v147 (ix2 u k) := by
  obtain ⟨e0, e1, -, -, -, -, -, -⟩ := idx_bias t
  show V c main_v147 (((cfg4.win 1).blk t).view.emb (ix2 u k)) = _
  refine congrArg (V c main_v147) ?_
  funext a; apply Fin.ext
  match a with
  | ⟨0, _⟩ => show win4_1.index t (0 : Fin 2) * 1 + 1 * u.val = u.val; omega
  | ⟨1, _⟩ => show win4_1.index t (1 : Fin 2) * 128 + 1 * k.val = k.val; omega

theorem blk4 (c : Dev nD) (t : Fin cfg4.N) (u : Fin 1) (k : Fin 128) :
    iblk4 V c 4 t (ix2 u k) = V c main_v148 (ix2 u k) := by
  obtain ⟨-, -, e0, e1, -, -, -, -⟩ := idx_bias t
  show V c main_v148 (((cfg4.win 4).blk t).view.emb (ix2 u k)) = _
  refine congrArg (V c main_v148) ?_
  funext a; apply Fin.ext
  match a with
  | ⟨0, _⟩ => show win4_4.index t (0 : Fin 2) * 1 + 1 * u.val = u.val; omega
  | ⟨1, _⟩ => show win4_4.index t (1 : Fin 2) * 128 + 1 * k.val = k.val; omega

theorem blk7 (c : Dev nD) (t : Fin cfg4.N) (u : Fin 1) (k : Fin 128) :
    iblk4 V c 7 t (ix2 u k) = V c main_v149 (ix2 u k) := by
  obtain ⟨-, -, -, -, e0, e1, -, -⟩ := idx_bias t
  show V c main_v149 (((cfg4.win 7).blk t).view.emb (ix2 u k)) = _
  refine congrArg (V c main_v149) ?_
  funext a; apply Fin.ext
  match a with
  | ⟨0, _⟩ => show win4_7.index t (0 : Fin 2) * 1 + 1 * u.val = u.val; omega
  | ⟨1, _⟩ => show win4_7.index t (1 : Fin 2) * 128 + 1 * k.val = k.val; omega

theorem blk9 (c : Dev nD) (t : Fin cfg4.N) (u : Fin 1) (q : Fin 2) :
    iblk4 V c 9 t (ix2 u q) = V c main_v150 (ix2 u q) := by
  obtain ⟨-, -, -, -, -, -, e0, e1⟩ := idx_bias t
  show V c main_v150 (((cfg4.win 9).blk t).view.emb (ix2 u q)) = _
  refine congrArg (V c main_v150) ?_
  funext a; apply Fin.ext
  match a with
  | ⟨0, _⟩ => show win4_9.index t (0 : Fin 2) * 1 + 1 * u.val = u.val; omega
  | ⟨1, _⟩ => show win4_9.index t (1 : Fin 2) * 2 + 1 * q.val = q.val; omega

/-- Every point's block of a weight matrix is the whole matrix. -/
theorem blk5 (c : Dev nD) (t : Fin cfg4.N) (k : Fin 128) (h : Fin 128) :
    iblk4 V c 5 t (ix2 k h) = V c main_v144 (ix2 k h) := by
  obtain ⟨e0, e1, -, -, -, -⟩ := idx_weights t
  show V c main_v144 (((cfg4.win 5).blk t).view.emb (ix2 k h)) = _
  refine congrArg (V c main_v144) ?_
  funext a; apply Fin.ext
  match a with
  | ⟨0, _⟩ => show win4_5.index t (0 : Fin 2) * 128 + 1 * k.val = k.val; omega
  | ⟨1, _⟩ => show win4_5.index t (1 : Fin 2) * 128 + 1 * h.val = h.val; omega

theorem blk6 (c : Dev nD) (t : Fin cfg4.N) (k : Fin 128) (h : Fin 128) :
    iblk4 V c 6 t (ix2 k h) = V c main_v145 (ix2 k h) := by
  obtain ⟨-, -, e0, e1, -, -⟩ := idx_weights t
  show V c main_v145 (((cfg4.win 6).blk t).view.emb (ix2 k h)) = _
  refine congrArg (V c main_v145) ?_
  funext a; apply Fin.ext
  match a with
  | ⟨0, _⟩ => show win4_6.index t (0 : Fin 2) * 128 + 1 * k.val = k.val; omega
  | ⟨1, _⟩ => show win4_6.index t (1 : Fin 2) * 128 + 1 * h.val = h.val; omega

theorem blk8 (c : Dev nD) (t : Fin cfg4.N) (h : Fin 128) (q : Fin 2) :
    iblk4 V c 8 t (ix2 h q) = V c main_arg15 (ix2 h q) := by
  obtain ⟨-, -, -, -, e0, e1⟩ := idx_weights t
  show V c main_arg15 (((cfg4.win 8).blk t).view.emb (ix2 h q)) = _
  refine congrArg (V c main_arg15) ?_
  funext a; apply Fin.ext
  match a with
  | ⟨0, _⟩ => show win4_8.index t (0 : Fin 2) * 128 + 1 * h.val = h.val; omega
  | ⟨1, _⟩ => show win4_8.index t (1 : Fin 2) * 2 + 1 * q.val = q.val; omega

/-- What point t writes back is block t of the whole tail function. -/
theorem flushed_eq (c : Dev nD) (t : Fin cfg4.N) :
    (dat4 V c).flushed 10 t = ((cfg4.win 10).blk t).view.read (Elt Ideal)
      (Tail.tail (V c main_v60 : FVec Ideal S100000x128 .f32) (V c main_v147 : FVec Ideal S1x128 .f32)
        (V c main_v143 : FVec Ideal S100000x128 .f32) (V c main_v146 : FVec Ideal S100000x1 .f32)
        (V c main_v148 : FVec Ideal S1x128 .f32) (V c main_v144 : FVec Ideal S128x128 .f32)
        (V c main_v145 : FVec Ideal S128x128 .f32) (V c main_v149 : FVec Ideal S1x128 .f32)
        (V c main_arg15 : FVec Ideal S128x2 .f32) (V c main_v150 : FVec Ideal S1x2 .f32)) := by
  show (cfg4.win 10).cut (grid4.coords t) ((dat4 V c).after 10 t) = _
  rw [after4_10]
  unfold out4_10
  rw [View.canon_unit_zero hz]
  simp only [View.ld_unit_zero (S := S2000x128) hz, View.ld_unit_zero (S := S1x128) hz, View.ld_unit_zero (S := S2000x1) hz,
    View.ld_unit_zero (S := S128x128) hz, View.ld_unit_zero (S := S128x2) hz, View.ld_unit_zero (S := S1x2) hz]
  funext j
  obtain ⟨p, q, rfl⟩ : ∃ (p : Fin 2000) (q : Fin 2), j = ix2 p q := ⟨j 0, j 1, eq_ix2 j⟩
  have ht : t.val < 50 := lt_of_lt_of_eq t.isLt N_4
  have hr : 2000 * t.val + p.val < 100000 := by have := p.isLt; omega
  obtain ⟨-, -, -, -, -, -, e6, e7⟩ := idx_rows t
  have hemb : ((cfg4.win 10).blk t).view.emb (ix2 p q) = ix2 ⟨2000 * t.val + p.val, hr⟩ q := by
    funext a; apply Fin.ext
    match a with
    | ⟨0, _⟩ => show win4_10.index t (0 : Fin 2) * 2000 + 1 * p.val = 2000 * t.val + p.val; omega
    | ⟨1, _⟩ => show win4_10.index t (1 : Fin 2) * 2 + 1 * q.val = q.val; omega
  show k4_pay1 (k4_pay2 (iblk4 V c 0 t) (iblk4 V c 1 t) (iblk4 V c 2 t) (iblk4 V c 3 t) (iblk4 V c 4 t) (iblk4 V c 5 t)
        (iblk4 V c 6 t) (iblk4 V c 7 t)) (iblk4 V c 8 t) (iblk4 V c 9 t) (ix2 p q)
    = Tail.tail (V c main_v60 : FVec Ideal S100000x128 .f32) (V c main_v147 : FVec Ideal S1x128 .f32)
        (V c main_v143 : FVec Ideal S100000x128 .f32) (V c main_v146 : FVec Ideal S100000x1 .f32)
        (V c main_v148 : FVec Ideal S1x128 .f32) (V c main_v144 : FVec Ideal S128x128 .f32)
        (V c main_v145 : FVec Ideal S128x128 .f32) (V c main_v149 : FVec Ideal S1x128 .f32)
        (V c main_arg15 : FVec Ideal S128x2 .f32) (V c main_v150 : FVec Ideal S1x2 .f32)
        (((cfg4.win 10).blk t).view.emb (ix2 p q))
  rw [hemb]
  refine (pay_apply (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) p q).trans ?_
  exact TailBody.block_rows (V c main_v60 : FVec Ideal S100000x128 .f32) (V c main_v147 : FVec Ideal S1x128 .f32)
    (V c main_v143 : FVec Ideal S100000x128 .f32) (V c main_v146 : FVec Ideal S100000x1 .f32)
    (V c main_v148 : FVec Ideal S1x128 .f32) (V c main_v144 : FVec Ideal S128x128 .f32)
    (V c main_v145 : FVec Ideal S128x128 .f32) (V c main_v149 : FVec Ideal S1x128 .f32)
    (V c main_arg15 : FVec Ideal S128x2 .f32) (V c main_v150 : FVec Ideal S1x2 .f32)
    (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (2000 * t.val) p q hr
    (fun k => blk0 V c t p k hr) (fun k => blk1 V c t 0 k) (fun k => blk2 V c t p k hr) (blk3 V c t p 0 hr)
    (fun k => blk4 V c t 0 k) (fun k h => blk5 V c t k h) (fun k h => blk6 V c t k h) (fun h => blk7 V c t 0 h)
    (fun h => blk8 V c t h q) (blk9 V c t 0 q)

/-- An index of the output array is in point t's block iff each coordinate is in the block's range on its axis. -/
theorem mem_blk (t : Fin cfg4.N) (i : S100000x2.Idx) :
    i ∈ ((cfg4.win 10).blk t).view.set ↔ ∀ a : Fin 2, win4_10.index t a * S2000x2.size a ≤ (i a).val
      ∧ (i a).val < win4_10.index t a * S2000x2.size a + S2000x2.size a := by
  show i ∈ ((View.whole main_v151).slice (win4_10.rect t)).set ↔ _
  rw [View.set_slice_whole, Rect.mem_set_unit]
  exact Iff.rfl

/-- Row r lies in the block of point r / 2000. -/
theorem cover (i : S100000x2.Idx) :
    ∃ t : Fin cfg4.N, (cfg4.win 10).flush t = true ∧ i ∈ ((cfg4.win 10).blk t).view.set := by
  have hi0 : (i 0).val < 100000 := (i 0).isLt
  have hi1 : (i 1).val < 2 := (i 1).isLt
  have hN : cfg4.N = 50 := N_4
  have hlt : (i 0).val / 2000 < cfg4.N := by rw [hN]; omega
  obtain ⟨-, -, -, -, -, -, e6, e7⟩ := idx_rows ⟨(i 0).val / 2000, hlt⟩
  refine ⟨⟨(i 0).val / 2000, hlt⟩, flush4_10 _, ?_⟩
  rw [mem_blk]
  intro a
  match a with
  | ⟨0, _⟩ =>
    show win4_10.index ⟨(i 0).val / 2000, hlt⟩ (0 : Fin 2) * 2000 ≤ (i 0).val
      ∧ (i 0).val < win4_10.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win4_10.index ⟨(i 0).val / 2000, hlt⟩ (1 : Fin 2) * 2 ≤ (i 1).val
      ∧ (i 1).val < win4_10.index ⟨(i 0).val / 2000, hlt⟩ (1 : Fin 2) * 2 + 2
    rw [e7]; omega

/-- The array the region leaves: the tail of the network applied to the rows of its inputs, as one whole-array function. -/
theorem out (c : Dev nD) : (dat4 V c).arrAt 10 cfg4.N
    = Tail.tail (V c main_v60 : FVec Ideal S100000x128 .f32) (V c main_v147 : FVec Ideal S1x128 .f32)
        (V c main_v143 : FVec Ideal S100000x128 .f32) (V c main_v146 : FVec Ideal S100000x1 .f32)
        (V c main_v148 : FVec Ideal S1x128 .f32) (V c main_v144 : FVec Ideal S128x128 .f32)
        (V c main_v145 : FVec Ideal S128x128 .f32) (V c main_v149 : FVec Ideal S1x128 .f32)
        (V c main_arg15 : FVec Ideal S128x2 .f32) (V c main_v150 : FVec Ideal S1x2 .f32) :=
  (dat4 V c).arrAt_eq_of_cover 10 _ (fun t _ => flushed_eq V c t) cover

end Cert.KernelIdeal.Region4

end
-- ==== Proof.RefTree.lean ====
/-
  The reference's result as a term of its seventeen argument arrays with its five dense stages left as function variables:
  rows times weights (`L0`), bias and rectifier in front of a product (`L1`), a scaling column in front of a product (`L2`),
  inverse degree, bias and rectifier in front of a product (`L3`) and the closing stage (`LT`). Everything else — the
  self-loops laid after the edges, the degree normalisation, the gathers and scatter-adds over edges and hyperedge
  incidences — is the reference's own sequence of host operations, spelt once, for any float instance.
-/
import proofs.«178827_j8151847928475_2_alg».proof.ReferenceIdeal
import proofs.«178827_j8151847928475_2_alg».proof.Proof.Gen.ReferenceIdeal
import proofs.«178827_j8151847928475_2_alg».proof.Proof.Gen.KernelIdeal

noncomputable section

namespace Cert.ReferenceIdeal

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The result array of the reference as a function of the argument arrays and the five dense stages. -/
def refTree (L0 : FVec F S100000x128 .f32 → FVec F S128x128 .f32 → FVec F S100000x128 .f32) (L1 : FVec F S100000x128 .f32 → FVec F S1x128 .f32 → FVec F S128x128 .f32 → FVec F S100000x128 .f32)
    (L2 : FVec F S100000x128 .f32 → FVec F S100000x1 .f32 → FVec F S128x128 .f32 → FVec F S100000x128 .f32) (L3 : FVec F S100000x128 .f32 → FVec F S100000x1 .f32 → FVec F S1x128 .f32 → FVec F S128x128 .f32 → FVec F S100000x128 .f32)
    (LT : FVec F S100000x128 .f32 → FVec F S1x128 .f32 → FVec F S100000x128 .f32 → FVec F S100000x1 .f32 → FVec F S1x128 .f32 → FVec F S128x128 .f32 → FVec F S128x128 .f32 → FVec F S1x128 .f32 → FVec F S128x2 .f32 → FVec F S1x2 .f32 → FVec F S100000x2 .f32)
    (a0 : (⟨S100000x128, .f32⟩ : BufTy).Contents (Elt F)) (a1 : (⟨S2x1600000, .i32⟩ : BufTy).Contents (Elt F)) (a2 : (⟨S1600000, .f32⟩ : BufTy).Contents (Elt F)) (a3 : (⟨S2x800000, .i32⟩ : BufTy).Contents (Elt F)) (a4 : (⟨S10000, .f32⟩ : BufTy).Contents (Elt F)) (a5 : (⟨S128x128, .f32⟩ : BufTy).Contents (Elt F)) (a6 : (⟨S128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F)) (a10 : (⟨S128, .f32⟩ : BufTy).Contents (Elt F)) (a11 : (⟨S128x128, .f32⟩ : BufTy).Contents (Elt F)) (a12 : (⟨S128, .f32⟩ : BufTy).Contents (Elt F)) (a13 : (⟨S256x128, .f32⟩ : BufTy).Contents (Elt F)) (a14 : (⟨S128, .f32⟩ : BufTy).Contents (Elt F)) (a15 : (⟨S128x2, .f32⟩ : BufTy).Contents (Elt F)) (a16 : (⟨S2, .f32⟩ : BufTy).Contents (Elt F)) : FVec F S100000x2 .f32 :=
  LT (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (mulf (broadcastInDim S1700000x128 ![0, 1] bcast_S1700000x1_S1700000x128_0_1 (broadcastInDim S1700000x1 ![0] bcast_S1700000_S1700000x1_0 (mulf (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)))) (concatenate S1700000 0 [⟨S1600000, a2⟩, ⟨S100000, (broadcastInDim S100000 ![] bcast_S_S100000 (constant S_ .f32 0x3F800000#32))⟩] concatenates_S1600000_S100000_S1700000_d0)) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0))))))) (Host.gather gather_S100000x128_S1700000x1_S1700000x128_1_0_n_n_0_1_1128 (L1 (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (mulf (broadcastInDim S1700000x128 ![0, 1] bcast_S1700000x1_S1700000x128_0_1 (broadcastInDim S1700000x1 ![0] bcast_S1700000_S1700000x1_0 (mulf (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)))) (concatenate S1700000 0 [⟨S1600000, a2⟩, ⟨S100000, (broadcastInDim S100000 ![] bcast_S_S100000 (constant S_ .f32 0x3F800000#32))⟩] concatenates_S1600000_S100000_S1700000_d0)) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (concatenate S1700000 0 [⟨S1600000, a2⟩, ⟨S100000, (broadcastInDim S100000 ![] bcast_S_S100000 (constant S_ .f32 0x3F800000#32))⟩] concatenates_S1600000_S100000_S1700000_d0))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0))))))) (Host.gather gather_S100000x128_S1700000x1_S1700000x128_1_0_n_n_0_1_1128 (L0 a0 a5) (broadcastInDim S1700000x1 ![0] bcast_S1700000_S1700000x1_0 (select (cmpi .slt (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)))))) (shapeCast S1x128 a6 Cert.KernelIdeal.Gen.shapeCasts_S128_S1x128) a7) (broadcastInDim S1700000x1 ![0] bcast_S1700000_S1700000x1_0 (select (cmpi .slt (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)))))) (shapeCast S1x128 a8 Cert.KernelIdeal.Gen.shapeCasts_S128_S1x128) (Host.scatterAdd scatter_S100000x128_S800000x1_S800000x128_1_0_0_1 (broadcastInDim S100000x128 ![] bcast_S_S100000x128 (constant S_ .f32 0x00000000#32)) (broadcastInDim S800000x1 ![0] bcast_S800000_S800000x1_0 (shapeCast _ (extractStridedSlice S1x800000 ![0, 0] a3 slices_S2x800000_S1x800000_0_0) shapeCasts_S1x800000_S800000)) (Host.gather gather_S10000x128_S800000x1_S800000x128_1_0_n_n_0_1_1128 (mulf (broadcastInDim S10000x128 ![0, 1] bcast_S10000x1_S10000x128_0_1 (broadcastInDim S10000x1 ![0] bcast_S10000_S10000x1_0 (select (cmpf (F := F) .ogt (Host.scatterAdd scatter_S10000_S800000x1_S800000_n_0_0_1 (broadcastInDim S10000 ![] bcast_S_S10000 (constant S_ .f32 0x00000000#32)) (broadcastInDim S800000x1 ![0] bcast_S800000_S800000x1_0 (shapeCast _ (extractStridedSlice S1x800000 ![1, 0] a3 slices_S2x800000_S1x800000_1_0) shapeCasts_S1x800000_S800000)) (broadcastInDim S800000 ![] bcast_S_S800000 (constant S_ .f32 0x3F800000#32))) (broadcastInDim S10000 ![] bcast_S_S10000 (constant S_ .f32 0x00000000#32))) (Host.divf (broadcastInDim S10000 ![] bcast_S_S10000 (constant S_ .f32 0x3F800000#32)) (Host.scatterAdd scatter_S10000_S800000x1_S800000_n_0_0_1 (broadcastInDim S10000 ![] bcast_S_S10000 (constant S_ .f32 0x00000000#32)) (broadcastInDim S800000x1 ![0] bcast_S800000_S800000x1_0 (shapeCast _ (extractStridedSlice S1x800000 ![1, 0] a3 slices_S2x800000_S1x800000_1_0) shapeCasts_S1x800000_S800000)) (broadcastInDim S800000 ![] bcast_S_S800000 (constant S_ .f32 0x3F800000#32)))) (broadcastInDim S10000 ![] bcast_S_S10000 (id (constant S_ .f32 0x00000000#32)))))) (Host.scatterAdd scatter_S10000x128_S800000x1_S800000x128_1_0_0_1 (broadcastInDim S10000x128 ![] bcast_S_S10000x128 (constant S_ .f32 0x00000000#32)) (broadcastInDim S800000x1 ![0] bcast_S800000_S800000x1_0 (shapeCast _ (extractStridedSlice S1x800000 ![1, 0] a3 slices_S2x800000_S1x800000_1_0) shapeCasts_S1x800000_S800000)) (Host.gather gather_S100000x128_S800000x1_S800000x128_1_0_n_n_0_1_1128 (L3 (Host.scatterAdd scatter_S100000x128_S800000x1_S800000x128_1_0_0_1 (broadcastInDim S100000x128 ![] bcast_S_S100000x128 (constant S_ .f32 0x00000000#32)) (broadcastInDim S800000x1 ![0] bcast_S800000_S800000x1_0 (shapeCast _ (extractStridedSlice S1x800000 ![0, 0] a3 slices_S2x800000_S1x800000_0_0) shapeCasts_S1x800000_S800000)) (Host.gather gather_S10000x128_S800000x1_S800000x128_1_0_n_n_0_1_1128 (mulf (broadcastInDim S10000x128 ![0, 1] bcast_S10000x1_S10000x128_0_1 (broadcastInDim S10000x1 ![0] bcast_S10000_S10000x1_0 (select (cmpf (F := F) .ogt (Host.scatterAdd scatter_S10000_S800000x1_S800000_n_0_0_1 (broadcastInDim S10000 ![] bcast_S_S10000 (constant S_ .f32 0x00000000#32)) (broadcastInDim S800000x1 ![0] bcast_S800000_S800000x1_0 (shapeCast _ (extractStridedSlice S1x800000 ![1, 0] a3 slices_S2x800000_S1x800000_1_0) shapeCasts_S1x800000_S800000)) (broadcastInDim S800000 ![] bcast_S_S800000 (constant S_ .f32 0x3F800000#32))) (broadcastInDim S10000 ![] bcast_S_S10000 (constant S_ .f32 0x00000000#32))) (Host.divf (broadcastInDim S10000 ![] bcast_S_S10000 (constant S_ .f32 0x3F800000#32)) (Host.scatterAdd scatter_S10000_S800000x1_S800000_n_0_0_1 (broadcastInDim S10000 ![] bcast_S_S10000 (constant S_ .f32 0x00000000#32)) (broadcastInDim S800000x1 ![0] bcast_S800000_S800000x1_0 (shapeCast _ (extractStridedSlice S1x800000 ![1, 0] a3 slices_S2x800000_S1x800000_1_0) shapeCasts_S1x800000_S800000)) (broadcastInDim S800000 ![] bcast_S_S800000 (constant S_ .f32 0x3F800000#32)))) (broadcastInDim S10000 ![] bcast_S_S10000 (id (constant S_ .f32 0x00000000#32)))))) (Host.scatterAdd scatter_S10000x128_S800000x1_S800000x128_1_0_0_1 (broadcastInDim S10000x128 ![] bcast_S_S10000x128 (constant S_ .f32 0x00000000#32)) (broadcastInDim S800000x1 ![0] bcast_S800000_S800000x1_0 (shapeCast _ (extractStridedSlice S1x800000 ![1, 0] a3 slices_S2x800000_S1x800000_1_0) shapeCasts_S1x800000_S800000)) (Host.gather gather_S100000x128_S800000x1_S800000x128_1_0_n_n_0_1_1128 (L2 a0 (shapeCast S100000x1 (Host.scatterAdd scatter_S100000_S800000x1_S800000_n_0_0_1 (broadcastInDim S100000 ![] bcast_S_S100000 (constant S_ .f32 0x00000000#32)) (broadcastInDim S800000x1 ![0] bcast_S800000_S800000x1_0 (shapeCast _ (extractStridedSlice S1x800000 ![0, 0] a3 slices_S2x800000_S1x800000_0_0) shapeCasts_S1x800000_S800000)) (Host.gather gather_S10000_S800000x1_S800000_n_0_n_n_0_1_1 a4 (broadcastInDim S800000x1 ![0] bcast_S800000_S800000x1_0 (select (cmpi .slt (shapeCast _ (extractStridedSlice S1x800000 ![1, 0] a3 slices_S2x800000_S1x800000_1_0) shapeCasts_S1x800000_S800000) (broadcastInDim S800000 ![] bcast_S_S800000 (constantI S_ 32 0#32))) (addi (shapeCast _ (extractStridedSlice S1x800000 ![1, 0] a3 slices_S2x800000_S1x800000_1_0) shapeCasts_S1x800000_S800000) (broadcastInDim S800000 ![] bcast_S_S800000 (constantI S_ 32 10000#32))) (shapeCast _ (extractStridedSlice S1x800000 ![1, 0] a3 slices_S2x800000_S1x800000_1_0) shapeCasts_S1x800000_S800000))))) Cert.KernelIdeal.Gen.shapeCasts_S100000_S100000x1) a9) (broadcastInDim S800000x1 ![0] bcast_S800000_S800000x1_0 (select (cmpi .slt (shapeCast _ (extractStridedSlice S1x800000 ![0, 0] a3 slices_S2x800000_S1x800000_0_0) shapeCasts_S1x800000_S800000) (broadcastInDim S800000 ![] bcast_S_S800000 (constantI S_ 32 0#32))) (addi (shapeCast _ (extractStridedSlice S1x800000 ![0, 0] a3 slices_S2x800000_S1x800000_0_0) shapeCasts_S1x800000_S800000) (broadcastInDim S800000 ![] bcast_S_S800000 (constantI S_ 32 100000#32))) (shapeCast _ (extractStridedSlice S1x800000 ![0, 0] a3 slices_S2x800000_S1x800000_0_0) shapeCasts_S1x800000_S800000)))))) (broadcastInDim S800000x1 ![0] bcast_S800000_S800000x1_0 (select (cmpi .slt (shapeCast _ (extractStridedSlice S1x800000 ![1, 0] a3 slices_S2x800000_S1x800000_1_0) shapeCasts_S1x800000_S800000) (broadcastInDim S800000 ![] bcast_S_S800000 (constantI S_ 32 0#32))) (addi (shapeCast _ (extractStridedSlice S1x800000 ![1, 0] a3 slices_S2x800000_S1x800000_1_0) shapeCasts_S1x800000_S800000) (broadcastInDim S800000 ![] bcast_S_S800000 (constantI S_ 32 10000#32))) (shapeCast _ (extractStridedSlice S1x800000 ![1, 0] a3 slices_S2x800000_S1x800000_1_0) shapeCasts_S1x800000_S800000))))) (shapeCast S100000x1 (select (cmpf (F := F) .ogt (Host.scatterAdd scatter_S100000_S800000x1_S800000_n_0_0_1 (broadcastInDim S100000 ![] bcast_S_S100000 (constant S_ .f32 0x00000000#32)) (broadcastInDim S800000x1 ![0] bcast_S800000_S800000x1_0 (shapeCast _ (extractStridedSlice S1x800000 ![0, 0] a3 slices_S2x800000_S1x800000_0_0) shapeCasts_S1x800000_S800000)) (broadcastInDim S800000 ![] bcast_S_S800000 (constant S_ .f32 0x3F800000#32))) (broadcastInDim S100000 ![] bcast_S_S100000 (constant S_ .f32 0x00000000#32))) (Host.divf (broadcastInDim S100000 ![] bcast_S_S100000 (constant S_ .f32 0x3F800000#32)) (Host.scatterAdd scatter_S100000_S800000x1_S800000_n_0_0_1 (broadcastInDim S100000 ![] bcast_S_S100000 (constant S_ .f32 0x00000000#32)) (broadcastInDim S800000x1 ![0] bcast_S800000_S800000x1_0 (shapeCast _ (extractStridedSlice S1x800000 ![0, 0] a3 slices_S2x800000_S1x800000_0_0) shapeCasts_S1x800000_S800000)) (broadcastInDim S800000 ![] bcast_S_S800000 (constant S_ .f32 0x3F800000#32)))) (broadcastInDim S100000 ![] bcast_S_S100000 (id (constant S_ .f32 0x00000000#32)))) Cert.KernelIdeal.Gen.shapeCasts_S100000_S100000x1) (shapeCast S1x128 a10 Cert.KernelIdeal.Gen.shapeCasts_S128_S1x128) a11) (broadcastInDim S800000x1 ![0] bcast_S800000_S800000x1_0 (select (cmpi .slt (shapeCast _ (extractStridedSlice S1x800000 ![0, 0] a3 slices_S2x800000_S1x800000_0_0) shapeCasts_S1x800000_S800000) (broadcastInDim S800000 ![] bcast_S_S800000 (constantI S_ 32 0#32))) (addi (shapeCast _ (extractStridedSlice S1x800000 ![0, 0] a3 slices_S2x800000_S1x800000_0_0) shapeCasts_S1x800000_S800000) (broadcastInDim S800000 ![] bcast_S_S800000 (constantI S_ 32 100000#32))) (shapeCast _ (extractStridedSlice S1x800000 ![0, 0] a3 slices_S2x800000_S1x800000_0_0) shapeCasts_S1x800000_S800000)))))) (broadcastInDim S800000x1 ![0] bcast_S800000_S800000x1_0 (select (cmpi .slt (shapeCast _ (extractStridedSlice S1x800000 ![1, 0] a3 slices_S2x800000_S1x800000_1_0) shapeCasts_S1x800000_S800000) (broadcastInDim S800000 ![] bcast_S_S800000 (constantI S_ 32 0#32))) (addi (shapeCast _ (extractStridedSlice S1x800000 ![1, 0] a3 slices_S2x800000_S1x800000_1_0) shapeCasts_S1x800000_S800000) (broadcastInDim S800000 ![] bcast_S_S800000 (constantI S_ 32 10000#32))) (shapeCast _ (extractStridedSlice S1x800000 ![1, 0] a3 slices_S2x800000_S1x800000_1_0) shapeCasts_S1x800000_S800000))))) (shapeCast S100000x1 (select (cmpf (F := F) .ogt (Host.scatterAdd scatter_S100000_S800000x1_S800000_n_0_0_1 (broadcastInDim S100000 ![] bcast_S_S100000 (constant S_ .f32 0x00000000#32)) (broadcastInDim S800000x1 ![0] bcast_S800000_S800000x1_0 (shapeCast _ (extractStridedSlice S1x800000 ![0, 0] a3 slices_S2x800000_S1x800000_0_0) shapeCasts_S1x800000_S800000)) (broadcastInDim S800000 ![] bcast_S_S800000 (constant S_ .f32 0x3F800000#32))) (broadcastInDim S100000 ![] bcast_S_S100000 (constant S_ .f32 0x00000000#32))) (Host.divf (broadcastInDim S100000 ![] bcast_S_S100000 (constant S_ .f32 0x3F800000#32)) (Host.scatterAdd scatter_S100000_S800000x1_S800000_n_0_0_1 (broadcastInDim S100000 ![] bcast_S_S100000 (constant S_ .f32 0x00000000#32)) (broadcastInDim S800000x1 ![0] bcast_S800000_S800000x1_0 (shapeCast _ (extractStridedSlice S1x800000 ![0, 0] a3 slices_S2x800000_S1x800000_0_0) shapeCasts_S1x800000_S800000)) (broadcastInDim S800000 ![] bcast_S_S800000 (constant S_ .f32 0x3F800000#32)))) (broadcastInDim S100000 ![] bcast_S_S100000 (id (constant S_ .f32 0x00000000#32)))) Cert.KernelIdeal.Gen.shapeCasts_S100000_S100000x1) (shapeCast S1x128 a12 Cert.KernelIdeal.Gen.shapeCasts_S128_S1x128) (extractStridedSlice S128x128 ![0, 0] a13 Cert.KernelIdeal.Gen.slices_S256x128_S128x128_0_0) (extractStridedSlice S128x128 ![128, 0] a13 Cert.KernelIdeal.Gen.slices_S256x128_S128x128_128_0) (shapeCast S1x128 a14 Cert.KernelIdeal.Gen.shapeCasts_S128_S1x128) a15 (shapeCast S1x2 a16 Cert.KernelIdeal.Gen.shapeCasts_S2_S1x2)

end Cert.ReferenceIdeal

end
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibPlainDot
import proofs.«178827_j8151847928475_2_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.LibReluMlp.lean ====
/-
  Dense layers `rows · weights + bias row` followed by the rectifier `max(·, 0)`, and the logistic function `1 / (1 + e⁻ˣ)`
  after a last layer, each in two spellings that denote one function of the extended reals:

  * a kernel body's — a block of rows, rows and weights rounded to bf16 (the identity here), the matrix unit's product into a
    zero accumulator, the bias a `[1, M]` row repeated down the rows, the zero a scalar splat to the shape, the logistic
    function one operation;
  * the host's — `dot_general`, the bias `[M]` lifted to `[1, M]` and then to `[A, M]`, the zero and the one rank-0 arrays
    broadcast to the shape, the logistic function spelled `1 / (1 + exp(−x))`.

  Entry `(p, q)` of every layer reads row `p` of its input only, so a block of rows of the result is the result of that
  block of rows. Two stacks are named: two rectified layers (`phi2`), and two rectified layers, a third layer and the
  logistic function (`rho3`).
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibPlainDot
import proofs.«178827_j8151847928475_2_alg».proof.Proof.LibAffine
import proofs.«178827_j8151847928475_2_alg».proof.Proof.LibSoftplusLayers

noncomputable section

namespace Idealize.ShloMosaic.ReluMlp

open Idealize.ShloMosaic.ValueIdx Idealize.ShloMosaic.Affine Idealize.ShloMosaic.SoftplusLayers

/-! ## The rectifier and the logistic function on an array, in the two spellings -/

variable {s : Shape}

/-- `max(x, 0)`, the zero kept as the f32 word both spellings carry. -/
def relu (x : EReal) : EReal := max x zeroW

/-- The rectifier applied to every entry. -/
def reluV (x : FVec Ideal s .f32) : FVec Ideal s .f32 := fun i => relu (x i)

/-- A kernel body's spelling: the scalar zero splat to the shape. -/
def reluK (x : FVec Ideal s .f32) : FVec Ideal s .f32 :=
  maximumf x (broadcast s (Scalar.ofBits (F := Ideal) .f32 0x00000000#32))

theorem reluK_eq (x : FVec Ideal s .f32) : reluK x = reluV x := rfl

/-- The host's spelling: the rank-0 zero broadcast to the shape. -/
def reluH (h0 : (⟨0, ![]⟩ : Shape).BroadcastsInDim s ![]) (x : FVec Ideal s .f32) : FVec Ideal s .f32 :=
  maximumf x (broadcastInDim s ![] h0 (constant (F := Ideal) ⟨0, ![]⟩ .f32 0x00000000#32))

theorem reluH_eq (h0 : (⟨0, ![]⟩ : Shape).BroadcastsInDim s ![]) (x : FVec Ideal s .f32) : reluH h0 x = reluV x := rfl

/-- The f32 word of `1.0` is the real one. -/
theorem one_word : Ideal.ofBits .f32 0x3F800000#32 = 1 := by
  simp [Ideal.ofBits, Ideal.ieee, -EReal.coe_mul]; norm_num

/-- The logistic function applied to every entry. -/
def sigV (x : FVec Ideal s .f32) : FVec Ideal s .f32 := fun i => Ideal.logistic (x i)

/-- A kernel body's spelling is the one operation. -/
theorem sigK_eq (x : FVec Ideal s .f32) : logistic x = sigV x := rfl

/-- The host's spelling: `1 / (1 + exp(−x))` with the ones rank-0 arrays broadcast to the shape. -/
def sigH (h0 : (⟨0, ![]⟩ : Shape).BroadcastsInDim s ![]) (x : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf x)))

theorem sigH_eq (h0 : (⟨0, ![]⟩ : Shape).BroadcastsInDim s ![]) (x : FVec Ideal s .f32) : sigH h0 x = sigV x := by
  funext i
  show Ideal.div (Ideal.ofBits .f32 0x3F800000#32) (Ideal.ofBits .f32 0x3F800000#32 + Ideal.exp (-(x i))) = Ideal.logistic (x i)
  rw [one_word]
  rfl

/-! ## Rectified layers -/

variable {A A' K H H' M : Nat}

/-- `max(X·W + b, 0)`. -/
def layer {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  reluV (affine X W b)

/-- Entry `(p, q)` of a rectified layer reads row `p` of its input only. -/
theorem layer_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    layer Xb W b (ix2 p q) = layer X W b (ix2 r q) :=
  congrArg relu (affine_rows Xb X W b p r h q)

/-- Two rectified layers: `max(max(X·W1 + b1, 0)·W2 + b2, 0)`. -/
def phi2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  layer (layer X W1 b1) W2 b2

theorem phi2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    phi2 Xb W1 b1 W2 b2 (ix2 p q) = phi2 X W1 b1 W2 b2 (ix2 r q) :=
  layer_rows _ _ W2 b2 p r (fun k => layer_rows Xb X W1 b1 p r h k) q

/-- Two rectified layers, a third layer and the logistic function. -/
def rho3 {φ1 φ2 φ3 : FTy} (X : FVec Ideal ⟨2, ![A, K]⟩ .f32) (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) : FVec Ideal ⟨2, ![A, M]⟩ .f32 :=
  sigV (affine (phi2 X W1 b1 W2 b2) W3 b3)

theorem rho3_rows {φ1 φ2 φ3 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) (p : Fin A) (r : Fin A')
    (h : ∀ k : Fin K, Xb (ix2 p k) = X (ix2 r k)) (q : Fin M) :
    rho3 Xb W1 b1 W2 b2 W3 b3 (ix2 p q) = rho3 X W1 b1 W2 b2 W3 b3 (ix2 r q) :=
  congrArg Ideal.logistic
    (affine_rows _ _ W3 b3 p r (fun k => phi2_rows Xb X W1 b1 W2 b2 p r h k) q)

/-! ## The stacks as a kernel body spells them on a block of rows -/

def phi2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  reluK (denseK d2 ht hc2 hb2 (reluK (denseK d1 ht hc1 hb1 x0 x1 x2)) x3 x4)

theorem phi2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    phi2K d1 d2 ht hc1 hb1 hc2 hb2 x0 x1 x2 x3 x4 = phi2 x0 (truncf .bf16 x1 ht) x2 (truncf .bf16 x3 ht) x4 := by
  unfold phi2K phi2 layer
  rw [denseK_eq hd1, reluK_eq, denseK_eq hd2, reluK_eq]

/-- The second stack on a block of rows, the block first recast to its own shape. -/
def rho3K (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩) (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) : FVec Ideal ⟨2, ![A, M]⟩ .f32 :=
  logistic (denseK d3 ht hc3 hb3 (reluK (denseK d2 ht hc2 hb2
    (reluK (denseK d1 ht hc1 hb1 (shapeCast ⟨2, ![A, K]⟩ x0 hc0) x1 x2)) x3 x4)) x5 x6)

theorem rho3K_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) :
    rho3K d1 d2 d3 ht hc0 hc1 hb1 hc2 hb2 hc3 hb3 x0 x1 x2 x3 x4 x5 x6
      = rho3 x0 (truncf .bf16 x1 ht) x2 (truncf .bf16 x3 ht) x4 (truncf .bf16 x5 ht) x6 := by
  unfold rho3K rho3 phi2 layer
  rw [shapeCast_self, denseK_eq hd1, reluK_eq, denseK_eq hd2, reluK_eq, denseK_eq hd3, sigK_eq]

/-! ## The stacks as the host spells them on all the rows -/

def phi2H (d1 : DotDims ⟨2, ![A, K]⟩ ⟨2, ![K, H]⟩ ⟨2, ![A, H]⟩) (d2 : DotDims ⟨2, ![A, H]⟩ ⟨2, ![H, M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) : FVec Ideal ⟨2, ![A, M]⟩ .f32 :=
  reluH z2 (denseH d2 g3 g4 (reluH z1 (denseH d1 g1 g2 X W1 b1)) W2 b2)

theorem phi2H_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) :
    phi2H d1 d2 g1 g2 z1 g3 g4 z2 X W1 b1 W2 b2
      = phi2 X (truncf .bf16 W1 ht) (shapeCast ⟨2, ![1, H]⟩ b1 hc1) (truncf .bf16 W2 ht) (shapeCast ⟨2, ![1, M]⟩ b2 hc2) := by
  unfold phi2H phi2 layer
  rw [denseH_eq hd1 g1 g2 ht hc1, reluH_eq, denseH_eq hd2 g3 g4 ht hc2, reluH_eq]

def rho3H (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) : FVec Ideal ⟨2, ![A, M]⟩ .f32 :=
  sigH z3 (denseH d3 g5 g6 (reluH z2 (denseH d2 g3 g4 (reluH z1 (denseH d1 g1 g2 X W1 b1)) W2 b2)) W3 b3)

theorem rho3H_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![H']⟩ : Shape).ShapeCasts ⟨2, ![1, H']⟩)
    (hc3 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) :
    rho3H d1 d2 d3 g1 g2 z1 g3 g4 z2 g5 g6 z3 X W1 b1 W2 b2 W3 b3
      = rho3 X (truncf .bf16 W1 ht) (shapeCast ⟨2, ![1, H]⟩ b1 hc1) (truncf .bf16 W2 ht) (shapeCast ⟨2, ![1, H']⟩ b2 hc2)
          (truncf .bf16 W3 ht) (shapeCast ⟨2, ![1, M]⟩ b3 hc3) := by
  unfold rho3H rho3 phi2 layer
  rw [denseH_eq hd1 g1 g2 ht hc1, reluH_eq, denseH_eq hd2 g3 g4 ht hc2, reluH_eq, denseH_eq hd3 g5 g6 ht hc3, sigH_eq]

end Idealize.ShloMosaic.ReluMlp

end
-- ==== Proof.LibLayerForms.lean ====
/-
  Three forms of a row-wise layer, each as the function a row-tiled kernel leaves in its output array and as the host's own
  operations on whole arrays, equal over the extended reals for any extents, with no finiteness:

  * a hidden layer with the bias and the rectifier in FRONT of the product, Σ_k max(Z(r,k) + b(k), 0)·W(k,j): the kernel side is
    "rows times weights" of "bias row added and rectified" with the bias vector recast to a one-row matrix; the host side is
    dot_general of max(Z + lifted b, lifted 0) with W;
  * the rectified, biased rows alone (no product) are the library's own statement and are not repeated here;
  * a two-layer head dense → rectifier → dense, Σ_h max(Σ_k P(r,k)·W1(k,h) + b1(h), 0)·W2(h,j) + b2(j): the kernel side with weights
    rounded to bf16 (the identity here) and biases recast to rows, the host side as dot_general + twice-lifted bias, max with a
    lifted zero, dot_general + twice-lifted bias.
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibRowProduct
import proofs.«178827_j8151847928475_2_alg».proof.Proof.LibBiasRelu
import proofs.«178827_j8151847928475_2_alg».proof.Proof.LibSoftplusLayers
import proofs.«178827_j8151847928475_2_alg».proof.Proof.LibReluMlp

namespace Idealize.ShloMosaic.LayerForms

open Idealize.ShloMosaic.ValueIdx

variable {A K H M : Nat}

/-- Bias and rectifier in front of the product: the kernel's whole-array function is the host's
    dot_general of max(Z + lifted b, lifted 0) with W. -/
theorem biasRelu_prod_eq_host (Z : FVec Ideal ⟨2, ![A, K]⟩ .f32) (b : FVec Ideal ⟨1, ![K]⟩ .f32) (W : FVec Ideal ⟨2, ![K, M]⟩ .f32)
    (hc : (⟨1, ![K]⟩ : Shape).ShapeCasts ⟨2, ![1, K]⟩)
    (h1 : (⟨1, ![K]⟩ : Shape).BroadcastsInDim ⟨2, ![1, K]⟩ ![1])
    (h2 : (⟨2, ![1, K]⟩ : Shape).BroadcastsInDim ⟨2, ![A, K]⟩ ![0, 1])
    (hz : (⟨0, ![]⟩ : Shape).BroadcastsInDim ⟨2, ![A, K]⟩ ![]) :
    RowProduct.prod (BiasRelu.biasRelu Z (shapeCast ⟨2, ![1, K]⟩ b hc)) W
      = Host.dotGeneral (DotDims.plain A K M) none
          (maximumf (addf Z (broadcastInDim ⟨2, ![A, K]⟩ ![0, 1] h2 (broadcastInDim ⟨2, ![1, K]⟩ ![1] h1 b)))
            (broadcastInDim ⟨2, ![A, K]⟩ ![] hz (constant (F := Ideal) ⟨0, ![]⟩ .f32 0x00000000#32))) W := by
  rw [BiasRelu.biasRelu_eq_host Z b hc h1 h2 hz]
  exact (RowProduct.host_eq none .single _ W).symm

/-- Dense, rectifier, dense: the kernel's whole-array function is the host's two dense layers with the rectifier between. -/
theorem head_eq_host (P : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1]) :
    Affine.affine (ReluMlp.reluV (Affine.affine P (truncf .bf16 W1 ht) (shapeCast ⟨2, ![1, H]⟩ b1 hc1))) (truncf .bf16 W2 ht)
        (shapeCast ⟨2, ![1, M]⟩ b2 hc2)
      = SoftplusLayers.denseH (DotDims.plain A H M) g3 g4
          (ReluMlp.reluH z1 (SoftplusLayers.denseH (DotDims.plain A K H) g1 g2 P W1 b1)) W2 b2 := by
  rw [SoftplusLayers.denseH_eq rfl g1 g2 ht hc1, ReluMlp.reluH_eq, SoftplusLayers.denseH_eq rfl g3 g4 ht hc2]

end Idealize.ShloMosaic.LayerForms
-- ==== Proof.LibConcatDot.lean ====
/-
  Rows given in two parts `X1`, `X2` of `K` columns each, laid side by side into `[A, K + K]` and multiplied in ONE
  plain matrix product by a `[K + K, H]` matrix `Wfc`, over the extended reals: entry `(r, h)` is
  `Σ_{k < K+K} cat(r,k)·Wfc(k,h)`, and splitting the sum at `K` gives
  `Σ_{k < K} X1(r,k)·Wfc(k,h) + Σ_{k < K} X2(r,k)·Wfc(K+k,h)`: the sum of the two partial products of each part with the
  matching range of rows of `Wfc` (its rows `0 … K-1` and `K … 2K-1`). A column `k < K` of the concatenation reads the
  first part, a column `K + k` the second; a range of rows of `Wfc` is the slice at row offset `0` or `K`. No finiteness is
  used: both sides are the same sum of the same products, only grouped differently.
-/
import Idealize.ShloMosaic.PureOps.Ideal.Laws
import Idealize.ShloMosaic.Lib.ValueIdx
import Idealize.ShloMosaic.Lib.Pipeline.Value
import proofs.«178827_j8151847928475_2_alg».proof.Proof.LibPlainDot
import proofs.«178827_j8151847928475_2_alg».proof.Proof.LibRowProduct

namespace Idealize.ShloMosaic.ConcatDot

open Idealize.ShloMosaic.ValueIdx

variable {A K H : Nat}

/-- Two parts side by side, read at a column `k < K`: the first part's entry `(r, k)`. -/
theorem concat_left_apply (X1 X2 : FVec Ideal ⟨2, ![A, K]⟩ .f32)
    (hcat : Shape.Concatenates [(⟨2, ![A, K]⟩ : Shape), ⟨2, ![A, K]⟩] ⟨2, ![A, K + K]⟩ 1) (r : Fin A) (k : Fin K) :
    concatenate ⟨2, ![A, K + K]⟩ 1 [⟨⟨2, ![A, K]⟩, X1⟩, ⟨⟨2, ![A, K]⟩, X2⟩] hcat (ix2 r (Fin.castAdd K k)) = X1 (ix2 r k) :=
  concatenate_pair_apply_left (1 : Fin 2) X1 X2 hcat (ix2 r (Fin.castAdd K k)) rfl (ix2 r k) fun b => by
    match b with
    | ⟨0, _⟩ => rfl
    | ⟨1, _⟩ => rfl

/-- Two parts side by side, read at a column `K + k`: the second part's entry `(r, k)`. -/
theorem concat_right_apply (X1 X2 : FVec Ideal ⟨2, ![A, K]⟩ .f32)
    (hcat : Shape.Concatenates [(⟨2, ![A, K]⟩ : Shape), ⟨2, ![A, K]⟩] ⟨2, ![A, K + K]⟩ 1) (r : Fin A) (k : Fin K) :
    concatenate ⟨2, ![A, K + K]⟩ 1 [⟨⟨2, ![A, K]⟩, X1⟩, ⟨⟨2, ![A, K]⟩, X2⟩] hcat (ix2 r (Fin.natAdd K k)) = X2 (ix2 r k) :=
  concatenate_pair_apply_right (1 : Fin 2) X1 X2 hcat (ix2 r (Fin.natAdd K k)) rfl rfl (ix2 r k)
    (fun b hb => by
      match b with
      | ⟨0, _⟩ => rfl
      | ⟨1, _⟩ => exact absurd rfl hb)
    (by show k.val + K = K + k.val; exact Nat.add_comm _ _)

/-- The rows `0 … K-1` of `Wfc`, read at `(k, h)`: entry `(k, h)` of `Wfc`. -/
theorem slice_top_apply (Wfc : FVec Ideal ⟨2, ![K + K, H]⟩ .f32)
    (ht : (⟨2, ![K + K, H]⟩ : Shape).Slices ![0, 0] ⟨2, ![K, H]⟩) (k : Fin K) (h : Fin H) :
    extractStridedSlice ⟨2, ![K, H]⟩ ![0, 0] Wfc ht (ix2 k h) = Wfc (ix2 (Fin.castAdd K k) h) :=
  extractStridedSlice_apply _ Wfc ht (ix2 k h) (ix2 (Fin.castAdd K k) h) fun a => by
    match a with
    | ⟨0, _⟩ => exact (Nat.zero_add _).symm
    | ⟨1, _⟩ => exact (Nat.zero_add _).symm

/-- The rows `K … 2K-1` of `Wfc`, read at `(k, h)`: entry `(K + k, h)` of `Wfc`. -/
theorem slice_bottom_apply (Wfc : FVec Ideal ⟨2, ![K + K, H]⟩ .f32)
    (hb : (⟨2, ![K + K, H]⟩ : Shape).Slices ![K, 0] ⟨2, ![K, H]⟩) (k : Fin K) (h : Fin H) :
    extractStridedSlice ⟨2, ![K, H]⟩ ![K, 0] Wfc hb (ix2 k h) = Wfc (ix2 (Fin.natAdd K k) h) :=
  extractStridedSlice_apply _ Wfc hb (ix2 k h) (ix2 (Fin.natAdd K k) h) fun a => by
    match a with
    | ⟨0, _⟩ => rfl
    | ⟨1, _⟩ => exact (Nat.zero_add _).symm

/-- The plain matrix product of the two parts laid side by side with `Wfc`, at `(r, h)`: the two partial sums. -/
theorem concat_dot_apply (X1 X2 : FVec Ideal ⟨2, ![A, K]⟩ .f32) (Wfc : FVec Ideal ⟨2, ![K + K, H]⟩ .f32)
    (hcat : Shape.Concatenates [(⟨2, ![A, K]⟩ : Shape), ⟨2, ![A, K]⟩] ⟨2, ![A, K + K]⟩ 1) (r : Fin A) (h : Fin H) :
    Host.dotGeneral (DotDims.plain A (K + K) H) none
        (concatenate ⟨2, ![A, K + K]⟩ 1 [⟨⟨2, ![A, K]⟩, X1⟩, ⟨⟨2, ![A, K]⟩, X2⟩] hcat) Wfc (ix2 r h)
      = (∑ k : Fin K, X1 (ix2 r k) * Wfc (ix2 (Fin.castAdd K k) h))
        + ∑ k : Fin K, X2 (ix2 r k) * Wfc (ix2 (Fin.natAdd K k) h) := by
  refine (PlainDot.dotGeneral_apply_ix2 none .single _ Wfc r h).trans ?_
  rw [Fin.sum_univ_add]
  refine congrArg₂ (· + ·) (Finset.sum_congr rfl fun k _ => ?_) (Finset.sum_congr rfl fun k _ => ?_)
  · exact congrArg (· * Wfc (ix2 (Fin.castAdd K k) h)) (concat_left_apply X1 X2 hcat r k)
  · exact congrArg (· * Wfc (ix2 (Fin.natAdd K k) h)) (concat_right_apply X1 X2 hcat r k)

/-- The two parts laid side by side and multiplied by `Wfc` in one plain matrix product equal the sum of the first part
    times the rows `0 … K-1` of `Wfc` and the second part times its rows `K … 2K-1`, as whole arrays. -/
theorem concat_dot_eq (X1 X2 : FVec Ideal ⟨2, ![A, K]⟩ .f32) (Wfc : FVec Ideal ⟨2, ![K + K, H]⟩ .f32)
    (hcat : Shape.Concatenates [(⟨2, ![A, K]⟩ : Shape), ⟨2, ![A, K]⟩] ⟨2, ![A, K + K]⟩ 1)
    (ht : (⟨2, ![K + K, H]⟩ : Shape).Slices ![0, 0] ⟨2, ![K, H]⟩)
    (hb : (⟨2, ![K + K, H]⟩ : Shape).Slices ![K, 0] ⟨2, ![K, H]⟩) :
    Host.dotGeneral (DotDims.plain A (K + K) H) none
        (concatenate ⟨2, ![A, K + K]⟩ 1 [⟨⟨2, ![A, K]⟩, X1⟩, ⟨⟨2, ![A, K]⟩, X2⟩] hcat) Wfc
      = addf (RowProduct.prod X1 (extractStridedSlice ⟨2, ![K, H]⟩ ![0, 0] Wfc ht))
          (RowProduct.prod X2 (extractStridedSlice ⟨2, ![K, H]⟩ ![K, 0] Wfc hb)) := by
  funext i
  obtain ⟨r, h, rfl⟩ : ∃ (r : Fin A) (h : Fin H), i = ix2 r h := ⟨i 0, i 1, eq_ix2 i⟩
  refine (concat_dot_apply X1 X2 Wfc hcat r h).trans ?_
  refine Eq.trans ?_ (addf_apply _ _ _).symm
  rw [RowProduct.prod_ix2, RowProduct.prod_ix2]
  refine congrArg₂ (· + ·) (Finset.sum_congr rfl fun k _ => ?_) (Finset.sum_congr rfl fun k _ => ?_)
  · exact congrArg (X1 (ix2 r k) * ·) (slice_top_apply Wfc ht k h).symm
  · exact congrArg (X2 (ix2 r k) * ·) (slice_bottom_apply Wfc hb k h).symm

/-- The same at `K = 128` with the extents written as literals (`256` columns and rows, row offset `128`). -/
theorem concat_dot_eq_128 (X1 X2 : FVec Ideal ⟨2, ![A, 128]⟩ .f32) (Wfc : FVec Ideal ⟨2, ![256, H]⟩ .f32)
    (hcat : Shape.Concatenates [(⟨2, ![A, 128]⟩ : Shape), ⟨2, ![A, 128]⟩] ⟨2, ![A, 256]⟩ 1)
    (ht : (⟨2, ![256, H]⟩ : Shape).Slices ![0, 0] ⟨2, ![128, H]⟩)
    (hb : (⟨2, ![256, H]⟩ : Shape).Slices ![128, 0] ⟨2, ![128, H]⟩) :
    Host.dotGeneral (DotDims.plain A 256 H) none
        (concatenate ⟨2, ![A, 256]⟩ 1 [⟨⟨2, ![A, 128]⟩, X1⟩, ⟨⟨2, ![A, 128]⟩, X2⟩] hcat) Wfc
      = addf (RowProduct.prod X1 (extractStridedSlice ⟨2, ![128, H]⟩ ![0, 0] Wfc ht))
          (RowProduct.prod X2 (extractStridedSlice ⟨2, ![128, H]⟩ ![128, 0] Wfc hb)) :=
  concat_dot_eq (A := A) (K := 128) (H := H) X1 X2 Wfc hcat ht hb

end Idealize.ShloMosaic.ConcatDot
-- ==== Proof.TailHost.lean ====
/-
  The closing stage of the network as the host computes it on whole arrays, equal over the extended reals to the one
  whole-array function
    out(r,j) = Σ_h max( Σ_k max(Zg(r,k)+bg(k),0)·Wt(k,h) + Σ_k max(Zh(r,k)·d(r)+bh(k),0)·Wb(k,h) + bfc(h), 0 )·Wo(h,j) + bo(j).
  The host rectifies the two branches with lifted biases (the second after multiplying by the lifted per-row factor), lays the
  two rectified matrices side by side, contracts the doubled rows with ONE weight matrix of 2K rows, adds a lifted bias,
  rectifies, contracts with the output weights and adds the lifted output bias. A row of the side-by-side matrix against the
  2K rows of the weight matrix is the sum over the left K columns against the upper K rows plus the sum over the right K
  columns against the lower K rows; the rest is, stage by stage, the equality of a lifted bias with a one-row matrix read
  at its column, and of the host's contraction with the sum over the contracted coordinate. No finiteness is used.
-/
import Idealize.ShloMosaic.PureOps.Ideal.Laws
import Idealize.ShloMosaic.Lib.ValueIdx
import Idealize.ShloMosaic.Lib.ValueLayout
import Idealize.ShloMosaic.Lib.Pipeline.Value
import proofs.«178827_j8151847928475_2_alg».proof.Proof.LibRowProduct
import proofs.«178827_j8151847928475_2_alg».proof.Proof.LibBiasRelu
import proofs.«178827_j8151847928475_2_alg».proof.Proof.Region3
import proofs.«178827_j8151847928475_2_alg».proof.Proof.TailDef
import proofs.«178827_j8151847928475_2_alg».proof.Proof.LibConcatDot

namespace Idealize.ShloMosaic.Tail

open Idealize.ShloMosaic.ValueIdx

variable {A K H M : Nat}

/-- The hidden layer in the host's spelling, GIVEN that the contraction of the side-by-side matrix with the whole weight
    matrix splits into the two contractions with its halves (hsplit). -/
theorem hidden_eq_host_of_split (Zg Zh : FVec Ideal ⟨2, ![A, K]⟩ .f32) (bg bh : FVec Ideal ⟨1, ![K]⟩ .f32)
    (d : FVec Ideal ⟨1, ![A]⟩ .f32) (bfc : FVec Ideal ⟨1, ![H]⟩ .f32) (Wfc : FVec Ideal ⟨2, ![K + K, H]⟩ .f32)
    (hcg : (⟨1, ![K]⟩ : Shape).ShapeCasts ⟨2, ![1, K]⟩) (hcd : (⟨1, ![A]⟩ : Shape).ShapeCasts ⟨2, ![A, 1]⟩)
    (hch : (⟨1, ![K]⟩ : Shape).ShapeCasts ⟨2, ![1, K]⟩) (hcf : (⟨1, ![H]⟩ : Shape).ShapeCasts ⟨2, ![1, H]⟩)
    (hst : (⟨2, ![K + K, H]⟩ : Shape).Slices ![0, 0] ⟨2, ![K, H]⟩) (hsb : (⟨2, ![K + K, H]⟩ : Shape).Slices ![K, 0] ⟨2, ![K, H]⟩)
    (a1 : (⟨1, ![K]⟩ : Shape).BroadcastsInDim ⟨2, ![1, K]⟩ ![1]) (a2 : (⟨2, ![1, K]⟩ : Shape).BroadcastsInDim ⟨2, ![A, K]⟩ ![0, 1])
    (az : (⟨0, ![]⟩ : Shape).BroadcastsInDim ⟨2, ![A, K]⟩ ![])
    (h1 : (⟨1, ![A]⟩ : Shape).BroadcastsInDim ⟨2, ![A, 1]⟩ ![0]) (h2 : (⟨2, ![A, 1]⟩ : Shape).BroadcastsInDim ⟨2, ![A, K]⟩ ![0, 1])
    (g1 : (⟨1, ![K]⟩ : Shape).BroadcastsInDim ⟨2, ![1, K]⟩ ![1]) (g2 : (⟨2, ![1, K]⟩ : Shape).BroadcastsInDim ⟨2, ![A, K]⟩ ![0, 1])
    (hz : (⟨0, ![]⟩ : Shape).BroadcastsInDim ⟨2, ![A, K]⟩ ![])
    (f1 : (⟨1, ![H]⟩ : Shape).BroadcastsInDim ⟨2, ![1, H]⟩ ![1]) (f2 : (⟨2, ![1, H]⟩ : Shape).BroadcastsInDim ⟨2, ![A, H]⟩ ![0, 1])
    (fz : (⟨0, ![]⟩ : Shape).BroadcastsInDim ⟨2, ![A, H]⟩ ![])
    (hcat : Shape.Concatenates [⟨2, ![A, K]⟩, ⟨2, ![A, K]⟩] ⟨2, ![A, K + K]⟩ 1)
    (hsplit : ∀ X1 X2 : FVec Ideal ⟨2, ![A, K]⟩ .f32,
      Host.dotGeneral (DotDims.plain A (K + K) H) none
          (concatenate ⟨2, ![A, K + K]⟩ 1 [⟨⟨2, ![A, K]⟩, X1⟩, ⟨⟨2, ![A, K]⟩, X2⟩] hcat) Wfc
        = addf (RowProduct.prod X1 (extractStridedSlice ⟨2, ![K, H]⟩ ![0, 0] Wfc hst))
            (RowProduct.prod X2 (extractStridedSlice ⟨2, ![K, H]⟩ ![K, 0] Wfc hsb))) :
    hidden Zg (shapeCast ⟨2, ![1, K]⟩ bg hcg) Zh (shapeCast ⟨2, ![A, 1]⟩ d hcd) (shapeCast ⟨2, ![1, K]⟩ bh hch)
        (extractStridedSlice ⟨2, ![K, H]⟩ ![0, 0] Wfc hst) (extractStridedSlice ⟨2, ![K, H]⟩ ![K, 0] Wfc hsb)
        (shapeCast ⟨2, ![1, H]⟩ bfc hcf)
      = maximumf (addf (Host.dotGeneral (DotDims.plain A (K + K) H) none
              (concatenate ⟨2, ![A, K + K]⟩ 1
                [⟨⟨2, ![A, K]⟩, maximumf (addf Zg (broadcastInDim ⟨2, ![A, K]⟩ ![0, 1] a2 (broadcastInDim ⟨2, ![1, K]⟩ ![1] a1 bg)))
                    (broadcastInDim ⟨2, ![A, K]⟩ ![] az (constant (F := Ideal) ⟨0, ![]⟩ .f32 0x00000000#32))⟩,
                 ⟨⟨2, ![A, K]⟩, maximumf (addf (mulf (broadcastInDim ⟨2, ![A, K]⟩ ![0, 1] h2 (broadcastInDim ⟨2, ![A, 1]⟩ ![0] h1 d)) Zh)
                      (broadcastInDim ⟨2, ![A, K]⟩ ![0, 1] g2 (broadcastInDim ⟨2, ![1, K]⟩ ![1] g1 bh)))
                    (broadcastInDim ⟨2, ![A, K]⟩ ![] hz (constant (F := Ideal) ⟨0, ![]⟩ .f32 0x00000000#32))⟩] hcat) Wfc)
            (broadcastInDim ⟨2, ![A, H]⟩ ![0, 1] f2 (broadcastInDim ⟨2, ![1, H]⟩ ![1] f1 bfc)))
          (broadcastInDim ⟨2, ![A, H]⟩ ![] fz (constant (F := Ideal) ⟨0, ![]⟩ .f32 0x00000000#32)) := by
  unfold hidden
  rw [BiasRelu.biasRelu_eq_host _ bfc hcf f1 f2 fz, BiasRelu.biasRelu_eq_host Zg bg hcg a1 a2 az,
    DinvBiasRelu.dinvBiasRelu_eq_host Zh d bh hcd hch h1 h2 g1 g2 hz]
  exact congrArg (fun X => maximumf (addf X (broadcastInDim ⟨2, ![A, H]⟩ ![0, 1] f2 (broadcastInDim ⟨2, ![1, H]⟩ ![1] f1 bfc)))
    (broadcastInDim ⟨2, ![A, H]⟩ ![] fz (constant (F := Ideal) ⟨0, ![]⟩ .f32 0x00000000#32))) (hsplit _ _).symm

/-- The output projection with its bias row is the host's contraction plus the twice-lifted bias, for ANY hidden matrix. -/
theorem proj_eq_host (Y : FVec Ideal ⟨2, ![A, H]⟩ .f32) (Wo : FVec Ideal ⟨2, ![H, M]⟩ .f32) (bo : FVec Ideal ⟨1, ![M]⟩ .f32)
    (hco : (⟨1, ![M]⟩ : Shape).ShapeCasts ⟨2, ![1, M]⟩)
    (o1 : (⟨1, ![M]⟩ : Shape).BroadcastsInDim ⟨2, ![1, M]⟩ ![1]) (o2 : (⟨2, ![1, M]⟩ : Shape).BroadcastsInDim ⟨2, ![A, M]⟩ ![0, 1]) :
    (fun i : (⟨2, ![A, M]⟩ : Shape).Idx =>
        RowProduct.prod Y Wo i + shapeCast ⟨2, ![1, M]⟩ bo hco (ix2 (0 : Fin 1) ⟨(i 1).val, idx2_lt1 i⟩))
      = addf (Host.dotGeneral (DotDims.plain A H M) none Y Wo)
          (broadcastInDim ⟨2, ![A, M]⟩ ![0, 1] o2 (broadcastInDim ⟨2, ![1, M]⟩ ![1] o1 bo)) := by
  funext i
  obtain ⟨r, j, rfl⟩ : ∃ (r : Fin A) (j : Fin M), i = ix2 r j := ⟨i 0, i 1, eq_ix2 i⟩
  refine Eq.trans ?_ (addf_apply _ _ _).symm
  refine congrArg₂ (· + ·) ?_ ?_
  · exact (congrFun (RowProduct.host_eq none .single Y Wo) (ix2 r j)).symm
  · exact (shapeCast_a_1a_apply bo hco (0 : Fin 1) j).trans (Affine.bias_rows_apply bo o1 o2 r j).symm

/-- The whole closing stage in the host's spelling, GIVEN the split of the doubled contraction (hsplit). -/
theorem tail_eq_host_of_split (Zg Zh : FVec Ideal ⟨2, ![A, K]⟩ .f32) (bg bh : FVec Ideal ⟨1, ![K]⟩ .f32)
    (d : FVec Ideal ⟨1, ![A]⟩ .f32) (bfc : FVec Ideal ⟨1, ![H]⟩ .f32) (bo : FVec Ideal ⟨1, ![M]⟩ .f32)
    (Wfc : FVec Ideal ⟨2, ![K + K, H]⟩ .f32) (Wo : FVec Ideal ⟨2, ![H, M]⟩ .f32)
    (hcg : (⟨1, ![K]⟩ : Shape).ShapeCasts ⟨2, ![1, K]⟩) (hcd : (⟨1, ![A]⟩ : Shape).ShapeCasts ⟨2, ![A, 1]⟩)
    (hch : (⟨1, ![K]⟩ : Shape).ShapeCasts ⟨2, ![1, K]⟩) (hcf : (⟨1, ![H]⟩ : Shape).ShapeCasts ⟨2, ![1, H]⟩)
    (hco : (⟨1, ![M]⟩ : Shape).ShapeCasts ⟨2, ![1, M]⟩)
    (hst : (⟨2, ![K + K, H]⟩ : Shape).Slices ![0, 0] ⟨2, ![K, H]⟩) (hsb : (⟨2, ![K + K, H]⟩ : Shape).Slices ![K, 0] ⟨2, ![K, H]⟩)
    (a1 : (⟨1, ![K]⟩ : Shape).BroadcastsInDim ⟨2, ![1, K]⟩ ![1]) (a2 : (⟨2, ![1, K]⟩ : Shape).BroadcastsInDim ⟨2, ![A, K]⟩ ![0, 1])
    (az : (⟨0, ![]⟩ : Shape).BroadcastsInDim ⟨2, ![A, K]⟩ ![])
    (h1 : (⟨1, ![A]⟩ : Shape).BroadcastsInDim ⟨2, ![A, 1]⟩ ![0]) (h2 : (⟨2, ![A, 1]⟩ : Shape).BroadcastsInDim ⟨2, ![A, K]⟩ ![0, 1])
    (g1 : (⟨1, ![K]⟩ : Shape).BroadcastsInDim ⟨2, ![1, K]⟩ ![1]) (g2 : (⟨2, ![1, K]⟩ : Shape).BroadcastsInDim ⟨2, ![A, K]⟩ ![0, 1])
    (hz : (⟨0, ![]⟩ : Shape).BroadcastsInDim ⟨2, ![A, K]⟩ ![])
    (f1 : (⟨1, ![H]⟩ : Shape).BroadcastsInDim ⟨2, ![1, H]⟩ ![1]) (f2 : (⟨2, ![1, H]⟩ : Shape).BroadcastsInDim ⟨2, ![A, H]⟩ ![0, 1])
    (fz : (⟨0, ![]⟩ : Shape).BroadcastsInDim ⟨2, ![A, H]⟩ ![])
    (o1 : (⟨1, ![M]⟩ : Shape).BroadcastsInDim ⟨2, ![1, M]⟩ ![1]) (o2 : (⟨2, ![1, M]⟩ : Shape).BroadcastsInDim ⟨2, ![A, M]⟩ ![0, 1])
    (hcat : Shape.Concatenates [⟨2, ![A, K]⟩, ⟨2, ![A, K]⟩] ⟨2, ![A, K + K]⟩ 1)
    (hsplit : ∀ X1 X2 : FVec Ideal ⟨2, ![A, K]⟩ .f32,
      Host.dotGeneral (DotDims.plain A (K + K) H) none
          (concatenate ⟨2, ![A, K + K]⟩ 1 [⟨⟨2, ![A, K]⟩, X1⟩, ⟨⟨2, ![A, K]⟩, X2⟩] hcat) Wfc
        = addf (RowProduct.prod X1 (extractStridedSlice ⟨2, ![K, H]⟩ ![0, 0] Wfc hst))
            (RowProduct.prod X2 (extractStridedSlice ⟨2, ![K, H]⟩ ![K, 0] Wfc hsb))) :
    tail Zg (shapeCast ⟨2, ![1, K]⟩ bg hcg) Zh (shapeCast ⟨2, ![A, 1]⟩ d hcd) (shapeCast ⟨2, ![1, K]⟩ bh hch)
        (extractStridedSlice ⟨2, ![K, H]⟩ ![0, 0] Wfc hst) (extractStridedSlice ⟨2, ![K, H]⟩ ![K, 0] Wfc hsb)
        (shapeCast ⟨2, ![1, H]⟩ bfc hcf) Wo (shapeCast ⟨2, ![1, M]⟩ bo hco)
      = addf (Host.dotGeneral (DotDims.plain A H M) none
            (maximumf (addf (Host.dotGeneral (DotDims.plain A (K + K) H) none
                  (concatenate ⟨2, ![A, K + K]⟩ 1
                    [⟨⟨2, ![A, K]⟩, maximumf (addf Zg (broadcastInDim ⟨2, ![A, K]⟩ ![0, 1] a2 (broadcastInDim ⟨2, ![1, K]⟩ ![1] a1 bg)))
                        (broadcastInDim ⟨2, ![A, K]⟩ ![] az (constant (F := Ideal) ⟨0, ![]⟩ .f32 0x00000000#32))⟩,
                     ⟨⟨2, ![A, K]⟩, maximumf (addf (mulf (broadcastInDim ⟨2, ![A, K]⟩ ![0, 1] h2 (broadcastInDim ⟨2, ![A, 1]⟩ ![0] h1 d)) Zh)
                          (broadcastInDim ⟨2, ![A, K]⟩ ![0, 1] g2 (broadcastInDim ⟨2, ![1, K]⟩ ![1] g1 bh)))
                        (broadcastInDim ⟨2, ![A, K]⟩ ![] hz (constant (F := Ideal) ⟨0, ![]⟩ .f32 0x00000000#32))⟩] hcat) Wfc)
                (broadcastInDim ⟨2, ![A, H]⟩ ![0, 1] f2 (broadcastInDim ⟨2, ![1, H]⟩ ![1] f1 bfc)))
              (broadcastInDim ⟨2, ![A, H]⟩ ![] fz (constant (F := Ideal) ⟨0, ![]⟩ .f32 0x00000000#32)))
            Wo)
          (broadcastInDim ⟨2, ![A, M]⟩ ![0, 1] o2 (broadcastInDim ⟨2, ![1, M]⟩ ![1] o1 bo)) := by
  refine (proj_eq_host _ Wo bo hco o1 o2).trans ?_
  rw [hidden_eq_host_of_split Zg Zh bg bh d bfc Wfc hcg hcd hch hcf hst hsb a1 a2 az h1 h2 g1 g2 hz f1 f2 fz hcat hsplit]

/-- The whole closing stage in the host's spelling: the doubled contraction splits into the two contractions with the halves
    of the weight matrix. -/
theorem tail_eq_host (Zg Zh : FVec Ideal ⟨2, ![A, K]⟩ .f32) (bg bh : FVec Ideal ⟨1, ![K]⟩ .f32)
    (d : FVec Ideal ⟨1, ![A]⟩ .f32) (bfc : FVec Ideal ⟨1, ![H]⟩ .f32) (bo : FVec Ideal ⟨1, ![M]⟩ .f32)
    (Wfc : FVec Ideal ⟨2, ![K + K, H]⟩ .f32) (Wo : FVec Ideal ⟨2, ![H, M]⟩ .f32)
    (hcg : (⟨1, ![K]⟩ : Shape).ShapeCasts ⟨2, ![1, K]⟩) (hcd : (⟨1, ![A]⟩ : Shape).ShapeCasts ⟨2, ![A, 1]⟩)
    (hch : (⟨1, ![K]⟩ : Shape).ShapeCasts ⟨2, ![1, K]⟩) (hcf : (⟨1, ![H]⟩ : Shape).ShapeCasts ⟨2, ![1, H]⟩)
    (hco : (⟨1, ![M]⟩ : Shape).ShapeCasts ⟨2, ![1, M]⟩)
    (hst : (⟨2, ![K + K, H]⟩ : Shape).Slices ![0, 0] ⟨2, ![K, H]⟩) (hsb : (⟨2, ![K + K, H]⟩ : Shape).Slices ![K, 0] ⟨2, ![K, H]⟩)
    (a1 : (⟨1, ![K]⟩ : Shape).BroadcastsInDim ⟨2, ![1, K]⟩ ![1]) (a2 : (⟨2, ![1, K]⟩ : Shape).BroadcastsInDim ⟨2, ![A, K]⟩ ![0, 1])
    (az : (⟨0, ![]⟩ : Shape).BroadcastsInDim ⟨2, ![A, K]⟩ ![])
    (h1 : (⟨1, ![A]⟩ : Shape).BroadcastsInDim ⟨2, ![A, 1]⟩ ![0]) (h2 : (⟨2, ![A, 1]⟩ : Shape).BroadcastsInDim ⟨2, ![A, K]⟩ ![0, 1])
    (g1 : (⟨1, ![K]⟩ : Shape).BroadcastsInDim ⟨2, ![1, K]⟩ ![1]) (g2 : (⟨2, ![1, K]⟩ : Shape).BroadcastsInDim ⟨2, ![A, K]⟩ ![0, 1])
    (hz : (⟨0, ![]⟩ : Shape).BroadcastsInDim ⟨2, ![A, K]⟩ ![])
    (f1 : (⟨1, ![H]⟩ : Shape).BroadcastsInDim ⟨2, ![1, H]⟩ ![1]) (f2 : (⟨2, ![1, H]⟩ : Shape).BroadcastsInDim ⟨2, ![A, H]⟩ ![0, 1])
    (fz : (⟨0, ![]⟩ : Shape).BroadcastsInDim ⟨2, ![A, H]⟩ ![])
    (o1 : (⟨1, ![M]⟩ : Shape).BroadcastsInDim ⟨2, ![1, M]⟩ ![1]) (o2 : (⟨2, ![1, M]⟩ : Shape).BroadcastsInDim ⟨2, ![A, M]⟩ ![0, 1])
    (hcat : Shape.Concatenates [⟨2, ![A, K]⟩, ⟨2, ![A, K]⟩] ⟨2, ![A, K + K]⟩ 1) :
    tail Zg (shapeCast ⟨2, ![1, K]⟩ bg hcg) Zh (shapeCast ⟨2, ![A, 1]⟩ d hcd) (shapeCast ⟨2, ![1, K]⟩ bh hch)
        (extractStridedSlice ⟨2, ![K, H]⟩ ![0, 0] Wfc hst) (extractStridedSlice ⟨2, ![K, H]⟩ ![K, 0] Wfc hsb)
        (shapeCast ⟨2, ![1, H]⟩ bfc hcf) Wo (shapeCast ⟨2, ![1, M]⟩ bo hco)
      = addf (Host.dotGeneral (DotDims.plain A H M) none
            (maximumf (addf (Host.dotGeneral (DotDims.plain A (K + K) H) none
                  (concatenate ⟨2, ![A, K + K]⟩ 1
                    [⟨⟨2, ![A, K]⟩, maximumf (addf Zg (broadcastInDim ⟨2, ![A, K]⟩ ![0, 1] a2 (broadcastInDim ⟨2, ![1, K]⟩ ![1] a1 bg)))
                        (broadcastInDim ⟨2, ![A, K]⟩ ![] az (constant (F := Ideal) ⟨0, ![]⟩ .f32 0x00000000#32))⟩,
                     ⟨⟨2, ![A, K]⟩, maximumf (addf (mulf (broadcastInDim ⟨2, ![A, K]⟩ ![0, 1] h2 (broadcastInDim ⟨2, ![A, 1]⟩ ![0] h1 d)) Zh)
                          (broadcastInDim ⟨2, ![A, K]⟩ ![0, 1] g2 (broadcastInDim ⟨2, ![1, K]⟩ ![1] g1 bh)))
                        (broadcastInDim ⟨2, ![A, K]⟩ ![] hz (constant (F := Ideal) ⟨0, ![]⟩ .f32 0x00000000#32))⟩] hcat) Wfc)
                (broadcastInDim ⟨2, ![A, H]⟩ ![0, 1] f2 (broadcastInDim ⟨2, ![1, H]⟩ ![1] f1 bfc)))
              (broadcastInDim ⟨2, ![A, H]⟩ ![] fz (constant (F := Ideal) ⟨0, ![]⟩ .f32 0x00000000#32)))
            Wo)
          (broadcastInDim ⟨2, ![A, M]⟩ ![0, 1] o2 (broadcastInDim ⟨2, ![1, M]⟩ ![1] o1 bo)) :=
  tail_eq_host_of_split Zg Zh bg bh d bfc bo Wfc Wo hcg hcd hch hcf hco hst hsb a1 a2 az h1 h2 g1 g2 hz f1 f2 fz o1 o2 hcat
    (fun X1 X2 => ConcatDot.concat_dot_eq X1 X2 Wfc hcat hst hsb)

/-- At the extents of the printed programs: 100000 rows, two branches of 128 columns side by side against one weight matrix
    of 256 rows, 128 hidden columns, 2 outputs. -/
theorem tail_eq_host_lit (Zg Zh : FVec Ideal ⟨2, ![100000, 128]⟩ .f32) (bg bh : FVec Ideal ⟨1, ![128]⟩ .f32)
    (d : FVec Ideal ⟨1, ![100000]⟩ .f32) (bfc : FVec Ideal ⟨1, ![128]⟩ .f32) (bo : FVec Ideal ⟨1, ![2]⟩ .f32)
    (Wfc : FVec Ideal ⟨2, ![256, 128]⟩ .f32) (Wo : FVec Ideal ⟨2, ![128, 2]⟩ .f32)
    (hcg : (⟨1, ![128]⟩ : Shape).ShapeCasts ⟨2, ![1, 128]⟩) (hcd : (⟨1, ![100000]⟩ : Shape).ShapeCasts ⟨2, ![100000, 1]⟩)
    (hch : (⟨1, ![128]⟩ : Shape).ShapeCasts ⟨2, ![1, 128]⟩) (hcf : (⟨1, ![128]⟩ : Shape).ShapeCasts ⟨2, ![1, 128]⟩)
    (hco : (⟨1, ![2]⟩ : Shape).ShapeCasts ⟨2, ![1, 2]⟩)
    (hst : (⟨2, ![256, 128]⟩ : Shape).Slices ![0, 0] ⟨2, ![128, 128]⟩) (hsb : (⟨2, ![256, 128]⟩ : Shape).Slices ![128, 0] ⟨2, ![128, 128]⟩)
    (a1 : (⟨1, ![128]⟩ : Shape).BroadcastsInDim ⟨2, ![1, 128]⟩ ![1]) (a2 : (⟨2, ![1, 128]⟩ : Shape).BroadcastsInDim ⟨2, ![100000, 128]⟩ ![0, 1])
    (az : (⟨0, ![]⟩ : Shape).BroadcastsInDim ⟨2, ![100000, 128]⟩ ![])
    (h1 : (⟨1, ![100000]⟩ : Shape).BroadcastsInDim ⟨2, ![100000, 1]⟩ ![0]) (h2 : (⟨2, ![100000, 1]⟩ : Shape).BroadcastsInDim ⟨2, ![100000, 128]⟩ ![0, 1])
    (g1 : (⟨1, ![128]⟩ : Shape).BroadcastsInDim ⟨2, ![1, 128]⟩ ![1]) (g2 : (⟨2, ![1, 128]⟩ : Shape).BroadcastsInDim ⟨2, ![100000, 128]⟩ ![0, 1])
    (hz : (⟨0, ![]⟩ : Shape).BroadcastsInDim ⟨2, ![100000, 128]⟩ ![])
    (f1 : (⟨1, ![128]⟩ : Shape).BroadcastsInDim ⟨2, ![1, 128]⟩ ![1]) (f2 : (⟨2, ![1, 128]⟩ : Shape).BroadcastsInDim ⟨2, ![100000, 128]⟩ ![0, 1])
    (fz : (⟨0, ![]⟩ : Shape).BroadcastsInDim ⟨2, ![100000, 128]⟩ ![])
    (o1 : (⟨1, ![2]⟩ : Shape).BroadcastsInDim ⟨2, ![1, 2]⟩ ![1]) (o2 : (⟨2, ![1, 2]⟩ : Shape).BroadcastsInDim ⟨2, ![100000, 2]⟩ ![0, 1])
    (hcat : Shape.Concatenates [⟨2, ![100000, 128]⟩, ⟨2, ![100000, 128]⟩] ⟨2, ![100000, 256]⟩ 1) :
    tail Zg (shapeCast ⟨2, ![1, 128]⟩ bg hcg) Zh (shapeCast ⟨2, ![100000, 1]⟩ d hcd) (shapeCast ⟨2, ![1, 128]⟩ bh hch)
        (extractStridedSlice ⟨2, ![128, 128]⟩ ![0, 0] Wfc hst) (extractStridedSlice ⟨2, ![128, 128]⟩ ![128, 0] Wfc hsb)
        (shapeCast ⟨2, ![1, 128]⟩ bfc hcf) Wo (shapeCast ⟨2, ![1, 2]⟩ bo hco)
      = addf (Host.dotGeneral (DotDims.plain 100000 128 2) none
            (maximumf (addf (Host.dotGeneral (DotDims.plain 100000 (256) 128) none
                  (concatenate ⟨2, ![100000, 256]⟩ 1
                    [⟨⟨2, ![100000, 128]⟩, maximumf (addf Zg (broadcastInDim ⟨2, ![100000, 128]⟩ ![0, 1] a2 (broadcastInDim ⟨2, ![1, 128]⟩ ![1] a1 bg)))
                        (broadcastInDim ⟨2, ![100000, 128]⟩ ![] az (constant (F := Ideal) ⟨0, ![]⟩ .f32 0x00000000#32))⟩,
                     ⟨⟨2, ![100000, 128]⟩, maximumf (addf (mulf (broadcastInDim ⟨2, ![100000, 128]⟩ ![0, 1] h2 (broadcastInDim ⟨2, ![100000, 1]⟩ ![0] h1 d)) Zh)
                          (broadcastInDim ⟨2, ![100000, 128]⟩ ![0, 1] g2 (broadcastInDim ⟨2, ![1, 128]⟩ ![1] g1 bh)))
                        (broadcastInDim ⟨2, ![100000, 128]⟩ ![] hz (constant (F := Ideal) ⟨0, ![]⟩ .f32 0x00000000#32))⟩] hcat) Wfc)
                (broadcastInDim ⟨2, ![100000, 128]⟩ ![0, 1] f2 (broadcastInDim ⟨2, ![1, 128]⟩ ![1] f1 bfc)))
              (broadcastInDim ⟨2, ![100000, 128]⟩ ![] fz (constant (F := Ideal) ⟨0, ![]⟩ .f32 0x00000000#32)))
            Wo)
          (broadcastInDim ⟨2, ![100000, 2]⟩ ![0, 1] o2 (broadcastInDim ⟨2, ![1, 2]⟩ ![1] o1 bo)) :=
  tail_eq_host (A := 100000) (K := 128) (H := 128) (M := 2) Zg Zh bg bh d bfc bo Wfc Wo hcg hcd hch hcf hco hst hsb a1 a2 az h1 h2 g1 g2 hz f1 f2 fz o1 o2 hcat

end Idealize.ShloMosaic.Tail
-- ==== Proof.HostForms.lean ====
/-
  The reference's dense stages, in the host's own spelling, as the whole-array functions the kernel's row-tiled regions leave:
  rows times weights; bias and rectifier in front of the product; rows scaled by a column in front of the product; inverse
  degree, bias and rectifier in front of the product; and the closing stage (two rectified branches laid side by side against
  ONE weight matrix, bias, rectifier, output projection and bias). Each is an equality of whole arrays over the extended reals
  with no finiteness: a sum of products spelt twice, a product commuted, a sum over 256 columns cut into two of 128.
-/
import proofs.«178827_j8151847928475_2_alg».proof.ReferenceIdeal
import proofs.«178827_j8151847928475_2_alg».proof.Proof.Gen.ReferenceIdeal
import proofs.«178827_j8151847928475_2_alg».proof.Proof.Gen.KernelIdeal
import proofs.«178827_j8151847928475_2_alg».proof.Proof.LibLayerForms
import proofs.«178827_j8151847928475_2_alg».proof.Proof.Region2
import proofs.«178827_j8151847928475_2_alg».proof.Proof.Region3
import proofs.«178827_j8151847928475_2_alg».proof.Proof.TailHost

noncomputable section

namespace Cert.ReferenceIdeal.HostForms

open Cert.ReferenceIdeal Cert.ReferenceIdeal.Facts₀ Cert.ReferenceIdeal.Facts Idealize.ShloMosaic Idealize.ShloMosaic.TcCoe

/-- Rows times weights. -/
theorem host0 (X : FVec Ideal S100000x128 .f32) (W : FVec Ideal S128x128 .f32) :
    (Host.dotGeneral dot_S100000x128_S128x128_S100000x128_1_0_0_1_n_n none X W) = RowProduct.prod X W :=
  RowProduct.host_eq none .single X W

/-- Bias and rectifier in front of the product. -/
theorem host1 (Z : FVec Ideal S100000x128 .f32) (b : FVec Ideal S128 .f32) (W : FVec Ideal S128x128 .f32) :
    (Host.dotGeneral dot_S100000x128_S128x128_S100000x128_1_0_0_1_n_n none (maximumf (addf Z (broadcastInDim S100000x128 ![0, 1] bcast_S1x128_S100000x128_0_1 (broadcastInDim S1x128 ![1] bcast_S128_S1x128_1 b))) (broadcastInDim S100000x128 ![] bcast_S_S100000x128 (constant S_ .f32 0x00000000#32))) W)
      = RowProduct.prod (BiasRelu.biasRelu Z (shapeCast S1x128 b Cert.KernelIdeal.Facts₀.shapeCasts_S128_S1x128)) W :=
  (LayerForms.biasRelu_prod_eq_host Z b W _ _ _ _).symm

/-- The rows scaled by a column in front of the product. -/
theorem host2 (X : FVec Ideal S100000x128 .f32) (s : FVec Ideal S100000 .f32) (W : FVec Ideal S128x128 .f32) :
    (Host.dotGeneral dot_S100000x128_S128x128_S100000x128_1_0_0_1_n_n none (mulf X (broadcastInDim S100000x128 ![0, 1] bcast_S100000x1_S100000x128_0_1 (broadcastInDim S100000x1 ![0] bcast_S100000_S100000x1_0 s))) W)
      = RowProduct.prod (ScaleRows.scaleRows X (shapeCast S100000x1 s Cert.KernelIdeal.Facts₀.shapeCasts_S100000_S100000x1)) W :=
  (ScaleRows.scaleProd_eq_host X s W _ _ _).symm

/-- Inverse degree, bias and rectifier in front of the product. -/
theorem host3 (Z : FVec Ideal S100000x128 .f32) (d : FVec Ideal S100000 .f32) (b : FVec Ideal S128 .f32)
    (W : FVec Ideal S128x128 .f32) :
    (Host.dotGeneral dot_S100000x128_S128x128_S100000x128_1_0_0_1_n_n none (maximumf (addf (mulf (broadcastInDim S100000x128 ![0, 1] bcast_S100000x1_S100000x128_0_1 (broadcastInDim S100000x1 ![0] bcast_S100000_S100000x1_0 d)) Z) (broadcastInDim S100000x128 ![0, 1] bcast_S1x128_S100000x128_0_1 (broadcastInDim S1x128 ![1] bcast_S128_S1x128_1 b))) (broadcastInDim S100000x128 ![] bcast_S_S100000x128 (constant S_ .f32 0x00000000#32))) W)
      = RowProduct.prod (DinvBiasRelu.dinvBiasRelu Z (shapeCast S100000x1 d Cert.KernelIdeal.Facts₀.shapeCasts_S100000_S100000x1)
          (shapeCast S1x128 b Cert.KernelIdeal.Facts₀.shapeCasts_S128_S1x128)) W :=
  (DinvBiasRelu.dinvProd_eq_host Z d b _ _ _ _ _ _ _ W).symm

/-- The closing stage. -/
theorem hostT (Zg Zh : FVec Ideal S100000x128 .f32) (bg bh bfc : FVec Ideal S128 .f32) (d : FVec Ideal S100000 .f32)
    (bo : FVec Ideal S2 .f32) (Wfc : FVec Ideal S256x128 .f32) (Wo : FVec Ideal S128x2 .f32) :
    addf (Host.dotGeneral dot_S100000x128_S128x2_S100000x2_1_0_0_1_n_n none (maximumf (addf (Host.dotGeneral dot_S100000x256_S256x128_S100000x128_1_0_0_1_n_n none (concatenate S100000x256 1 [⟨S100000x128, (maximumf (addf Zg (broadcastInDim S100000x128 ![0, 1] bcast_S1x128_S100000x128_0_1 (broadcastInDim S1x128 ![1] bcast_S128_S1x128_1 bg))) (broadcastInDim S100000x128 ![] bcast_S_S100000x128 (constant S_ .f32 0x00000000#32)))⟩, ⟨S100000x128, (maximumf (addf (mulf (broadcastInDim S100000x128 ![0, 1] bcast_S100000x1_S100000x128_0_1 (broadcastInDim S100000x1 ![0] bcast_S100000_S100000x1_0 d)) Zh) (broadcastInDim S100000x128 ![0, 1] bcast_S1x128_S100000x128_0_1 (broadcastInDim S1x128 ![1] bcast_S128_S1x128_1 bh))) (broadcastInDim S100000x128 ![] bcast_S_S100000x128 (constant S_ .f32 0x00000000#32)))⟩] concatenates_S100000x128_S100000x128_S100000x256_d1) Wfc) (broadcastInDim S100000x128 ![0, 1] bcast_S1x128_S100000x128_0_1 (broadcastInDim S1x128 ![1] bcast_S128_S1x128_1 bfc))) (broadcastInDim S100000x128 ![] bcast_S_S100000x128 (constant S_ .f32 0x00000000#32))) Wo) (broadcastInDim S100000x2 ![0, 1] bcast_S1x2_S100000x2_0_1 (broadcastInDim S1x2 ![1] bcast_S2_S1x2_1 bo))
      = Tail.tail Zg (shapeCast S1x128 bg Cert.KernelIdeal.Facts₀.shapeCasts_S128_S1x128) Zh (shapeCast S100000x1 d Cert.KernelIdeal.Facts₀.shapeCasts_S100000_S100000x1)
          (shapeCast S1x128 bh Cert.KernelIdeal.Facts₀.shapeCasts_S128_S1x128)
          (extractStridedSlice S128x128 ![0, 0] Wfc Cert.KernelIdeal.Facts₀.slices_S256x128_S128x128_0_0)
          (extractStridedSlice S128x128 ![128, 0] Wfc Cert.KernelIdeal.Facts₀.slices_S256x128_S128x128_128_0)
          (shapeCast S1x128 bfc Cert.KernelIdeal.Facts₀.shapeCasts_S128_S1x128) Wo (shapeCast S1x2 bo Cert.KernelIdeal.Facts₀.shapeCasts_S2_S1x2) :=
  (Tail.tail_eq_host_lit Zg Zh bg bh d bfc bo Wfc Wo _ _ _ _ _ _ _ _ _ _ _ _ _ _ _ _ _ _ _ _ _).symm

end Cert.ReferenceIdeal.HostForms

end
-- ==== Proof.KernelValue.lean ====
/-
  The kernel program's result as one term of its arguments. @main is a fold: stretches of host operations, each the pure
  function of the buffers it reads, alternate with five row-tiled regions, each of which leaves in its output array one
  whole-array function of its input arrays (the dense stages) and every other buffer as it was. Unfolding the fold from the
  result back to the launch memory, with the five stages kept as function variables, gives the same tree of host operations
  over the argument arrays as the reference's own program — for any float instance, since nothing of a float's arithmetic is
  opened. At the extended reals the stages are the regions' whole-array functions on the kernel's side and the host's
  spellings of the dense layers on the reference's, joined by the whole-array equalities of those layers alone.
-/
import proofs.«178827_j8151847928475_2_alg».proof.Proof.Gen.KernelIdeal.Frame
import proofs.«178827_j8151847928475_2_alg».proof.Proof.Region0
import proofs.«178827_j8151847928475_2_alg».proof.Proof.Region1
import proofs.«178827_j8151847928475_2_alg».proof.Proof.Region2
import proofs.«178827_j8151847928475_2_alg».proof.Proof.Region3
import proofs.«178827_j8151847928475_2_alg».proof.Proof.Region4
import proofs.«178827_j8151847928475_2_alg».proof.Proof.RefRun
import proofs.«178827_j8151847928475_2_alg».proof.Proof.RefTree
import proofs.«178827_j8151847928475_2_alg».proof.Proof.HostForms
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

section AnyFloat

variable {F : FTy → Type} [FloatOps F]
variable (m : (ℓ : Loc nD τ sig) → Buf (Elt F) ℓ) (ρ : Dev nD → PrngReg)

/-- Region 0 leaves every buffer but its output array as it found it. -/
theorem W4_ne (c : Dev nD) (b : Ref sig .tc) (hb : b ≠ main_v32) :
    W4 m ρ c (no_index (Proc.devRef .tc b)) = W3 m ρ c (Proc.devRef .tc b) := by
  by_cases h : ∀ w, Pipeline.arrRef spec0 w ≠ b
  · exact W4_of_ne m ρ c b h
  · obtain ⟨w, hw⟩ := not_forall.mp h
    have hw' : Pipeline.arrRef spec0 w = b := not_not.mp hw
    subst hw'
    match w with
    | ⟨0, _⟩ => exact (W4_arr m ρ c 0).trans (((dat0 (V3 m ρ) c).arrAt_in 0 rfl _).trans (A_eq0 (V3 m ρ) c 0))
    | ⟨1, _⟩ => exact (W4_arr m ρ c 1).trans (((dat0 (V3 m ρ) c).arrAt_in 1 rfl _).trans (A_eq0 (V3 m ρ) c 1))
    | ⟨2, _⟩ => exact absurd rfl hb

/-- Region 1 leaves every buffer but its output array as it found it. -/
theorem W6_ne (c : Dev nD) (b : Ref sig .tc) (hb : b ≠ main_v47) :
    W6 m ρ c (no_index (Proc.devRef .tc b)) = W5 m ρ c (Proc.devRef .tc b) := by
  by_cases h : ∀ w, Pipeline.arrRef spec1 w ≠ b
  · exact W6_of_ne m ρ c b h
  · obtain ⟨w, hw⟩ := not_forall.mp h
    have hw' : Pipeline.arrRef spec1 w = b := not_not.mp hw
    subst hw'
    match w with
    | ⟨0, _⟩ => exact (W6_arr m ρ c 0).trans (((dat1 (V5 m ρ) c).arrAt_in 0 rfl _).trans (A_eq1 (V5 m ρ) c 0))
    | ⟨1, _⟩ => exact (W6_arr m ρ c 1).trans (((dat1 (V5 m ρ) c).arrAt_in 1 rfl _).trans (A_eq1 (V5 m ρ) c 1))
    | ⟨2, _⟩ => exact (W6_arr m ρ c 2).trans (((dat1 (V5 m ρ) c).arrAt_in 2 rfl _).trans (A_eq1 (V5 m ρ) c 2))
    | ⟨3, _⟩ => exact absurd rfl hb

/-- Region 2 leaves every buffer but its output array as it found it. -/
theorem W12_ne (c : Dev nD) (b : Ref sig .tc) (hb : b ≠ main_v94) :
    W12 m ρ c (no_index (Proc.devRef .tc b)) = W11 m ρ c (Proc.devRef .tc b) := by
  by_cases h : ∀ w, Pipeline.arrRef spec2 w ≠ b
  · exact W12_of_ne m ρ c b h
  · obtain ⟨w, hw⟩ := not_forall.mp h
    have hw' : Pipeline.arrRef spec2 w = b := not_not.mp hw
    subst hw'
    match w with
    | ⟨0, _⟩ => exact (W12_arr m ρ c 0).trans (((dat2 (V11 m ρ) c).arrAt_in 0 rfl _).trans (A_eq2 (V11 m ρ) c 0))
    | ⟨1, _⟩ => exact (W12_arr m ρ c 1).trans (((dat2 (V11 m ρ) c).arrAt_in 1 rfl _).trans (A_eq2 (V11 m ρ) c 1))
    | ⟨2, _⟩ => exact (W12_arr m ρ c 2).trans (((dat2 (V11 m ρ) c).arrAt_in 2 rfl _).trans (A_eq2 (V11 m ρ) c 2))
    | ⟨3, _⟩ => exact absurd rfl hb

/-- Region 3 leaves every buffer but its output array as it found it. -/
theorem W14_ne (c : Dev nD) (b : Ref sig .tc) (hb : b ≠ main_v120) :
    W14 m ρ c (no_index (Proc.devRef .tc b)) = W13 m ρ c (Proc.devRef .tc b) := by
  by_cases h : ∀ w, Pipeline.arrRef spec3 w ≠ b
  · exact W14_of_ne m ρ c b h
  · obtain ⟨w, hw⟩ := not_forall.mp h
    have hw' : Pipeline.arrRef spec3 w = b := not_not.mp hw
    subst hw'
    match w with
    | ⟨0, _⟩ => exact (W14_arr m ρ c 0).trans (((dat3 (V13 m ρ) c).arrAt_in 0 rfl _).trans (A_eq3 (V13 m ρ) c 0))
    | ⟨1, _⟩ => exact (W14_arr m ρ c 1).trans (((dat3 (V13 m ρ) c).arrAt_in 1 rfl _).trans (A_eq3 (V13 m ρ) c 1))
    | ⟨2, _⟩ => exact (W14_arr m ρ c 2).trans (((dat3 (V13 m ρ) c).arrAt_in 2 rfl _).trans (A_eq3 (V13 m ρ) c 2))
    | ⟨3, _⟩ => exact (W14_arr m ρ c 3).trans (((dat3 (V13 m ρ) c).arrAt_in 3 rfl _).trans (A_eq3 (V13 m ρ) c 3))
    | ⟨4, _⟩ => exact absurd rfl hb

set_option maxHeartbeats 400000000 in
set_option maxRecDepth 65536 in
/-- THE FOLD: if each region's output array is a function `L` of its input arrays, the program's result is the reference's
    tree of host operations over the argument arrays with those functions at the dense stages. -/
theorem fold_eq (L0 : FVec F S100000x128 .f32 → FVec F S128x128 .f32 → FVec F S100000x128 .f32) (L1 : FVec F S100000x128 .f32 → FVec F S1x128 .f32 → FVec F S128x128 .f32 → FVec F S100000x128 .f32)
    (L2 : FVec F S100000x128 .f32 → FVec F S100000x1 .f32 → FVec F S128x128 .f32 → FVec F S100000x128 .f32) (L3 : FVec F S100000x128 .f32 → FVec F S100000x1 .f32 → FVec F S1x128 .f32 → FVec F S128x128 .f32 → FVec F S100000x128 .f32)
    (LT : FVec F S100000x128 .f32 → FVec F S1x128 .f32 → FVec F S100000x128 .f32 → FVec F S100000x1 .f32 → FVec F S1x128 .f32 → FVec F S128x128 .f32 → FVec F S128x128 .f32 → FVec F S1x128 .f32 → FVec F S128x2 .f32 → FVec F S1x2 .f32 → FVec F S100000x2 .f32)
    (H0 : ∀ c : Dev nD, W4 m ρ c (no_index (Proc.devRef .tc main_v32)) = L0 (W3 m ρ c (Proc.devRef .tc main_arg0) : FVec F S100000x128 .f32) (W3 m ρ c (Proc.devRef .tc main_arg5) : FVec F S128x128 .f32))
    (H1 : ∀ c : Dev nD, W6 m ρ c (no_index (Proc.devRef .tc main_v47)) = L1 (W5 m ρ c (Proc.devRef .tc main_v45) : FVec F S100000x128 .f32) (W5 m ρ c (Proc.devRef .tc main_v46) : FVec F S1x128 .f32) (W5 m ρ c (Proc.devRef .tc main_arg7) : FVec F S128x128 .f32))
    (H2 : ∀ c : Dev nD, W12 m ρ c (no_index (Proc.devRef .tc main_v94)) = L2 (W11 m ρ c (Proc.devRef .tc main_arg0) : FVec F S100000x128 .f32) (W11 m ρ c (Proc.devRef .tc main_v93) : FVec F S100000x1 .f32) (W11 m ρ c (Proc.devRef .tc main_arg9) : FVec F S128x128 .f32))
    (H3 : ∀ c : Dev nD, W14 m ρ c (no_index (Proc.devRef .tc main_v120)) = L3 (W13 m ρ c (Proc.devRef .tc main_v117) : FVec F S100000x128 .f32) (W13 m ρ c (Proc.devRef .tc main_v118) : FVec F S100000x1 .f32) (W13 m ρ c (Proc.devRef .tc main_v119) : FVec F S1x128 .f32) (W13 m ρ c (Proc.devRef .tc main_arg11) : FVec F S128x128 .f32))
    (HT : ∀ c : Dev nD, W16 m ρ c (no_index (Proc.devRef .tc main_v151)) = LT (W15 m ρ c (Proc.devRef .tc main_v60) : FVec F S100000x128 .f32) (W15 m ρ c (Proc.devRef .tc main_v147) : FVec F S1x128 .f32) (W15 m ρ c (Proc.devRef .tc main_v143) : FVec F S100000x128 .f32) (W15 m ρ c (Proc.devRef .tc main_v146) : FVec F S100000x1 .f32) (W15 m ρ c (Proc.devRef .tc main_v148) : FVec F S1x128 .f32) (W15 m ρ c (Proc.devRef .tc main_v144) : FVec F S128x128 .f32) (W15 m ρ c (Proc.devRef .tc main_v145) : FVec F S128x128 .f32) (W15 m ρ c (Proc.devRef .tc main_v149) : FVec F S1x128 .f32) (W15 m ρ c (Proc.devRef .tc main_arg15) : FVec F S128x2 .f32) (W15 m ρ c (Proc.devRef .tc main_v150) : FVec F S1x2 .f32))
    (c : Dev nD) :
    W16 m ρ c (Proc.devRef .tc main_v151)
      = Cert.ReferenceIdeal.refTree L0 L1 L2 L3 LT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W4_ne, W6_ne, W12_ne, W14_ne, H0, H1, H2, H3, HT]
  unfold Cert.ReferenceIdeal.refTree
  rfl

end AnyFloat

variable (m : (ℓ : Loc nD τ sig) → Buf (Elt Ideal) ℓ) (ρ : Dev nD → PrngReg)

/-- Region 0's output array: the rows of the first argument times the first weight matrix. -/
theorem W4_out (c : Dev nD) : W4 m ρ c (no_index (Proc.devRef .tc main_v32))
    = RowProduct.prod (W3 m ρ c (Proc.devRef .tc main_arg0) : FVec Ideal S100000x128 .f32) (W3 m ρ c (Proc.devRef .tc main_arg5) : FVec Ideal S128x128 .f32) :=
  (W4_arr m ρ c 2).trans (Region0.out (V3 m ρ) c)

/-- Region 1's output array. -/
theorem W6_out (c : Dev nD) : W6 m ρ c (no_index (Proc.devRef .tc main_v47))
    = RowProduct.prod (BiasRelu.biasRelu (W5 m ρ c (Proc.devRef .tc main_v45) : FVec Ideal S100000x128 .f32) (W5 m ρ c (Proc.devRef .tc main_v46) : FVec Ideal S1x128 .f32)) (W5 m ρ c (Proc.devRef .tc main_arg7) : FVec Ideal S128x128 .f32) :=
  (W6_arr m ρ c 3).trans (Region1.out (V5 m ρ) c)

/-- Region 2's output array. -/
theorem W12_out (c : Dev nD) : W12 m ρ c (no_index (Proc.devRef .tc main_v94))
    = RowProduct.prod (ScaleRows.scaleRows (W11 m ρ c (Proc.devRef .tc main_arg0) : FVec Ideal S100000x128 .f32) (W11 m ρ c (Proc.devRef .tc main_v93) : FVec Ideal S100000x1 .f32)) (W11 m ρ c (Proc.devRef .tc main_arg9) : FVec Ideal S128x128 .f32) :=
  (W12_arr m ρ c 3).trans (Region2.out (V11 m ρ) c)

/-- Region 3's output array. -/
theorem W14_out (c : Dev nD) : W14 m ρ c (no_index (Proc.devRef .tc main_v120))
    = RowProduct.prod (DinvBiasRelu.dinvBiasRelu (W13 m ρ c (Proc.devRef .tc main_v117) : FVec Ideal S100000x128 .f32) (W13 m ρ c (Proc.devRef .tc main_v118) : FVec Ideal S100000x1 .f32) (W13 m ρ c (Proc.devRef .tc main_v119) : FVec Ideal S1x128 .f32)) (W13 m ρ c (Proc.devRef .tc main_arg11) : FVec Ideal S128x128 .f32) :=
  (W14_arr m ρ c 4).trans (Region3.out (V13 m ρ) c)

/-- Region 4's output array, the program's result. -/
theorem W16_out (c : Dev nD) : W16 m ρ c (no_index (Proc.devRef .tc main_v151))
    = Tail.tail (W15 m ρ c (Proc.devRef .tc main_v60) : FVec Ideal S100000x128 .f32) (W15 m ρ c (Proc.devRef .tc main_v147) : FVec Ideal S1x128 .f32) (W15 m ρ c (Proc.devRef .tc main_v143) : FVec Ideal S100000x128 .f32) (W15 m ρ c (Proc.devRef .tc main_v146) : FVec Ideal S100000x1 .f32) (W15 m ρ c (Proc.devRef .tc main_v148) : FVec Ideal S1x128 .f32) (W15 m ρ c (Proc.devRef .tc main_v144) : FVec Ideal S128x128 .f32) (W15 m ρ c (Proc.devRef .tc main_v145) : FVec Ideal S128x128 .f32) (W15 m ρ c (Proc.devRef .tc main_v149) : FVec Ideal S1x128 .f32) (W15 m ρ c (Proc.devRef .tc main_arg15) : FVec Ideal S128x2 .f32) (W15 m ρ c (Proc.devRef .tc main_v150) : FVec Ideal S1x2 .f32) :=
  (W16_arr m ρ c 10).trans (Region4.out (V15 m ρ) c)

set_option maxRecDepth 65536 in
/-- At the extended reals the reference's result term is its tree with the regions' whole-array functions at the dense
    stages: each dense stage in the host's spelling is that function of the same operands. -/
theorem refTree_eq_res (m' : (ℓ : Loc Cert.ReferenceIdeal.nD Cert.ReferenceIdeal.τ Cert.ReferenceIdeal.sig) → Buf (Elt Ideal) ℓ) (c : Dev Cert.ReferenceIdeal.nD) :
    Cert.ReferenceIdeal.refTree (F := Ideal) RowProduct.prod (fun Z b W => RowProduct.prod (BiasRelu.biasRelu Z b) W)
        (fun X s W => RowProduct.prod (ScaleRows.scaleRows X s) W)
        (fun Z d b W => RowProduct.prod (DinvBiasRelu.dinvBiasRelu Z d b) W) Tail.tail
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      = Cert.ReferenceIdeal.ValueP.res_main_v215 m' c := by
  unfold Cert.ReferenceIdeal.refTree Cert.ReferenceIdeal.ValueP.res_main_v215
  rw [Cert.ReferenceIdeal.HostForms.hostT, Cert.ReferenceIdeal.HostForms.host3, Cert.ReferenceIdeal.HostForms.host2, Cert.ReferenceIdeal.HostForms.host1, Cert.ReferenceIdeal.HostForms.host0]

/-- The kernel program's result is the reference's result term, on arguments that agree. -/
theorem kernel_eq_ref (c : Dev nD) (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16)) :
    W16 m ρ c (Proc.devRef .tc main_v151) = Cert.ReferenceIdeal.ValueP.res_main_v215 m' c := by
  have e := fold_eq (F := Ideal) m ρ RowProduct.prod (fun Z b W => RowProduct.prod (BiasRelu.biasRelu Z b) W)
    (fun X s W => RowProduct.prod (ScaleRows.scaleRows X s) W)
    (fun Z d b W => RowProduct.prod (DinvBiasRelu.dinvBiasRelu Z d b) W) Tail.tail
    (W4_out m ρ) (W6_out m ρ) (W12_out m ρ) (W14_out m ρ) (W16_out m ρ) c
  rw [← h0, ← h1, ← h2, ← h3, ← h4, ← h5, ← h6, ← h7, ← h8, ← h9, ← h10, ← h11, ← h12, ← h13, ← h14, ← h15, ← h16] at e
  exact e.trans (refTree_eq_res m' c)

end Cert.KernelIdeal.KV

end
-- ==== Proof.lean ====
/-
  The certificate of a graph network's forward pass: a kernel program of five row-tiled dense regions among host stretches
  (degree normalisations, gathers and scatter-adds over the edges and the hyperedge incidences) against the plain reference.
  Over the extended reals the two programs compute one function: every gather, scatter-add and normalisation is the same
  operation on both sides, and each dense region leaves in its output array the whole-array function the reference spells
  with the host's own operations — rows times weights; bias and rectifier, a scaling column, or inverse degree + bias +
  rectifier in front of the product; and the closing stage, where the reference lays the two branches side by side against
  one 256-row weight matrix and the kernel adds the two products with its halves (a sum over 256 columns cut in two). No law
  used needs finiteness, so the precondition is never opened. The idealization rewrote nothing, so `preserves` is trivial;
  the three frames are the generated runs.
-/
import proofs.«178827_j8151847928475_2_alg».proof.Defs
import proofs.«178827_j8151847928475_2_alg».proof.Proof.Gen.Kernel
import proofs.«178827_j8151847928475_2_alg».proof.Proof.Gen.Kernel.Skeleton
import proofs.«178827_j8151847928475_2_alg».proof.Proof.Gen.Kernel.Launch
import proofs.«178827_j8151847928475_2_alg».proof.Proof.Gen.Kernel.Points
import proofs.«178827_j8151847928475_2_alg».proof.Proof.Gen.Kernel.Frame
import proofs.«178827_j8151847928475_2_alg».proof.Proof.Gen.KernelIdeal
import proofs.«178827_j8151847928475_2_alg».proof.Proof.Gen.KernelIdeal.Skeleton
import proofs.«178827_j8151847928475_2_alg».proof.Proof.Gen.KernelIdeal.Launch
import proofs.«178827_j8151847928475_2_alg».proof.Proof.Gen.KernelIdeal.Points
import proofs.«178827_j8151847928475_2_alg».proof.Proof.Gen.KernelIdeal.Frame
import proofs.«178827_j8151847928475_2_alg».proof.Proof.Gen.ReferenceIdeal
import proofs.«178827_j8151847928475_2_alg».proof.Proof.Gen.Pre_finite_inputs
import proofs.«178827_j8151847928475_2_alg».proof.Proof.RefRun
import proofs.«178827_j8151847928475_2_alg».proof.Proof.KernelRun
import proofs.«178827_j8151847928475_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end, from memories agreeing on the arguments, at the reference's result term: the reference by its run, the
    kernel program by its run read back through the regions' whole-array functions. -/
theorem algebraic : Cert.algebraic_KernelIdeal_ReferenceIdeal := by
  intro m ρ m' ρ' _ hagree
  refine ⟨fun c => Cert.ReferenceIdeal.ValueP.res_main_v215 m' c, ?_, Cert.ReferenceIdeal.ValueP.run (F := Ideal) m' ρ'⟩
  refine (θ_run Cert.KernelIdeal.defs _ _).mono (fun r h c => ⟨(h c).1.trans ?_, (h c).2⟩)
    (Cert.KernelIdeal.ValueRun.run (F := Ideal) m ρ)
  obtain ⟨h0, h1, h2, h3, h4, h5, h6, h7, h8, h9, h10, h11, h12, h13, h14, h15, h16⟩ := hagree c
  exact Cert.KernelIdeal.KV.kernel_eq_ref m ρ c m' h0 h1 h2 h3 h4 h5 h6 h7 h8 h9 h10 h11 h12 h13 h14 h15 h16

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
